-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x512x512 : Shape := ⟨4, ![8, 16, 512, 512]⟩
abbrev S8x128x16x512 : Shape := ⟨4, ![8, 128, 16, 512]⟩
abbrev S128x384 : Shape := ⟨2, ![128, 384]⟩
abbrev S128 : Shape := ⟨1, ![128]⟩
abbrev S128x128 : Shape := ⟨2, ![128, 128]⟩
abbrev S_ : Shape := ⟨0, ![]⟩

class Facts : Prop where
  bcast_S_S8x16x512x512 : S_.BroadcastsInDim S8x16x512x512 (![] : Fin 0 → Fin S8x16x512x512.rank)
  reducesTo_S8x16x512x512_S_d0_1_2_3 : S8x16x512x512.ReducesTo [0, 1, 2, 3] S_
  h_S_ : 0 < S_.numel
  bcast_S_S8x128x16x512 : S_.BroadcastsInDim S8x128x16x512 (![] : Fin 0 → Fin S8x128x16x512.rank)
  reducesTo_S8x128x16x512_S_d0_1_2_3 : S8x128x16x512.ReducesTo [0, 1, 2, 3] S_
  bcast_S_S128x384 : S_.BroadcastsInDim S128x384 (![] : Fin 0 → Fin S128x384.rank)
  reducesTo_S128x384_S_d0_1 : S128x384.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S8x16x512x512 .f32) (main_arg1 : FVec F S8x128x16x512 .f32) (main_arg2 : FVec F S128x384 .f32) (main_arg3 : FVec F S128 .f32) (main_arg4 : FVec F S128x128 .f32) (main_arg5 : FVec F S128 .f32) : IVec S_ 1 :=
  let main_v0 : FVec F S8x16x512x512 .f32 := Host.absf main_arg0
  let main_cst : FVec F S_ .f32 := constant S_ .f32 0x7F800000#32
  let main_v1 : FVec F S8x16x512x512 .f32 := broadcastInDim S8x16x512x512 ![] bcast_S_S8x16x512x512 main_cst
  let main_v2 : IVec S8x16x512x512 1 := cmpf .olt main_v0 main_v1
  let main_c : IVec S_ 1 := constantI S_ 1 1#1
  let main_v3 : IVec S_ 1 := (fun x v => Host.reduce IntOp.andi x v reducesTo_S8x16x512x512_S_d0_1_2_3 h_S_) main_v2 main_c
  let main_v4 : FVec F S8x128x16x512 .f32 := Host.absf main_arg1
  let main_cst_0 : FVec F S_ .f32 := constant S_ .f32 0x7F800000#32
  let main_v5 : FVec F S8x128x16x512 .f32 := broadcastInDim S8x128x16x512 ![] bcast_S_S8x128x16x512 main_cst_0
  let main_v6 : IVec S8x128x16x512 1 := cmpf .olt main_v4 main_v5
  let main_c_1 : IVec S_ 1 := constantI S_ 1 1#1
  let main_v7 : IVec S_ 1 := (fun x v => Host.reduce IntOp.andi x v reducesTo_S8x128x16x512_S_d0_1_2_3 h_S_) main_v6 main_c_1
  let main_v8 : IVec S_ 1 := andi main_v3 main_v7
  let main_v9 : FVec F S128x384 .f32 := Host.absf main_arg2
  let main_cst_2 : FVec F S_ .f32 := constant S_ .f32 0x7F800000#32
  let main_v10 : FVec F S128x384 .f32 := broadcastInDim S128x384 ![] bcast_S_S128x384 main_cst_2
  let main_v11 : IVec S128x384 1 := cmpf .olt main_v9 main_v10
  let main_c_3 : IVec S_ 1 := constantI S_ 1 1#1
  let main_v12 : IVec S_ 1 := (fun x v => Host.reduce IntOp.andi x v reducesTo_S128x384_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S8x16x512x512 : Shape := ⟨4, ![8, 16, 512, 512]⟩
abbrev S8x128x16x512 : Shape := ⟨4, ![8, 128, 16, 512]⟩
abbrev S128x384 : Shape := ⟨2, ![128, 384]⟩
abbrev S128 : Shape := ⟨1, ![128]⟩
abbrev S128x128 : Shape := ⟨2, ![128, 128]⟩
abbrev S256x128 : Shape := ⟨2, ![256, 128]⟩
abbrev S128x1 : Shape := ⟨2, ![128, 1]⟩
abbrev S1x128x16x512 : Shape := ⟨4, ![1, 128, 16, 512]⟩
abbrev S1x3x512x512 : Shape := ⟨4, ![1, 3, 512, 512]⟩
abbrev S3x512x512 : Shape := ⟨3, ![3, 512, 512]⟩
abbrev S8x512 : Shape := ⟨2, ![8, 512]⟩
abbrev S256x512 : Shape := ⟨2, ![256, 512]⟩
abbrev S128x512 : Shape := ⟨2, ![128, 512]⟩
abbrev S1x1x512x512 : Shape := ⟨4, ![1, 1, 512, 512]⟩
abbrev S512x512 : Shape := ⟨2, ![512, 512]⟩
abbrev S1x512x512 : Shape := ⟨3, ![1, 512, 512]⟩
abbrev S512 : Shape := ⟨1, ![512]⟩
abbrev S1x512 : Shape := ⟨2, ![1, 512]⟩
abbrev S1x128x1x512 : Shape := ⟨4, ![1, 128, 1, 512]⟩

abbrev nBuf : Space → Nat
  | .hbm => 15
  | .vmem => 16
  | .smem => 0
  | _ => 0

abbrev bufTy : (tb : Table) → Fin (tcTables nBuf tb) → BufTy
  | .hbm, ⟨0, _⟩ => ⟨S8x16x512x512, .f32⟩
  | .hbm, ⟨1, _⟩ => ⟨S8x128x16x512, .f32⟩
  | .hbm, ⟨2, _⟩ => ⟨S128x384, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S256x128, .f32⟩
  | .hbm, ⟨12, _⟩ => ⟨S128x1, .f32⟩
  | .hbm, ⟨13, _⟩ => ⟨S128x1, .f32⟩
  | .hbm, ⟨14, _⟩ => ⟨S8x128x16x512, .f32⟩
  | .local _ .vmem, ⟨0, _⟩ => ⟨S1x128x16x512, .f32⟩
  | .local _ .vmem, ⟨1, _⟩ => ⟨S1x128x16x512, .f32⟩
  | .local _ .vmem, ⟨2, _⟩ => ⟨S1x3x512x512, .f32⟩
  | .local _ .vmem, ⟨3, _⟩ => ⟨S1x3x512x512, .f32⟩
  | .local _ .vmem, ⟨4, _⟩ => ⟨S256x128, .f32⟩
  | .local _ .vmem, ⟨5, _⟩ => ⟨S128x128, .f32⟩
  | .local _ .vmem, ⟨6, _⟩ => ⟨S128x1, .f32⟩
  | .local _ .vmem, ⟨7, _⟩ => ⟨S128x1, .f32⟩
  | .local _ .vmem, ⟨8, _⟩ => ⟨S1x128x16x512, .f32⟩
  | .local _ .vmem, ⟨9, _⟩ => ⟨S1x128x16x512, .f32⟩
  | .local _ .vmem, ⟨10, _⟩ => ⟨S3x512x512, .bf16⟩
  | .local _ .vmem, ⟨11, _⟩ => ⟨S8x512, .f32⟩
  | .local _ .vmem, ⟨12, _⟩ => ⟨S256x512, .f32⟩
  | .local _ .vmem, ⟨13, _⟩ => ⟨S256x512, .f32⟩
  | .local _ .vmem, ⟨14, _⟩ => ⟨S256x512, .f32⟩
  | .local _ .vmem, ⟨15, _⟩ => ⟨S128x512, .f32⟩
  | _, _ => ⟨S8x16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_scratch5 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x128x16x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x128x16x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S128x384_S128x128_0_0 : S128x384.Slices ![0, 0] S128x128
  slices_S128x384_S128x128_0_128 : S128x384.Slices ![0, 128] S128x128
  slices_S128x384_S128x128_0_256 : S128x384.Slices ![0, 256] S128x128
  concatenates_S128x128_S128x128_S256x128_d0 : Shape.Concatenates [S128x128, S128x128] S256x128 0
  shapeCasts_S128_S128x1 : S128.ShapeCasts S128x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S1x3x512x512_S1x1x512x512_0_0_0_0 : ∀ a, (![0, 0, 0, 0] : Fin 4 → Nat) a + S1x1x512x512.size a ≤ S1x3x512x512.size a
  h_S1x1x512x512 : 0 < S1x1x512x512.numel
  shapeCasts_S1x1x512x512_S512x512 : S1x1x512x512.ShapeCasts S512x512
  natLt_1_32 : 1 < 32
  inb_S3x512x512_S1x512x512_0_0_0 : ∀ a, (![0, 0, 0] : Fin 3 → Nat) a + S1x512x512.size a ≤ S3x512x512.size a
  h_S1x512x512 : 0 < S1x512x512.numel
  shapeCasts_S1x512x512_S512x512 : S1x512x512.ShapeCasts S512x512
  shapeCasts_S512x512_S1x512x512 : S512x512.ShapeCasts S1x512x512
  packedbf16_S3x512x512_S1x512x512_0_0_0 : (Rect.unit (s := S3x512x512) ![0, 0, 0] S1x512x512.size inb_S3x512x512_S1x512x512_0_0_0).PackedRows (EltTy.packing .bf16)
  reduces_S512x512_S512 : S512x512.Reduces [0] S512
  inb_S8x512_S1x512_0_0 : ∀ a, (![0, 0] : Fin 2 → Nat) a + S1x512.size a ≤ S8x512.size a
  h_S1x512 : 0 < S1x512.numel
  shapeCasts_S1x512_S512 : S1x512.ShapeCasts S512
  shapeCasts_S512_S1x512 : S512.ShapeCasts S1x512
  inb_S1x3x512x512_S1x1x512x512_0_1_0_0 : ∀ a, (![0, 1, 0, 0] : Fin 4 → Nat) a + S1x1x512x512.size a ≤ S1x3x512x512.size a
  inb_S3x512x512_S1x512x512_1_0_0 : ∀ a, (![1, 0, 0] : Fin 3 → Nat) a + S1x512x512.size a ≤ S3x512x512.size a
  packedbf16_S3x512x512_S1x512x512_1_0_0 : (Rect.unit (s := S3x512x512) ![1, 0, 0] S1x512x512.size inb_S3x512x512_S1x512x512_1_0_0).PackedRows (EltTy.packing .bf16)
  inb_S8x512_S1x512_1_0 : ∀ a, (![1, 0] : Fin 2 → Nat) a + S1x512.size a ≤ S8x512.size a
  inb_S1x3x512x512_S1x1x512x512_0_2_0_0 : ∀ a, (![0, 2, 0, 0] : Fin 4 → Nat) a + S1x1x512x512.size a ≤ S1x3x512x512.size a
  inb_S3x512x512_S1x512x512_2_0_0 : ∀ a, (![2, 0, 0] : Fin 3 → Nat) a + S1x512x512.size a ≤ S3x512x512.size a
  packedbf16_S3x512x512_S1x512x512_2_0_0 : (Rect.unit (s := S3x512x512) ![2, 0, 0] S1x512x512.size inb_S3x512x512_S1x512x512_2_0_0).PackedRows (EltTy.packing .bf16)
  inb_S8x512_S1x512_2_0 : ∀ a, (![2, 0] : Fin 2 → Nat) a + S1x512.size a ≤ S8x512.size a
  inb_S1x128x16x512_S1x128x1x512_0_0_0_0 : ∀ a, (![0, 0, 0, 0] : Fin 4 → Nat) a + S1x128x1x512.size a ≤ S1x128x16x512.size a
  h_S1x128x1x512 : 0 < S1x128x1x512.numel
  shapeCasts_S1x128x1x512_S128x512 : S1x128x1x512.ShapeCasts S128x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S256x512_S128x512_0_0 : ∀ a, (![0, 0] : Fin 2 → Nat) a + S128x512.size a ≤ S256x512.size a
  h_S128x512 : 0 < S128x512.numel
  inb_S256x512_S128x512_128_0 : ∀ a, (![128, 0] : Fin 2 → Nat) a + S128x512.size a ≤ S256x512.size a
  shapeCasts_S128x512_S128x512 : S128x512.ShapeCasts S128x512
  broadcasts_S128x1_S128x512 : S128x1.Broadcasts S128x512
  broadcasts_S1x512_S128x512 : S1x512.Broadcasts S128x512
  inb_S128x512_S128x512_0_0 : ∀ a, (![0, 0] : Fin 2 → Nat) a + S128x512.size a ≤ S128x512.size a
  shapeCasts_S128x512_S1x128x1x512 : S128x512.ShapeCasts S1x128x1x512
  inb_S1x128x16x512_S1x128x1x512_0_0_1_0 : ∀ a, (![0, 0, 1, 0] : Fin 4 → Nat) a + S1x128x1x512.size a ≤ S1x128x16x512.size a
  inb_S1x128x16x512_S1x128x1x512_0_0_2_0 : ∀ a, (![0, 0, 2, 0] : Fin 4 → Nat) a + S1x128x1x512.size a ≤ S1x128x16x512.size a
  inb_S1x128x16x512_S1x128x1x512_0_0_3_0 : ∀ a, (![0, 0, 3, 0] : Fin 4 → Nat) a + S1x128x1x512.size a ≤ S1x128x16x512.size a
  inb_S1x128x16x512_S1x128x1x512_0_0_4_0 : ∀ a, (![0, 0, 4, 0] : Fin 4 → Nat) a + S1x128x1x512.size a ≤ S1x128x16x512.size a
  inb_S1x128x16x512_S1x128x1x512_0_0_5_0 : ∀ a, (![0, 0, 5, 0] : Fin 4 → Nat) a + S1x128x1x512.size a ≤ S1x128x16x512.size a
  inb_S1x128x16x512_S1x128x1x512_0_0_6_0 : ∀ a, (![0, 0, 6, 0] : Fin 4 → Nat) a + S1x128x1x512.size a ≤ S1x128x16x512.size a
  inb_S1x128x16x512_S1x128x1x512_0_0_7_0 : ∀ a, (![0, 0, 7, 0] : Fin 4 → Nat) a + S1x128x1x512.size a ≤ S1x128x16x512.size a
  inb_S1x128x16x512_S1x128x1x512_0_0_8_0 : ∀ a, (![0, 0, 8, 0] : Fin 4 → Nat) a + S1x128x1x512.size a ≤ S1x128x16x512.size a
  inb_S1x128x16x512_S1x128x1x512_0_0_9_0 : ∀ a, (![0, 0, 9, 0] : Fin 4 → Nat) a + S1x128x1x512.size a ≤ S1x128x16x512.size a
  inb_S1x128x16x512_S1x128x1x512_0_0_10_0 : ∀ a, (![0, 0, 10, 0] : Fin 4 → Nat) a + S1x128x1x512.size a ≤ S1x128x16x512.size a
  inb_S1x128x16x512_S1x128x1x512_0_0_11_0 : ∀ a, (![0, 0, 11, 0] : Fin 4 → Nat) a + S1x128x1x512.size a ≤ S1x128x16x512.size a
  inb_S1x128x16x512_S1x128x1x512_0_0_12_0 : ∀ a, (![0, 0, 12, 0] : Fin 4 → Nat) a + S1x128x1x512.size a ≤ S1x128x16x512.size a
  inb_S1x128x16x512_S1x128x1x512_0_0_13_0 : ∀ a, (![0, 0, 13, 0] : Fin 4 → Nat) a + S1x128x1x512.size a ≤ S1x128x16x512.size a
  inb_S1x128x16x512_S1x128x1x512_0_0_14_0 : ∀ a, (![0, 0, 14, 0] : Fin 4 → Nat) a + S1x128x1x512.size a ≤ S1x128x16x512.size a
  inb_S1x128x16x512_S1x128x1x512_0_0_15_0 : ∀ a, (![0, 0, 15, 0] : Fin 4 → Nat) a + S1x128x1x512.size a ≤ S1x128x16x512.size a
  dot_S256x128_S128x512_S256x512_1_0_0_1_n_n_wf : DotDims.WF S256x128 S128x512 S256x512 [1] [0] [0] [1] [] []
  dot_S256x512_S512x512_S256x512_1_0_0_1_n_n_wf : DotDims.WF S256x512 S512x512 S256x512 [1] [0] [0] [1] [] []
  dot_S128x128_S128x512_S128x512_1_0_0_1_n_n_wf : DotDims.WF S128x128 S128x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x16x512.size a ≤ S8x128x16x512.size a
  hwx0_0 : ∀ i : grid0.Coords, EltTy.bits .f32 = 32 ∨ (Rect.block (s := S8x128x16x512) S1x128x16x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1x3x512x512.size a < S8x16x512x512.size a
  hwx0_1 : ∀ i : grid0.Coords, EltTy.bits .f32 = 32 ∨ (Rect.unit (s := S8x16x512x512) (fun a => cc0_transform_1 i a * S1x3x512x512.size a) (fun a => (Pipeline.Clip.of (cc0_transform_1 i a) (S1x3x512x512.size a) (S8x16x512x512.size a)).extent (S1x3x512x512.size a)) fun a => Pipeline.Clip.inb (Pipeline.Clip.ok_of (hstart0_1 i a))).WholeWords (EltTy.packing .f32)
  hwxs0_1 : ∀ i : grid0.Coords, EltTy.bits .f32 = 32 ∨ (Rect.unit (s := S1x3x512x512) (fun _ => 0) (fun a => (Pipeline.Clip.of (cc0_transform_1 i a) (S1x3x512x512.size a) (S8x16x512x512.size a)).extent (S1x3x512x512.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x1.size a ≤ S128x1.size a
  hwx0_4 : ∀ i : grid0.Coords, EltTy.bits .f32 = 32 ∨ (Rect.block (s := S128x1) S128x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x16x512.size a ≤ S8x128x16x512.size a
  hwx0_6 : ∀ i : grid0.Coords, EltTy.bits .f32 = 32 ∨ (Rect.block (s := S8x128x16x512) S1x128x16x512.size (cc0_transform_6 i) (hinb0_6 i)).WholeWords (EltTy.packing .f32)

variable [Facts₀]

def dot_S256x128_S128x512_S256x512_1_0_0_1_n_n : DotDims S256x128 S128x512 S256x512 where
  lhsContracting := [1]
  rhsContracting := [0]
  lhsNonContracting := [0]
  rhsNonContracting := [1]
  lhsBatch := []
  rhsBatch := []
  wf := dot_S256x128_S128x512_S256x512_1_0_0_1_n_n_wf
def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S128x128_S128x512_S128x512_1_0_0_1_n_n : DotDims S128x128 S128x512 S128x512 where
  lhsContracting := [1]
  rhsContracting := [0]
  lhsNonContracting := [0]
  rhsNonContracting := [1]
  lhsBatch := []
  rhsBatch := []
  wf := dot_S128x128_S128x512_S128x512_1_0_0_1_n_n_wf

abbrev win0_0 : Pipeline.Window sig grid0 :=
  Pipeline.Window.ofSpec (Memref.whole main_arg1) S1x128x16x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg0) S1x3x512x512.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_v5) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S128x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8) S1x128x16x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x16x512x512 : Shape := ⟨4, ![8, 16, 512, 512]⟩
abbrev S8x128x16x512 : Shape := ⟨4, ![8, 128, 16, 512]⟩
abbrev S128x384 : Shape := ⟨2, ![128, 384]⟩
abbrev S128 : Shape := ⟨1, ![128]⟩
abbrev S128x128 : Shape := ⟨2, ![128, 128]⟩
abbrev S16 : Shape := ⟨1, ![16]⟩
abbrev S_ : Shape := ⟨0, ![]⟩
abbrev S16x1 : Shape := ⟨2, ![16, 1]⟩
abbrev S8x16x512x128 : Shape := ⟨4, ![8, 16, 512, 128]⟩
abbrev S8x16x512 : Shape := ⟨3, ![8, 16, 512]⟩
abbrev S8x16x512x1 : Shape := ⟨4, ![8, 16, 512, 1]⟩
abbrev S1x1x1x128 : Shape := ⟨4, ![1, 1, 1, 128]⟩

abbrev nBuf : Space → Nat
  | .hbm => 69
  | .vmem => 0
  | .smem => 0
  | _ => 0

abbrev bufTy : (tb : Table) → Fin (tcTables nBuf tb) → BufTy
  | .hbm, ⟨0, _⟩ => ⟨S8x16x512x512, .f32⟩
  | .hbm, ⟨1, _⟩ => ⟨S8x128x16x512, .f32⟩
  | .hbm, ⟨2, _⟩ => ⟨S128x384, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S16, .i32⟩
  | .hbm, ⟨7, _⟩ => ⟨S_, .i32⟩
  | .hbm, ⟨8, _⟩ => ⟨S16, .i32⟩
  | .hbm, ⟨9, _⟩ => ⟨S16, .i1⟩
  | .hbm, ⟨10, _⟩ => ⟨S_, .i32⟩
  | .hbm, ⟨11, _⟩ => ⟨S16, .i32⟩
  | .hbm, ⟨12, _⟩ => ⟨S16, .i1⟩
  | .hbm, ⟨13, _⟩ => ⟨S_, .i32⟩
  | .hbm, ⟨14, _⟩ => ⟨S_, .i32⟩
  | .hbm, ⟨15, _⟩ => ⟨S16, .i32⟩
  | .hbm, ⟨16, _⟩ => ⟨S16, .i32⟩
  | .hbm, ⟨17, _⟩ => ⟨S16, .i32⟩
  | .hbm, ⟨18, _⟩ => ⟨S_, .i32⟩
  | .hbm, ⟨19, _⟩ => ⟨S16, .i32⟩
  | .hbm, ⟨20, _⟩ => ⟨S16, .i32⟩
  | .hbm, ⟨21, _⟩ => ⟨S_, .i32⟩
  | .hbm, ⟨22, _⟩ => ⟨S16, .i32⟩
  | .hbm, ⟨23, _⟩ => ⟨S16, .i1⟩
  | .hbm, ⟨24, _⟩ => ⟨S_, .i32⟩
  | .hbm, ⟨25, _⟩ => ⟨S16, .i32⟩
  | .hbm, ⟨26, _⟩ => ⟨S16, .i32⟩
  | .hbm, ⟨27, _⟩ => ⟨S16, .i32⟩
  | .hbm, ⟨28, _⟩ => ⟨S16x1, .i32⟩
  | .hbm, ⟨29, _⟩ => ⟨S8x16x512x512, .f32⟩
  | .hbm, ⟨30, _⟩ => ⟨S_, .f32⟩
  | .hbm, ⟨31, _⟩ => ⟨S8x16x512x512, .f32⟩
  | .hbm, ⟨32, _⟩ => ⟨S8x16x512x512, .i1⟩
  | .hbm, ⟨33, _⟩ => ⟨S8x16x512x512, .f32⟩
  | .hbm, ⟨34, _⟩ => ⟨S8x16x512x128, .f32⟩
  | .hbm, ⟨35, _⟩ => ⟨S128x128, .f32⟩
  | .hbm, ⟨36, _⟩ => ⟨S128x128, .f32⟩
  | .hbm, ⟨37, _⟩ => ⟨S128x128, .f32⟩
  | .hbm, ⟨38, _⟩ => ⟨S128x128, .f32⟩
  | .hbm, ⟨39, _⟩ => ⟨S8x16x512x128, .f32⟩
  | .hbm, ⟨40, _⟩ => ⟨S128x128, .f32⟩
  | .hbm, ⟨41, _⟩ => ⟨S8x16x512x128, .f32⟩
  | .hbm, ⟨42, _⟩ => ⟨S8x16x512x128, .f32⟩
  | .hbm, ⟨43, _⟩ => ⟨S8x16x512x128, .f32⟩
  | .hbm, ⟨44, _⟩ => ⟨S8x16x512x128, .f32⟩
  | .hbm, ⟨45, _⟩ => ⟨S_, .f32⟩
  | .hbm, ⟨46, _⟩ => ⟨S8x16x512, .f32⟩
  | .hbm, ⟨47, _⟩ => ⟨S_, .f32⟩
  | .hbm, ⟨48, _⟩ => ⟨S8x16x512, .f32⟩
  | .hbm, ⟨49, _⟩ => ⟨S8x16x512, .f32⟩
  | .hbm, ⟨50, _⟩ => ⟨S8x16x512x1, .f32⟩
  | .hbm, ⟨51, _⟩ => ⟨S1x1x1x128, .f32⟩
  | .hbm, ⟨52, _⟩ => ⟨S8x16x512x128, .f32⟩
  | .hbm, ⟨53, _⟩ => ⟨S8x16x512x128, .f32⟩
  | .hbm, ⟨54, _⟩ => ⟨S8x16x512x128, .f32⟩
  | .hbm, ⟨55, _⟩ => ⟨S8x16x512x128, .f32⟩
  | .hbm, ⟨56, _⟩ => ⟨S8x16x512x128, .f32⟩
  | .hbm, ⟨57, _⟩ => ⟨S8x16x512x128, .f32⟩
  | .hbm, ⟨58, _⟩ => ⟨S8x16x512x128, .f32⟩
  | .hbm, ⟨59, _⟩ => ⟨S1x1x1x128, .f32⟩
  | .hbm, ⟨60, _⟩ => ⟨S8x16x512x128, .f32⟩
  | .hbm, ⟨61, _⟩ => ⟨S8x16x512x128, .f32⟩
  | .hbm, ⟨62, _⟩ => ⟨S_, .f32⟩
  | .hbm, ⟨63, _⟩ => ⟨S8x16x512x128, .f32⟩
  | .hbm, ⟨64, _⟩ => ⟨S8x16x512x128, .f32⟩
  | .hbm, ⟨65, _⟩ => ⟨S8x128x16x512, .f32⟩
  | .hbm, ⟨66, _⟩ => ⟨S_, .f32⟩
  | .hbm, ⟨67, _⟩ => ⟨S8x128x16x512, .f32⟩
  | .hbm, ⟨68, _⟩ => ⟨S8x128x16x512, .f32⟩
  | _, _ => ⟨S8x16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_c_2 : Ref sig .tc := ⟨.hbm, 14, rfl⟩
abbrev main_call0_v0 : Ref sig .tc := ⟨.hbm, 15, rfl⟩
abbrev main_call0_v1 : Ref sig .tc := ⟨.hbm, 16, rfl⟩
abbrev main_v5 : Ref sig .tc := ⟨.hbm, 17, rfl⟩
abbrev main_c_3 : Ref sig .tc := ⟨.hbm, 18, rfl⟩
abbrev main_call1_v0 : Ref sig .tc := ⟨.hbm, 19, rfl⟩
abbrev main_v6 : Ref sig .tc := ⟨.hbm, 20, rfl⟩
abbrev main_c_4 : Ref sig .tc := ⟨.hbm, 21, rfl⟩
abbrev main_v7 : Ref sig .tc := ⟨.hbm, 22, rfl⟩
abbrev main_v8 : Ref sig .tc := ⟨.hbm, 23, rfl⟩
abbrev main_c_5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call2_cst : Ref sig .tc := ⟨.hbm, 62, rfl⟩
abbrev main_call2_v0 : Ref sig .tc := ⟨.hbm, 63, rfl⟩
abbrev main_v43 : Ref sig .tc := ⟨.hbm, 64, rfl⟩
abbrev main_v44 : Ref sig .tc := ⟨.hbm, 65, rfl⟩
abbrev main_call3_cst : Ref sig .tc := ⟨.hbm, 66, rfl⟩
abbrev main_call3_v0 : Ref sig .tc := ⟨.hbm, 67, rfl⟩
abbrev main_v45 : Ref sig .tc := ⟨.hbm, 68, rfl⟩

abbrev nD : Nat := 1
abbrev τ : Topo := Topo.v7x

variable {F : FTy → Type} [FloatOps F]

class Facts₀ : Prop where
  bcast_S_S16 : S_.BroadcastsInDim S16 (![] : Fin 0 → Fin S16.rank)
  bcast_S16_S16x1_0 : S16.BroadcastsInDim S16x1 (![0] : Fin 1 → Fin S16x1.rank)
  bcast_S_S8x16x512x512 : S_.BroadcastsInDim S8x16x512x512 (![] : Fin 0 → Fin S8x16x512x512.rank)
  transposes_S8x128x16x512_S8x16x512x128_0_2_3_1 : S8x128x16x512.Transposes [0, 2, 3, 1] S8x16x512x128
  slices_S128x384_S128x128_0_0 : S128x384.Slices ![0, 0] S128x128
  slices_S128x384_S128x128_0_128 : S128x384.Slices ![0, 128] S128x128
  slices_S128x384_S128x128_0_256 : S128x384.Slices ![0, 256] S128x128
  reducesTo_S8x16x512x512_S8x16x512_d2 : S8x16x512x512.ReducesTo [2] S8x16x512
  h_S_ : 0 < S_.numel
  bcast_S_S8x16x512 : S_.BroadcastsInDim S8x16x512 (![] : Fin 0 → Fin S8x16x512.rank)
  bcast_S8x16x512_S8x16x512x1_0_1_2 : S8x16x512.BroadcastsInDim S8x16x512x1 (![0, 1, 2] : Fin 3 → Fin S8x16x512x1.rank)
  bcast_S128_S1x1x1x128_3 : S128.BroadcastsInDim S1x1x1x128 (![3] : Fin 1 → Fin S1x1x1x128.rank)
  bcast_S1x1x1x128_S8x16x512x128_0_1_2_3 : S1x1x1x128.BroadcastsInDim S8x16x512x128 (![0, 1, 2, 3] : Fin 4 → Fin S8x16x512x128.rank)
  bcast_S8x16x512x1_S8x16x512x128_0_1_2_3 : S8x16x512x1.BroadcastsInDim S8x16x512x128 (![0, 1, 2, 3] : Fin 4 → Fin S8x16x512x128.rank)
  bcast_S_S8x16x512x128 : S_.BroadcastsInDim S8x16x512x128 (![] : Fin 0 → Fin S8x16x512x128.rank)
  transposes_S8x16x512x128_S8x128x16x512_0_3_1_2 : S8x16x512x128.Transposes [0, 3, 1, 2] S8x128x16x512
  bcast_S_S8x128x16x512 : S_.BroadcastsInDim S8x128x16x512 (![] : Fin 0 → Fin S8x128x16x512.rank)
  gather_S8x16x512x512_S16x1_S8x16x512x512_023_1_n_n_1_1_81512512_wf : GatherDims.WF S8x16x512x512 S16x1 S8x16x512x512 [0, 2, 3] [1] [] [1] [] 1 ![8, 1, 512, 512]
  dot_S8x16x512x128_S128x128_S8x16x512x128_3_1_012_0_n_n_wf : DotDims.WF S8x16x512x128 S128x128 S8x16x512x128 [3] [1] [0, 1, 2] [0] [] []
  dot_S8x16x512x512_S8x16x512x128_S8x16x512x128_2_2_3_3_01_01_wf : DotDims.WF S8x16x512x512 S8x16x512x128 S8x16x512x128 [2] [2] [3] [3] [0, 1] [0, 1]

variable [Facts₀]

def gather_S8x16x512x512_S16x1_S8x16x512x512_023_1_n_n_1_1_81512512 : GatherDims S8x16x512x512 S16x1 S8x16x512x512 where
  offsetDims := [0, 2, 3]
  collapsedSliceDims := [1]
  operandBatchingDims := []
  startIndicesBatchingDims := []
  startIndexMap := [1]
  indexVectorDim := 1
  sliceSizes := ![8, 1, 512, 512]
  wf := gather_S8x16x512x512_S16x1_S8x16x512x512_023_1_n_n_1_1_81512512_wf
def dot_S8x16x512x128_S128x128_S8x16x512x128_3_1_012_0_n_n : DotDims S8x16x512x128 S128x128 S8x16x512x128 where
  lhsContracting := [3]
  rhsContracting := [1]
  lhsNonContracting := [0, 1, 2]
  rhsNonContracting := [0]
  lhsBatch := []
  rhsBatch := []
  wf := dot_S8x16x512x128_S128x128_S8x16x512x128_3_1_012_0_n_n_wf
def dot_S8x16x512x512_S8x16x512x128_S8x16x512x128_2_2_3_3_01_01 : DotDims S8x16x512x512 S8x16x512x128 S8x16x512x128 where
  lhsContracting := [2]
  rhsContracting := [2]
  lhsNonContracting := [3]
  rhsNonContracting := [3]
  lhsBatch := [0, 1]
  rhsBatch := [0, 1]
  wf := dot_S8x16x512x512_S8x16x512x128_S8x16x512x128_2_2_3_3_01_01_wf

class Facts : Prop extends Facts₀ where

variable [Facts]
-- ==== Proof.BodyBits.lean ====
import proofs.«158974_j47270410060055_2_alg».proof.Proof.Gen.Kernel.Frame
import proofs.«158974_j47270410060055_2_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One run of the body

The body is straight-line: three masks and inverse degrees into scratch, then sixteen frames, each
ending in one store of a `[1, 128, 1, 512]` slab of the output block.  Run once on symbolic staging
buffers, it leaves the output buffer as sixteen written pieces; what each piece holds is a term
over the six input buffers' contents only, because every scratch read is covered by an earlier
scratch write of the same run. -/

set_option maxHeartbeats 16000000 in
/-- The pieces the body writes into the output's staging buffer, with the triple: from the six input
    buffers at contents `x0 … x5` and the output and scratch buffers at anything, the body runs to
    its return with the inputs unchanged, the output buffer holding the pieces written over what it
    held, and the scratch buffers at some contents. -/
noncomputable def kernelRun (c : Dev nD) (i : grid0.Coords) (arg1 : Memref sig .tc .vmem S1x128x16x512 .f32) (harg1 : arg1.IsWhole) (arg2 : Memref sig .tc .vmem S1x3x512x512 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S1x128x16x512 .f32) (harg7 : arg7.IsWhole) (arg8 : Memref sig .tc .vmem S3x512x512 .bf16) (harg8 : arg8.IsWhole) (arg9 : Memref sig .tc .vmem S8x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S128x512 .f32) (harg13 : arg13.IsWhole)
    (x0 : Vec F S1x128x16x512 .f32) (x1 : Vec F S1x3x512x512 .f32) (x2 : Vec F S256x128 .f32) (x3 : Vec F S128x128 .f32) (x4 : Vec F S128x1 .f32) (x5 : Vec F S128x1 .f32) :
    { L6 : List (View.Piece (Elt F) S1x128x16x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0__spatial_conv_kernel i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__spatial_conv_kernel_eq_skeleton]; unfold cc0__spatial_conv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec_parts
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _, _; isplitr
      swap; · iexact H7
      ipureintro; rfl
    isplitl [H8]
    · iexists _, _; isplitr
      swap; · iexact H8
      ipureintro; rfl
    isplitl [H9]
    · iexists _, _; isplitr
      swap; · iexact H9
      ipureintro; rfl
    isplitl [H10]
    · iexists _, _; isplitr
      swap; · iexact H10
      ipureintro; rfl
    isplitl [H11]
    · iexists _, _; isplitr
      swap; · iexact H11
      ipureintro; rfl
    · iexists _, _; isplitr
      swap; · iexact H12
      ipureintro; rfl

end Cert.Kernel.Body

end
-- ==== Proof.RunBits.lean ====
import proofs.«158974_j47270410060055_2_alg».proof.Proof.BodyBits

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region, point by point

One grid point per batch.  At point `t` the body finds the batch's feature block, the first three
frames of the batch's adjacency array, and the four small operands (fetched once, at the first
point); it leaves the batch's output block.  Nothing is carried from one point to the next: every
scratch word the body reads it has written earlier at the same point. -/

/-- Each window's current staging buffer at point `t`, and the scratch buffers. -/
abbrev ms0 (t : Fin cfg0.N) : Memref sig .tc .vmem S1x128x16x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128x16x512 .f32 := win0_6.stage (cfg0.slots t 6)
abbrev hs6 (t : Fin cfg0.N) : (ms6 t).IsWhole := hstage0_6 ((cfg0.slots t 6).cast nbuf0_6)
abbrev sc0 : Memref sig .tc .vmem S3x512x512 .bf16 := Memref.whole cc0_scratch0
abbrev sc1 : Memref sig .tc .vmem S8x512 .f32 := Memref.whole cc0_scratch1
abbrev sc2 : Memref sig .tc .vmem S256x512 .f32 := Memref.whole cc0_scratch2
abbrev sc3 : Memref sig .tc .vmem S256x512 .f32 := Memref.whole cc0_scratch3
abbrev sc4 : Memref sig .tc .vmem S256x512 .f32 := Memref.whole cc0_scratch4
abbrev sc5 : Memref sig .tc .vmem S128x512 .f32 := Memref.whole cc0_scratch5
/-- One staging buffer of the output window, through which the body's pieces are read back. -/
abbrev VO : View sig .tc .vmem S1x128x16x512 .f32 := (Memref.whole cc0_stg6_0 : Memref sig .tc .vmem S1x128x16x512 .f32).view

/-- The adjacency window's block is three whole frames of the sixteen: it never reaches past the array, at any point. -/
theorem clip1_none : ∀ (t : Fin cfg0.N) (a), (cfg0.win 1).clip (cfg0.grid.coords t) a = none :=
  (by decide +kernel : ∀ (t : Fin grid0.N) (a), win0_1.clip (grid0.coords t) a = none)

/-- What the adjacency window's staging buffer holds at point `t`: its block (all of the buffer is fetched). -/
def yblk (c : Dev nD) (t : Fin cfg0.N) : Vec F S1x3x512x512 .f32 :=
  (cfg0.win 1).fill (cfg0.grid.coords t) (fun _ => Scalar.ofBits .f32 0#32) (iblk m c 1 t)

/-- What the body leaves in the output's staging buffer at point `t`: its sixteen pieces read back. -/
def outAt (c : Dev nD) (t : Fin cfg0.N) : Vec F S1x128x16x512 .f32 :=
  VO.read (Elt F) (VO.writes (Elt F) VO.junk (kernelRun c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) (iblk m c 0 t) (yblk m c t) (iblk m c 2 t) (iblk m c 3 t) (iblk m c 4 t) (iblk m c 5 t)).1)

/-- The sixteen pieces tile the output block: one `[1, 128, 1, 512]` slab per frame. -/
theorem cover_out (c : Dev nD) (t : Fin cfg0.N) (y : S1x128x16x512.Idx) :
    ∃ pc ∈ (kernelRun c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) (iblk m c 0 t) (yblk m c t) (iblk m c 2 t) (iblk m c 3 t) (iblk m c 4 t) (iblk m c 5 t)).1, y ∈ pc.1.set :=
  View.cover_of_tiledL (kernelRun c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) (iblk m c 0 t) (yblk m c t) (iblk m c 2 t) (iblk m c 3 t) (iblk m c 4 t) (iblk m c 5 t)).1 S1x128x1x512.size (by sl_kernel_rfl) y

/-- The class's invariant with the scratch buffers as memrefs, each owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-! ## The proof data -/

/-- The arrays as the region finds them; after the body each input's buffer at its block and the
    output's at the body's pieces; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => yblk m c t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = yblk m c t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

/-- Each tiled input's buffer holds its block at every point, fetched there or not. -/
theorem before0 (c : Dev nD) (t : Fin cfg0.N) (d) : (dats m 0 c).before 0 t d = iblk m c 0 t :=
  before0_0_of m (dats m 0 c) (A_eq m c 0) (after0 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- The adjacency window is fetched at every point, and the fetch fills all of its buffer. -/
theorem before1 (c : Dev nD) (t : Fin cfg0.N) (d) : (dats m 0 c).before 1 t d = yblk m c t := by
  unfold Dat.before; rw [if_pos (fetch0_1 t)]
  unfold Dat.fetched Dat.blockOf yblk iblk; rw [A_eq]
  exact Pipeline.fill_of_clip_none (cfg := cfg0) 1 _ (clip1_none t) _ _ _

/-- No window is idle at any point. -/
theorem live (w : Fin cfg0.W) (t : Fin cfg0.N) : cfg0.idle w (grid0.coords t) = false := rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- At any point: the inputs' buffers hold their blocks, the invariant hands the body its scratch at
    anything, so the run applies; the inputs come back as they were, the output's buffer with the
    pieces written (which cover it), the scratch at something. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [show (dats m 0 c).leavesExact 0 t = owns (c : Thread nD τ) (ms0 t) fullShare ((dats m 0 c).after 0 t) from by
    unfold Dat.leavesExact; rw [live 0 t], after0]
  rw [show (dats m 0 c).leavesExact 1 t = owns (c : Thread nD τ) (ms1 t) fullShare ((dats m 0 c).after 1 t) from by
    unfold Dat.leavesExact; rw [live 1 t], after1]
  rw [show (dats m 0 c).leavesExact 2 t = owns (c : Thread nD τ) (ms2 t) fullShare ((dats m 0 c).after 2 t) from by
    unfold Dat.leavesExact; rw [live 2 t], after2]
  rw [show (dats m 0 c).leavesExact 3 t = owns (c : Thread nD τ) (ms3 t) fullShare ((dats m 0 c).after 3 t) from by
    unfold Dat.leavesExact; rw [live 3 t], after3]
  rw [show (dats m 0 c).leavesExact 4 t = owns (c : Thread nD τ) (ms4 t) fullShare ((dats m 0 c).after 4 t) from by
    unfold Dat.leavesExact; rw [live 4 t], after4]
  rw [show (dats m 0 c).leavesExact 5 t = owns (c : Thread nD τ) (ms5 t) fullShare ((dats m 0 c).after 5 t) from by
    unfold Dat.leavesExact; rw [live 5 t], after5]
  rw [show (dats m 0 c).leavesExact 6 t = owns (c : Thread nD τ) (ms6 t) fullShare ((dats m 0 c).after 6 t) from by
    unfold Dat.leavesExact; rw [live 6 t], after6]
  unfold outAt
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) (iblk m c 0 t) (yblk m c t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%e6, H6⟩, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover_out m c t)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and in every final state each array of the
    region holds what the proof data compute for it and every other unscoped buffer what it held at
    the region's entry. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs, faults nowhere, and its six argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Body

end
-- ==== Proof.BodyIdeal.lean ====
import proofs.«158974_j47270410060055_2_alg».proof.Proof.Gen.KernelIdeal.Frame
import proofs.«158974_j47270410060055_2_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One run of the body

The body is straight-line: three masks and inverse degrees into scratch, then sixteen frames, each
ending in one store of a `[1, 128, 1, 512]` slab of the output block.  Run once on symbolic staging
buffers, it leaves the output buffer as sixteen written pieces; what each piece holds is a term
over the six input buffers' contents only, because every scratch read is covered by an earlier
scratch write of the same run. -/

set_option maxHeartbeats 16000000 in
/-- The pieces the body writes into the output's staging buffer, with the triple: from the six input
    buffers at contents `x0 … x5` and the output and scratch buffers at anything, the body runs to
    its return with the inputs unchanged, the output buffer holding the pieces written over what it
    held, and the scratch buffers at some contents. -/
noncomputable def kernelRun (c : Dev nD) (i : grid0.Coords) (arg1 : Memref sig .tc .vmem S1x128x16x512 .f32) (harg1 : arg1.IsWhole) (arg2 : Memref sig .tc .vmem S1x3x512x512 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S1x128x16x512 .f32) (harg7 : arg7.IsWhole) (arg8 : Memref sig .tc .vmem S3x512x512 .bf16) (harg8 : arg8.IsWhole) (arg9 : Memref sig .tc .vmem S8x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S128x512 .f32) (harg13 : arg13.IsWhole)
    (x0 : Vec F S1x128x16x512 .f32) (x1 : Vec F S1x3x512x512 .f32) (x2 : Vec F S256x128 .f32) (x3 : Vec F S128x128 .f32) (x4 : Vec F S128x1 .f32) (x5 : Vec F S128x1 .f32) :
    { L6 : List (View.Piece (Elt F) S1x128x16x512 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
            ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
                ∗ (∃ f, arg7.view.loc (c : Thread nD τ) ↦[arg7.view.set]{fullShare} arg7.view.writes (Elt F) f L6)
                ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0__spatial_conv_kernel i arg1 harg1 arg2 harg2 arg3 harg3 arg4 harg4 arg5 harg5 arg6 harg6 arg7 harg7 arg8 harg8 arg9 harg9 arg10 harg10 arg11 harg11 arg12 harg12 arg13 harg13) K } := by
  refine ⟨?_, fun E K => ?run⟩
  case run =>
    simp only [cc0__spatial_conv_kernel_eq_skeleton]; unfold cc0__spatial_conv_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg1.eq_unread hf0; obtain rfl := harg2.eq_unread hf1; obtain rfl := harg3.eq_unread hf2
    obtain rfl := harg4.eq_unread hf3; obtain rfl := harg5.eq_unread hf4; obtain rfl := harg6.eq_unread hf5
    sl_exec_parts
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; iexact H6
    isplitl [H7]
    · iexists _, _; isplitr
      swap; · iexact H7
      ipureintro; rfl
    isplitl [H8]
    · iexists _, _; isplitr
      swap; · iexact H8
      ipureintro; rfl
    isplitl [H9]
    · iexists _, _; isplitr
      swap; · iexact H9
      ipureintro; rfl
    isplitl [H10]
    · iexists _, _; isplitr
      swap; · iexact H10
      ipureintro; rfl
    isplitl [H11]
    · iexists _, _; isplitr
      swap; · iexact H11
      ipureintro; rfl
    · iexists _, _; isplitr
      swap; · iexact H12
      ipureintro; rfl

end Cert.KernelIdeal.Body

end
-- ==== Proof.RunIdeal.lean ====
import proofs.«158974_j47270410060055_2_alg».proof.Proof.BodyIdeal

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The region, point by point

One grid point per batch.  At point `t` the body finds the batch's feature block, the first three
frames of the batch's adjacency array, and the four small operands (fetched once, at the first
point); it leaves the batch's output block.  Nothing is carried from one point to the next: every
scratch word the body reads it has written earlier at the same point. -/

/-- Each window's current staging buffer at point `t`, and the scratch buffers. -/
abbrev ms0 (t : Fin cfg0.N) : Memref sig .tc .vmem S1x128x16x512 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x3x512x512 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x128 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x128x16x512 .f32 := win0_6.stage (cfg0.slots t 6)
abbrev hs6 (t : Fin cfg0.N) : (ms6 t).IsWhole := hstage0_6 ((cfg0.slots t 6).cast nbuf0_6)
abbrev sc0 : Memref sig .tc .vmem S3x512x512 .bf16 := Memref.whole cc0_scratch0
abbrev sc1 : Memref sig .tc .vmem S8x512 .f32 := Memref.whole cc0_scratch1
abbrev sc2 : Memref sig .tc .vmem S256x512 .f32 := Memref.whole cc0_scratch2
abbrev sc3 : Memref sig .tc .vmem S256x512 .f32 := Memref.whole cc0_scratch3
abbrev sc4 : Memref sig .tc .vmem S256x512 .f32 := Memref.whole cc0_scratch4
abbrev sc5 : Memref sig .tc .vmem S128x512 .f32 := Memref.whole cc0_scratch5
/-- One staging buffer of the output window, through which the body's pieces are read back. -/
abbrev VO : View sig .tc .vmem S1x128x16x512 .f32 := (Memref.whole cc0_stg6_0 : Memref sig .tc .vmem S1x128x16x512 .f32).view

/-- The adjacency window's block is three whole frames of the sixteen: it never reaches past the array, at any point. -/
theorem clip1_none : ∀ (t : Fin cfg0.N) (a), (cfg0.win 1).clip (cfg0.grid.coords t) a = none :=
  (by decide +kernel : ∀ (t : Fin grid0.N) (a), win0_1.clip (grid0.coords t) a = none)

/-- What the adjacency window's staging buffer holds at point `t`: its block (all of the buffer is fetched). -/
def yblk (c : Dev nD) (t : Fin cfg0.N) : Vec F S1x3x512x512 .f32 :=
  (cfg0.win 1).fill (cfg0.grid.coords t) (fun _ => Scalar.ofBits .f32 0#32) (iblk m c 1 t)

/-- What the body leaves in the output's staging buffer at point `t`: its sixteen pieces read back. -/
def outAt (c : Dev nD) (t : Fin cfg0.N) : Vec F S1x128x16x512 .f32 :=
  VO.read (Elt F) (VO.writes (Elt F) VO.junk (kernelRun c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) (iblk m c 0 t) (yblk m c t) (iblk m c 2 t) (iblk m c 3 t) (iblk m c 4 t) (iblk m c 5 t)).1)

/-- The sixteen pieces tile the output block: one `[1, 128, 1, 512]` slab per frame. -/
theorem cover_out (c : Dev nD) (t : Fin cfg0.N) (y : S1x128x16x512.Idx) :
    ∃ pc ∈ (kernelRun c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) (iblk m c 0 t) (yblk m c t) (iblk m c 2 t) (iblk m c 3 t) (iblk m c 4 t) (iblk m c 5 t)).1, y ∈ pc.1.set :=
  View.cover_of_tiledL (kernelRun c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) (iblk m c 0 t) (yblk m c t) (iblk m c 2 t) (iblk m c 3 t) (iblk m c 4 t) (iblk m c 5 t)).1 S1x128x1x512.size (by sl_kernel_rfl) y

/-- The class's invariant with the scratch buffers as memrefs, each owned at some contents. -/
theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d)) ∗ (∃ r, prngReg c r)) := by
  unfold Pipeline.ΦA; rw [scopedRest0_eq]; simp only [sc0, sc1, sc2, sc3, sc4, sc5, owns_whole]; try rfl

/-! ## The proof data -/

/-- The arrays as the region finds them; after the body each input's buffer at its block and the
    output's at the body's pieces; the class's invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => yblk m c t
    | ⟨2, _⟩ => iblk m c 2 t
    | ⟨3, _⟩ => iblk m c 3 t
    | ⟨4, _⟩ => iblk m c 4 t
    | ⟨5, _⟩ => iblk m c 5 t
    | ⟨6, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = yblk m c t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outAt m c t := by dsimp only [dats]

/-- Each tiled input's buffer holds its block at every point, fetched there or not. -/
theorem before0 (c : Dev nD) (t : Fin cfg0.N) (d) : (dats m 0 c).before 0 t d = iblk m c 0 t :=
  before0_0_of m (dats m 0 c) (A_eq m c 0) (after0 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

/-- The adjacency window is fetched at every point, and the fetch fills all of its buffer. -/
theorem before1 (c : Dev nD) (t : Fin cfg0.N) (d) : (dats m 0 c).before 1 t d = yblk m c t := by
  unfold Dat.before; rw [if_pos (fetch0_1 t)]
  unfold Dat.fetched Dat.blockOf yblk iblk; rw [A_eq]
  exact Pipeline.fill_of_clip_none (cfg := cfg0) 1 _ (clip1_none t) _ _ _

/-- No window is idle at any point. -/
theorem live (w : Fin cfg0.W) (t : Fin cfg0.N) : cfg0.idle w (grid0.coords t) = false := rfl

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- At any point: the inputs' buffers hold their blocks, the invariant hands the body its scratch at
    anything, so the run applies; the inputs come back as they were, the output's buffer with the
    pieces written (which cover it), the scratch at something. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA_eq]
  rw [show (dats m 0 c).leavesExact 0 t = owns (c : Thread nD τ) (ms0 t) fullShare ((dats m 0 c).after 0 t) from by
    unfold Dat.leavesExact; rw [live 0 t], after0]
  rw [show (dats m 0 c).leavesExact 1 t = owns (c : Thread nD τ) (ms1 t) fullShare ((dats m 0 c).after 1 t) from by
    unfold Dat.leavesExact; rw [live 1 t], after1]
  rw [show (dats m 0 c).leavesExact 2 t = owns (c : Thread nD τ) (ms2 t) fullShare ((dats m 0 c).after 2 t) from by
    unfold Dat.leavesExact; rw [live 2 t], after2]
  rw [show (dats m 0 c).leavesExact 3 t = owns (c : Thread nD τ) (ms3 t) fullShare ((dats m 0 c).after 3 t) from by
    unfold Dat.leavesExact; rw [live 3 t], after3]
  rw [show (dats m 0 c).leavesExact 4 t = owns (c : Thread nD τ) (ms4 t) fullShare ((dats m 0 c).after 4 t) from by
    unfold Dat.leavesExact; rw [live 4 t], after4]
  rw [show (dats m 0 c).leavesExact 5 t = owns (c : Thread nD τ) (ms5 t) fullShare ((dats m 0 c).after 5 t) from by
    unfold Dat.leavesExact; rw [live 5 t], after5]
  rw [show (dats m 0 c).leavesExact 6 t = owns (c : Thread nD τ) (ms6 t) fullShare ((dats m 0 c).after 6 t) from by
    unfold Dat.leavesExact; rw [live 6 t], after6]
  unfold outAt
  iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩⟩
  iapply ((kernelRun c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) (iblk m c 0 t) (yblk m c t) (iblk m c 2 t) (iblk m c 3 t) (iblk m c 4 t) (iblk m c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, ⟨%e6, H6⟩, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover_out m c t)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of the program terminates, and in every final state each array of the
    region holds what the proof data compute for it and every other unscoped buffer what it held at
    the region's entry. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs, faults nowhere, and its six argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Body

end
-- ==== Proof.FramesIdeal.lean ====
import proofs.«158974_j47270410060055_2_alg».proof.Proof.BodyIdeal
import Idealize.ShloMosaic.Lib.Pipeline.FrameBody
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.SL.Sem

/-! ## Reading back what was just written

The body keeps its intermediate arrays in scratch: it stores an array and loads it (or a band of its
rows) back a few lines later.  The run records each scratch buffer as the list of pieces written so
far, newest first, and each load as a read of that list.  Three facts turn such a read into the
value stored: the newest piece wins where it reaches; a piece that is the whole array hides every
older one; two pieces that are the upper and the lower half of the rows hide every older one. -/

section Lists

variable {Val : EltTy → Type} [∀ e, Nonempty (Val e)] {sig : RefSig} {κ : Kind} {sp : Space} {e : EltTy}

/-- After a store of the whole array, a load through any rectangle reads that store's payload there. -/
theorem readCov_after_whole {m n : Nat} (v : View sig κ sp (⟨2, ![m, n]⟩ : Shape) e)
    (inb : ∀ a, (![0, 0] : Fin 2 → Nat) a + (⟨2, ![m, n]⟩ : Shape).size a ≤ (⟨2, ![m, n]⟩ : Shape).size a)
    (w : (⟨2, ![m, n]⟩ : Shape).Idx → Val e) (L : List (View.Piece Val (⟨2, ![m, n]⟩ : Shape) e))
    (r : Rect (⟨2, ![m, n]⟩ : Shape)) :
    v.readCov ((⟨Rect.unit (s := (⟨2, ![m, n]⟩ : Shape)) ![0, 0] (⟨2, ![m, n]⟩ : Shape).size inb, w⟩ : View.Piece Val (⟨2, ![m, n]⟩ : Shape) e) :: L) r.toLoadRect
      = View.ld w r := by
  rw [View.readCov_eq_canon', View.canon_cons_unit_zero (by funext a; fin_cases a <;> rfl)]

/-- Two pieces that together reach every index hide whatever was written before them. -/
theorem canon_pair_of_cover {s : Shape} (p q : View.Piece Val s e) (L : List (View.Piece Val s e))
    (h : ∀ y, y ∈ p.1.set ∨ y ∈ q.1.set) : View.canon (p :: q :: L) = View.canon [p, q] := by
  funext y
  obtain ⟨r, w⟩ := p; obtain ⟨r', w'⟩ := q
  by_cases h1 : y ∈ r.set
  · obtain ⟨x, rfl⟩ : ∃ x, r.emb x = y := r.exists_idx_of_mem h1
    rw [View.canon_cons_emb, View.canon_cons_emb]
  · have h2 : y ∈ r'.set := (h y).resolve_left h1
    rw [View.canon_cons_of_not_mem ⟨r, w⟩ (⟨r', w'⟩ :: L) h1, View.canon_cons_of_not_mem ⟨r, w⟩ [⟨r', w'⟩] h1]
    obtain ⟨x, rfl⟩ : ∃ x, r'.emb x = y := r'.exists_idx_of_mem h2
    rw [View.canon_cons_emb, View.canon_cons_emb]

/-- An array of 256 rows stored as its rows 128 … 255 and then its rows 0 … 127: a load of the whole
    array reads those two pieces, whatever was written before. -/
theorem readCov_two_halves {n : Nat} (v : View sig κ sp (⟨2, ![256, n]⟩ : Shape) e)
    (inbH : ∀ a, (![128, 0] : Fin 2 → Nat) a + (⟨2, ![128, n]⟩ : Shape).size a ≤ (⟨2, ![256, n]⟩ : Shape).size a)
    (inbL : ∀ a, (![0, 0] : Fin 2 → Nat) a + (⟨2, ![128, n]⟩ : Shape).size a ≤ (⟨2, ![256, n]⟩ : Shape).size a)
    (inbW : ∀ a, (![0, 0] : Fin 2 → Nat) a + (⟨2, ![256, n]⟩ : Shape).size a ≤ (⟨2, ![256, n]⟩ : Shape).size a)
    (a b : (⟨2, ![128, n]⟩ : Shape).Idx → Val e) (L : List (View.Piece Val (⟨2, ![256, n]⟩ : Shape) e)) :
    v.readCov ((⟨Rect.unit (s := (⟨2, ![256, n]⟩ : Shape)) ![128, 0] (⟨2, ![128, n]⟩ : Shape).size inbH, a⟩ : View.Piece Val (⟨2, ![256, n]⟩ : Shape) e)
        :: (⟨Rect.unit (s := (⟨2, ![256, n]⟩ : Shape)) ![0, 0] (⟨2, ![128, n]⟩ : Shape).size inbL, b⟩ : View.Piece Val (⟨2, ![256, n]⟩ : Shape) e) :: L)
        (Rect.unit (s := (⟨2, ![256, n]⟩ : Shape)) ![0, 0] (⟨2, ![256, n]⟩ : Shape).size inbW).toLoadRect
      = View.ld (View.canon [(⟨Rect.unit (s := (⟨2, ![256, n]⟩ : Shape)) ![128, 0] (⟨2, ![128, n]⟩ : Shape).size inbH, a⟩ : View.Piece Val (⟨2, ![256, n]⟩ : Shape) e),
          (⟨Rect.unit (s := (⟨2, ![256, n]⟩ : Shape)) ![0, 0] (⟨2, ![128, n]⟩ : Shape).size inbL, b⟩ : View.Piece Val (⟨2, ![256, n]⟩ : Shape) e)])
          (Rect.unit (s := (⟨2, ![256, n]⟩ : Shape)) ![0, 0] (⟨2, ![256, n]⟩ : Shape).size inbW) := by
  rw [View.readCov_eq_canon', canon_pair_of_cover _ _ _ (fun y => ?_)]
  have h0 : (y 0).val < 256 := (y 0).isLt
  have h1 : (y 1).val < n := (y 1).isLt
  by_cases h : (y 0).val < 128
  · refine Or.inr ((Rect.mem_set_unit (inb := inbL)).mpr fun a => ?_)
    match a with
    | ⟨0, _⟩ => exact ⟨Nat.zero_le _, by show (y 0).val < 0 + 128; omega⟩
    | ⟨1, _⟩ => exact ⟨Nat.zero_le _, by show (y 1).val < 0 + n; omega⟩
  · refine Or.inl ((Rect.mem_set_unit (inb := inbH)).mpr fun a => ?_)
    match a with
    | ⟨0, _⟩ => exact ⟨by show 128 ≤ (y 0).val; omega, by show (y 0).val < 128 + 128; omega⟩
    | ⟨1, _⟩ => exact ⟨Nat.zero_le _, by show (y 1).val < 0 + n; omega⟩

end Lists

variable {F : FTy → Type} [FloatOps F]

/-! ## The three masks and inverse degrees

The body computes the mask and the inverse in-degree of the three adjacency slices first, into
rows of two scratch buffers; every frame then loads the row of its slice. -/

/-- Two different slices of the mask scratch, and two different rows of the inverse-degree scratch, share no element. -/
theorem disj_slices (s s' : Nat) (h : s ≠ s')
    (inb : ∀ a, (![s, 0, 0] : Fin 3 → Nat) a + S1x512x512.size a ≤ S3x512x512.size a)
    (inb' : ∀ a, (![s', 0, 0] : Fin 3 → Nat) a + S1x512x512.size a ≤ S3x512x512.size a) :
    Disjoint (Rect.unit (s := S3x512x512) ![s, 0, 0] S1x512x512.size inb).set (Rect.unit (s := S3x512x512) ![s', 0, 0] S1x512x512.size inb').toLoadRect.set :=
  Rect.unit_disjoint (0 : Fin 3) (by show s + 1 ≤ s' ∨ s' + 1 ≤ s; omega)
theorem disj_rows (s s' : Nat) (h : s ≠ s')
    (inb : ∀ a, (![s, 0] : Fin 2 → Nat) a + S1x512.size a ≤ S8x512.size a)
    (inb' : ∀ a, (![s', 0] : Fin 2 → Nat) a + S1x512.size a ≤ S8x512.size a) :
    Disjoint (Rect.unit (s := S8x512) ![s, 0] S1x512.size inb).set (Rect.unit (s := S8x512) ![s', 0] S1x512.size inb').toLoadRect.set :=
  Rect.unit_disjoint (0 : Fin 2) (by show s + 1 ≤ s' ∨ s' + 1 ≤ s; omega)

/-- Slice `s` of the mask scratch holds the mask of slice `s` of the adjacency block. -/
theorem mask_0 (c : Dev nD) (arg2 : Memref sig .tc .vmem S1x3x512x512 .f32) (harg2 : arg2.IsWhole) (arg8 : Memref sig .tc .vmem S3x512x512 .bf16) (x1 : Vec F S1x3x512x512 .f32) :
    arg8.view.readCov (kernelRun.sl.H7_3 c arg2 harg2 x1) (Rect.unit (s := S3x512x512) ![0, 0, 0] S1x512x512.size inb_S3x512x512_S1x512x512_0_0_0).toLoadRect
      = k0_pay7 (View.readAt (Elt F) arg2.view (Rect.unit (s := S1x3x512x512) ![0, 0, 0, 0] S1x1x512x512.size inb_S1x3x512x512_S1x1x512x512_0_0_0_0).toLoadRect (harg2.unread x1)) := by
  unfold kernelRun.sl.H7_3 kernelRun.sl.H7_1
  refine (View.readCov_cons_of_disjoint _ _ _ _ ?_).trans ((View.readCov_cons_of_disjoint _ _ _ _ ?_).trans (View.readCov_cons_toLoadRect _ _ _ _))
  · exact disj_slices 2 0 (by decide) inb_S3x512x512_S1x512x512_2_0_0 inb_S3x512x512_S1x512x512_0_0_0
  · exact disj_slices 1 0 (by decide) inb_S3x512x512_S1x512x512_1_0_0 inb_S3x512x512_S1x512x512_0_0_0
theorem mask_1 (c : Dev nD) (arg2 : Memref sig .tc .vmem S1x3x512x512 .f32) (harg2 : arg2.IsWhole) (arg8 : Memref sig .tc .vmem S3x512x512 .bf16) (x1 : Vec F S1x3x512x512 .f32) :
    arg8.view.readCov (kernelRun.sl.H7_3 c arg2 harg2 x1) (Rect.unit (s := S3x512x512) ![1, 0, 0] S1x512x512.size inb_S3x512x512_S1x512x512_1_0_0).toLoadRect
      = k0_pay7 (View.readAt (Elt F) arg2.view (Rect.unit (s := S1x3x512x512) ![0, 1, 0, 0] S1x1x512x512.size inb_S1x3x512x512_S1x1x512x512_0_1_0_0).toLoadRect (harg2.unread x1)) := by
  unfold kernelRun.sl.H7_3
  refine (View.readCov_cons_of_disjoint _ _ _ _ ?_).trans ((View.readCov_cons_toLoadRect _ _ _ _).trans ?_)
  · exact disj_slices 2 1 (by decide) inb_S3x512x512_S1x512x512_2_0_0 inb_S3x512x512_S1x512x512_1_0_0
  simp only [kernelRun.sl.r_4, k0_pay11, k0_pay10, k0_pay9, k0_pay7, k0_pay6]
theorem mask_2 (c : Dev nD) (arg2 : Memref sig .tc .vmem S1x3x512x512 .f32) (harg2 : arg2.IsWhole) (arg8 : Memref sig .tc .vmem S3x512x512 .bf16) (x1 : Vec F S1x3x512x512 .f32) :
    arg8.view.readCov (kernelRun.sl.H7_3 c arg2 harg2 x1) (Rect.unit (s := S3x512x512) ![2, 0, 0] S1x512x512.size inb_S3x512x512_S1x512x512_2_0_0).toLoadRect
      = k0_pay7 (View.readAt (Elt F) arg2.view (Rect.unit (s := S1x3x512x512) ![0, 2, 0, 0] S1x1x512x512.size inb_S1x3x512x512_S1x1x512x512_0_2_0_0).toLoadRect (harg2.unread x1)) := by
  unfold kernelRun.sl.H7_3
  rw [View.readCov_cons_toLoadRect]
  simp only [k0_pay14, k0_pay13, k0_pay7, k0_pay6]

/-- Row `s` of the inverse-degree scratch holds the inverse in-degrees of slice `s`. -/
theorem inv_0 (c : Dev nD) (arg2 : Memref sig .tc .vmem S1x3x512x512 .f32) (harg2 : arg2.IsWhole) (arg9 : Memref sig .tc .vmem S8x512 .f32) (x1 : Vec F S1x3x512x512 .f32) :
    arg9.view.readCov (kernelRun.sl.H8_3 c arg2 harg2 x1) (Rect.unit (s := S8x512) ![0, 0] S1x512.size inb_S8x512_S1x512_0_0).toLoadRect
      = k0_pay8 (View.readAt (Elt F) arg2.view (Rect.unit (s := S1x3x512x512) ![0, 0, 0, 0] S1x1x512x512.size inb_S1x3x512x512_S1x1x512x512_0_0_0_0).toLoadRect (harg2.unread x1)) := by
  unfold kernelRun.sl.H8_3 kernelRun.sl.H8_1
  refine (View.readCov_cons_of_disjoint _ _ _ _ ?_).trans ((View.readCov_cons_of_disjoint _ _ _ _ ?_).trans (View.readCov_cons_toLoadRect _ _ _ _))
  · exact disj_rows 2 0 (by decide) inb_S8x512_S1x512_2_0 inb_S8x512_S1x512_0_0
  · exact disj_rows 1 0 (by decide) inb_S8x512_S1x512_1_0 inb_S8x512_S1x512_0_0
theorem inv_1 (c : Dev nD) (arg2 : Memref sig .tc .vmem S1x3x512x512 .f32) (harg2 : arg2.IsWhole) (arg9 : Memref sig .tc .vmem S8x512 .f32) (x1 : Vec F S1x3x512x512 .f32) :
    arg9.view.readCov (kernelRun.sl.H8_3 c arg2 harg2 x1) (Rect.unit (s := S8x512) ![1, 0] S1x512.size inb_S8x512_S1x512_1_0).toLoadRect
      = k0_pay8 (View.readAt (Elt F) arg2.view (Rect.unit (s := S1x3x512x512) ![0, 1, 0, 0] S1x1x512x512.size inb_S1x3x512x512_S1x1x512x512_0_1_0_0).toLoadRect (harg2.unread x1)) := by
  unfold kernelRun.sl.H8_3
  refine (View.readCov_cons_of_disjoint _ _ _ _ ?_).trans ((View.readCov_cons_toLoadRect _ _ _ _).trans ?_)
  · exact disj_rows 2 1 (by decide) inb_S8x512_S1x512_2_0 inb_S8x512_S1x512_1_0
  simp only [kernelRun.sl.r_4, k0_pay12, k0_pay10, k0_pay9, k0_pay8, k0_pay6]
theorem inv_2 (c : Dev nD) (arg2 : Memref sig .tc .vmem S1x3x512x512 .f32) (harg2 : arg2.IsWhole) (arg9 : Memref sig .tc .vmem S8x512 .f32) (x1 : Vec F S1x3x512x512 .f32) :
    arg9.view.readCov (kernelRun.sl.H8_3 c arg2 harg2 x1) (Rect.unit (s := S8x512) ![2, 0] S1x512.size inb_S8x512_S1x512_2_0).toLoadRect
      = k0_pay8 (View.readAt (Elt F) arg2.view (Rect.unit (s := S1x3x512x512) ![0, 2, 0, 0] S1x1x512x512.size inb_S1x3x512x512_S1x1x512x512_0_2_0_0).toLoadRect (harg2.unread x1)) := by
  unfold kernelRun.sl.H8_3
  rw [View.readCov_cons_toLoadRect]
  simp only [k0_pay15, k0_pay13, k0_pay8, k0_pay6]

/-! ## One frame

What the body stores for one frame, as a function of the four small operands as the body holds them
(`wsd`: the stacked projection weights, `wn`: the node weights, `bD`, `bN`: the two bias columns), the
frame's feature slab `X` and the frame's adjacency slice `Ys`.  The intermediate arrays are the ones
the body keeps in scratch: the stacked projections `sd` (rows 0 … 127 the first gate, rows 128 … 255
the second), the stacked left operand of the aggregation (`X · S` over `X`), the stacked aggregates
`res`, the mean message `agg`. -/
def frameOut (wsd : FVec F S256x128 .bf16) (wn : FVec F S128x128 .bf16) (bD bN : FVec F S128x1 .f32)
    (X : Vec F S1x128x1x512 .f32) (Ys : Vec F S1x1x512x512 .f32) : FVec F S1x128x1x512 .f32 :=
  let sd : FVec F S256x512 .f32 := k0_pay17 wsd X
  let St : Vec F S128x512 .f32 := View.ld sd (Rect.unit (s := S256x512) ![0, 0] S128x512.size inb_S256x512_S128x512_0_0)
  let Dt : Vec F S128x512 .f32 := View.ld sd (Rect.unit (s := S256x512) ![128, 0] S128x512.size inb_S256x512_S128x512_128_0)
  let stack : Vec F S256x512 .f32 := View.ld (View.canon
      [(⟨Rect.unit (s := S256x512) ![128, 0] S128x512.size inb_S256x512_S128x512_128_0, k0_pay19 X⟩ : View.Piece (Elt F) S256x512 .f32),
       (⟨Rect.unit (s := S256x512) ![0, 0] S128x512.size inb_S256x512_S128x512_0_0, k0_pay18 X St⟩ : View.Piece (Elt F) S256x512 .f32)])
      (Rect.unit (s := S256x512) ![0, 0] S256x512.size inb_S256x512_S256x512_0_0)
  let res : FVec F S256x512 .f32 := k0_pay20 (k0_pay7 Ys) stack
  let A1 : Vec F S128x512 .f32 := View.ld res (Rect.unit (s := S256x512) ![0, 0] S128x512.size inb_S256x512_S128x512_0_0)
  let A2 : Vec F S128x512 .f32 := View.ld res (Rect.unit (s := S256x512) ![128, 0] S128x512.size inb_S256x512_S128x512_128_0)
  let agg : FVec F S128x512 .f32 := k0_pay22 (k0_pay8 Ys) A1 (k0_pay21 bD Dt A2)
  k0_pay23 wn bN (View.ld agg (Rect.unit (s := S128x512) ![0, 0] S128x512.size inb_S128x512_S128x512_0_0))

/-! ## The sixteen pieces

Each of the body's sixteen output stores writes `frameOut` of its frame's feature slab and its
frame's adjacency slice.  The printed body spells the sixteen frames with sixteen sets of names, cut
into groups of statements at different places; unfolding the names leaves the same term. -/

end Cert.KernelIdeal.Body

end
-- ==== Proof.PiecesIdeal.lean ====
import proofs.«158974_j47270410060055_2_alg».proof.Proof.FramesIdeal

set_option maxRecDepth 16384

noncomputable section

namespace Cert.KernelIdeal.Body

open Cert.KernelIdeal Cert.KernelIdeal.Gen
open Idealize.ShloMosaic Idealize.ShloMosaic.TcCoe Idealize.SL.Sem

variable {F : FTy → Type} [FloatOps F]

/-! ## The sixteen pieces

Each of the body's sixteen output stores writes `frameOut` of its frame's feature slab and its
frame's adjacency slice.  The printed body spells the sixteen frames with sixteen sets of names, cut
into groups of statements at different places; unfolding the names and reading each scratch load
back as the value just stored leaves the same term. -/

/-- Frame 0: slice 0 of the adjacency block. -/
theorem piece0 (c : Dev nD) (arg1 : Memref sig .tc .vmem S1x128x16x512 .f32) (harg1 : arg1.IsWhole) (arg2 : Memref sig .tc .vmem S1x3x512x512 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg8 : Memref sig .tc .vmem S3x512x512 .bf16) (arg9 : Memref sig .tc .vmem S8x512 .f32) (arg10 : Memref sig .tc .vmem S256x512 .f32) (arg11 : Memref sig .tc .vmem S256x512 .f32) (arg12 : Memref sig .tc .vmem S256x512 .f32) (arg13 : Memref sig .tc .vmem S128x512 .f32) (x0 : Vec F S1x128x16x512 .f32) (x1 : Vec F S1x3x512x512 .f32) (x2 : Vec F S256x128 .f32) (x3 : Vec F S128x128 .f32) (x4 : Vec F S128x1 .f32) (x5 : Vec F S128x1 .f32) :
    k0_pay23 (kernelRun.sl.r_1 c arg4 harg4 x3) (kernelRun.sl.r_3 c arg6 harg6 x5) (kernelRun.sl.v99 c arg1 harg1 arg2 harg2 arg3 harg3 arg5 harg5 arg8 arg9 arg10 arg11 arg12 arg13 x0 x1 x2 x4)
      = frameOut (kernelRun.sl.r c arg3 harg3 x2) (kernelRun.sl.r_1 c arg4 harg4 x3) (kernelRun.sl.r_2 c arg5 harg5 x4) (kernelRun.sl.r_3 c arg6 harg6 x5)
          (View.readAt (Elt F) arg1.view (Rect.unit (s := S1x128x16x512) ![0, 0, 0, 0] S1x128x1x512.size inb_S1x128x16x512_S1x128x1x512_0_0_0_0).toLoadRect (harg1.unread x0))
          (View.readAt (Elt F) arg2.view (Rect.unit (s := S1x3x512x512) ![0, 0, 0, 0] S1x1x512x512.size inb_S1x3x512x512_S1x1x512x512_0_0_0_0).toLoadRect (harg2.unread x1)) := by
  unfold kernelRun.sl.v99 kernelRun.sl.H12_1 kernelRun.sl.r_5 kernelRun.sl.v89 kernelRun.sl.v71 kernelRun.sl.v88 kernelRun.sl.H11_1 kernelRun.sl.v82 kernelRun.sl.H10_2 kernelRun.sl.v70 kernelRun.sl.H9_1 kernelRun.sl.v72 kernelRun.sl.v74
  repeat rw [readCov_after_whole]
  rw [readCov_two_halves, mask_0, inv_0]
  rfl

/-- Frame 1: slice 1 of the adjacency block. -/
theorem piece1 (c : Dev nD) (arg1 : Memref sig .tc .vmem S1x128x16x512 .f32) (harg1 : arg1.IsWhole) (arg2 : Memref sig .tc .vmem S1x3x512x512 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg8 : Memref sig .tc .vmem S3x512x512 .bf16) (arg9 : Memref sig .tc .vmem S8x512 .f32) (arg10 : Memref sig .tc .vmem S256x512 .f32) (arg11 : Memref sig .tc .vmem S256x512 .f32) (arg12 : Memref sig .tc .vmem S256x512 .f32) (arg13 : Memref sig .tc .vmem S128x512 .f32) (x0 : Vec F S1x128x16x512 .f32) (x1 : Vec F S1x3x512x512 .f32) (x2 : Vec F S256x128 .f32) (x3 : Vec F S128x128 .f32) (x4 : Vec F S128x1 .f32) (x5 : Vec F S128x1 .f32) :
    k0_pay32 (kernelRun.sl.r_1 c arg4 harg4 x3) (kernelRun.sl.r_3 c arg6 harg6 x5) (kernelRun.sl.v145 c arg1 harg1 arg2 harg2 arg3 harg3 arg5 harg5 arg8 arg9 arg10 arg11 arg12 arg13 x0 x1 x2 x4)
      = frameOut (kernelRun.sl.r c arg3 harg3 x2) (kernelRun.sl.r_1 c arg4 harg4 x3) (kernelRun.sl.r_2 c arg5 harg5 x4) (kernelRun.sl.r_3 c arg6 harg6 x5)
          (View.readAt (Elt F) arg1.view (Rect.unit (s := S1x128x16x512) ![0, 0, 1, 0] S1x128x1x512.size inb_S1x128x16x512_S1x128x1x512_0_0_1_0).toLoadRect (harg1.unread x0))
          (View.readAt (Elt F) arg2.view (Rect.unit (s := S1x3x512x512) ![0, 1, 0, 0] S1x1x512x512.size inb_S1x3x512x512_S1x1x512x512_0_1_0_0).toLoadRect (harg2.unread x1)) := by
  unfold kernelRun.sl.v145 kernelRun.sl.H12_2 kernelRun.sl.v135 kernelRun.sl.v134 kernelRun.sl.H11_2 kernelRun.sl.v128 kernelRun.sl.H10_4 kernelRun.sl.r_8 kernelRun.sl.v116 kernelRun.sl.r_6 kernelRun.sl.r_7 kernelRun.sl.v118 kernelRun.sl.v120 kernelRun.sl.v117 kernelRun.sl.H9_2
  repeat rw [readCov_after_whole]
  rw [readCov_two_halves, mask_1, inv_1]
  rfl

/-- Frame 2: slice 1 of the adjacency block. -/
theorem piece2 (c : Dev nD) (arg1 : Memref sig .tc .vmem S1x128x16x512 .f32) (harg1 : arg1.IsWhole) (arg2 : Memref sig .tc .vmem S1x3x512x512 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg8 : Memref sig .tc .vmem S3x512x512 .bf16) (arg9 : Memref sig .tc .vmem S8x512 .f32) (arg10 : Memref sig .tc .vmem S256x512 .f32) (arg11 : Memref sig .tc .vmem S256x512 .f32) (arg12 : Memref sig .tc .vmem S256x512 .f32) (arg13 : Memref sig .tc .vmem S128x512 .f32) (x0 : Vec F S1x128x16x512 .f32) (x1 : Vec F S1x3x512x512 .f32) (x2 : Vec F S256x128 .f32) (x3 : Vec F S128x128 .f32) (x4 : Vec F S128x1 .f32) (x5 : Vec F S128x1 .f32) :
    k0_pay40 (kernelRun.sl.r_1 c arg4 harg4 x3) (kernelRun.sl.r_3 c arg6 harg6 x5) (kernelRun.sl.v191 c arg1 harg1 arg2 harg2 arg3 harg3 arg5 harg5 arg8 arg9 arg10 arg11 arg12 arg13 x0 x1 x2 x4)
      = frameOut (kernelRun.sl.r c arg3 harg3 x2) (kernelRun.sl.r_1 c arg4 harg4 x3) (kernelRun.sl.r_2 c arg5 harg5 x4) (kernelRun.sl.r_3 c arg6 harg6 x5)
          (View.readAt (Elt F) arg1.view (Rect.unit (s := S1x128x16x512) ![0, 0, 2, 0] S1x128x1x512.size inb_S1x128x16x512_S1x128x1x512_0_0_2_0).toLoadRect (harg1.unread x0))
          (View.readAt (Elt F) arg2.view (Rect.unit (s := S1x3x512x512) ![0, 1, 0, 0] S1x1x512x512.size inb_S1x3x512x512_S1x1x512x512_0_1_0_0).toLoadRect (harg2.unread x1)) := by
  unfold kernelRun.sl.v191 kernelRun.sl.H12_3 kernelRun.sl.r_9 kernelRun.sl.v181 kernelRun.sl.v180 kernelRun.sl.H11_3 kernelRun.sl.v174 kernelRun.sl.H10_6 kernelRun.sl.v162 kernelRun.sl.v118 kernelRun.sl.v120 kernelRun.sl.v163 kernelRun.sl.H9_3
  repeat rw [readCov_after_whole]
  rw [readCov_two_halves, mask_1, inv_1]
  rfl

/-- Frame 3: slice 1 of the adjacency block. -/
theorem piece3 (c : Dev nD) (arg1 : Memref sig .tc .vmem S1x128x16x512 .f32) (harg1 : arg1.IsWhole) (arg2 : Memref sig .tc .vmem S1x3x512x512 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg8 : Memref sig .tc .vmem S3x512x512 .bf16) (arg9 : Memref sig .tc .vmem S8x512 .f32) (arg10 : Memref sig .tc .vmem S256x512 .f32) (arg11 : Memref sig .tc .vmem S256x512 .f32) (arg12 : Memref sig .tc .vmem S256x512 .f32) (arg13 : Memref sig .tc .vmem S128x512 .f32) (x0 : Vec F S1x128x16x512 .f32) (x1 : Vec F S1x3x512x512 .f32) (x2 : Vec F S256x128 .f32) (x3 : Vec F S128x128 .f32) (x4 : Vec F S128x1 .f32) (x5 : Vec F S128x1 .f32) :
    kernelRun.sl.r_13 c arg1 harg1 arg2 harg2 arg3 harg3 arg4 harg4 arg5 harg5 arg6 harg6 arg8 arg9 arg10 arg11 arg12 arg13 x0 x1 x2 x3 x4 x5
      = frameOut (kernelRun.sl.r c arg3 harg3 x2) (kernelRun.sl.r_1 c arg4 harg4 x3) (kernelRun.sl.r_2 c arg5 harg5 x4) (kernelRun.sl.r_3 c arg6 harg6 x5)
          (View.readAt (Elt F) arg1.view (Rect.unit (s := S1x128x16x512) ![0, 0, 3, 0] S1x128x1x512.size inb_S1x128x16x512_S1x128x1x512_0_0_3_0).toLoadRect (harg1.unread x0))
          (View.readAt (Elt F) arg2.view (Rect.unit (s := S1x3x512x512) ![0, 1, 0, 0] S1x1x512x512.size inb_S1x3x512x512_S1x1x512x512_0_1_0_0).toLoadRect (harg2.unread x1)) := by
  unfold kernelRun.sl.r_13 kernelRun.sl.v237 kernelRun.sl.H12_4 kernelRun.sl.v227 kernelRun.sl.v226 kernelRun.sl.H11_4 kernelRun.sl.v220 kernelRun.sl.H10_8 kernelRun.sl.r_12 kernelRun.sl.v208 kernelRun.sl.r_10 kernelRun.sl.r_11 kernelRun.sl.v118 kernelRun.sl.v120 kernelRun.sl.v209 kernelRun.sl.H9_4
  repeat rw [readCov_after_whole]
  rw [readCov_two_halves, mask_1, inv_1]
  rfl

/-- Frame 4: slice 1 of the adjacency block. -/
theorem piece4 (c : Dev nD) (arg1 : Memref sig .tc .vmem S1x128x16x512 .f32) (harg1 : arg1.IsWhole) (arg2 : Memref sig .tc .vmem S1x3x512x512 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg8 : Memref sig .tc .vmem S3x512x512 .bf16) (arg9 : Memref sig .tc .vmem S8x512 .f32) (arg10 : Memref sig .tc .vmem S256x512 .f32) (arg11 : Memref sig .tc .vmem S256x512 .f32) (arg12 : Memref sig .tc .vmem S256x512 .f32) (arg13 : Memref sig .tc .vmem S128x512 .f32) (x0 : Vec F S1x128x16x512 .f32) (x1 : Vec F S1x3x512x512 .f32) (x2 : Vec F S256x128 .f32) (x3 : Vec F S128x128 .f32) (x4 : Vec F S128x1 .f32) (x5 : Vec F S128x1 .f32) :
    k0_pay56 (kernelRun.sl.r_1 c arg4 harg4 x3) (kernelRun.sl.r_3 c arg6 harg6 x5) (kernelRun.sl.v283 c arg1 harg1 arg2 harg2 arg3 harg3 arg5 harg5 arg8 arg9 arg10 arg11 arg12 arg13 x0 x1 x2 x4)
      = frameOut (kernelRun.sl.r c arg3 harg3 x2) (kernelRun.sl.r_1 c arg4 harg4 x3) (kernelRun.sl.r_2 c arg5 harg5 x4) (kernelRun.sl.r_3 c arg6 harg6 x5)
          (View.readAt (Elt F) arg1.view (Rect.unit (s := S1x128x16x512) ![0, 0, 4, 0] S1x128x1x512.size inb_S1x128x16x512_S1x128x1x512_0_0_4_0).toLoadRect (harg1.unread x0))
          (View.readAt (Elt F) arg2.view (Rect.unit (s := S1x3x512x512) ![0, 1, 0, 0] S1x1x512x512.size inb_S1x3x512x512_S1x1x512x512_0_1_0_0).toLoadRect (harg2.unread x1)) := by
  unfold kernelRun.sl.v283 kernelRun.sl.H12_5 kernelRun.sl.v273 kernelRun.sl.v272 kernelRun.sl.H11_5 kernelRun.sl.v266 kernelRun.sl.H10_10 kernelRun.sl.v254 kernelRun.sl.v118 kernelRun.sl.v120 kernelRun.sl.v255 kernelRun.sl.H9_5
  repeat rw [readCov_after_whole]
  rw [readCov_two_halves, mask_1, inv_1]
  rfl

/-- Frame 5: slice 1 of the adjacency block. -/
theorem piece5 (c : Dev nD) (arg1 : Memref sig .tc .vmem S1x128x16x512 .f32) (harg1 : arg1.IsWhole) (arg2 : Memref sig .tc .vmem S1x3x512x512 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg8 : Memref sig .tc .vmem S3x512x512 .bf16) (arg9 : Memref sig .tc .vmem S8x512 .f32) (arg10 : Memref sig .tc .vmem S256x512 .f32) (arg11 : Memref sig .tc .vmem S256x512 .f32) (arg12 : Memref sig .tc .vmem S256x512 .f32) (arg13 : Memref sig .tc .vmem S128x512 .f32) (x0 : Vec F S1x128x16x512 .f32) (x1 : Vec F S1x3x512x512 .f32) (x2 : Vec F S256x128 .f32) (x3 : Vec F S128x128 .f32) (x4 : Vec F S128x1 .f32) (x5 : Vec F S128x1 .f32) :
    k0_pay65 (kernelRun.sl.r_16 c arg1 harg1 arg2 harg2 arg3 harg3 arg4 harg4 arg5 harg5 arg6 harg6 arg8 arg9 arg10 arg11 arg12 arg13 x0 x1 x2 x3 x4 x5)
      = frameOut (kernelRun.sl.r c arg3 harg3 x2) (kernelRun.sl.r_1 c arg4 harg4 x3) (kernelRun.sl.r_2 c arg5 harg5 x4) (kernelRun.sl.r_3 c arg6 harg6 x5)
          (View.readAt (Elt F) arg1.view (Rect.unit (s := S1x128x16x512) ![0, 0, 5, 0] S1x128x1x512.size inb_S1x128x16x512_S1x128x1x512_0_0_5_0).toLoadRect (harg1.unread x0))
          (View.readAt (Elt F) arg2.view (Rect.unit (s := S1x3x512x512) ![0, 1, 0, 0] S1x1x512x512.size inb_S1x3x512x512_S1x1x512x512_0_1_0_0).toLoadRect (harg2.unread x1)) := by
  unfold kernelRun.sl.r_16 kernelRun.sl.v329 kernelRun.sl.H12_6 kernelRun.sl.v319 kernelRun.sl.v318 kernelRun.sl.H11_6 kernelRun.sl.v312 kernelRun.sl.H10_12 kernelRun.sl.v300 kernelRun.sl.r_14 kernelRun.sl.r_15 kernelRun.sl.v118 kernelRun.sl.v120 kernelRun.sl.v301 kernelRun.sl.H9_6
  repeat rw [readCov_after_whole]
  rw [readCov_two_halves, mask_1, inv_1]
  rfl

/-- Frame 6: slice 1 of the adjacency block. -/
theorem piece6 (c : Dev nD) (arg1 : Memref sig .tc .vmem S1x128x16x512 .f32) (harg1 : arg1.IsWhole) (arg2 : Memref sig .tc .vmem S1x3x512x512 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg8 : Memref sig .tc .vmem S3x512x512 .bf16) (arg9 : Memref sig .tc .vmem S8x512 .f32) (arg10 : Memref sig .tc .vmem S256x512 .f32) (arg11 : Memref sig .tc .vmem S256x512 .f32) (arg12 : Memref sig .tc .vmem S256x512 .f32) (arg13 : Memref sig .tc .vmem S128x512 .f32) (x0 : Vec F S1x128x16x512 .f32) (x1 : Vec F S1x3x512x512 .f32) (x2 : Vec F S256x128 .f32) (x3 : Vec F S128x128 .f32) (x4 : Vec F S128x1 .f32) (x5 : Vec F S128x1 .f32) :
    k0_pay72 (kernelRun.sl.r_1 c arg4 harg4 x3) (kernelRun.sl.r_3 c arg6 harg6 x5) (kernelRun.sl.v375 c arg1 harg1 arg2 harg2 arg3 harg3 arg5 harg5 arg8 arg9 arg10 arg11 arg12 arg13 x0 x1 x2 x4)
      = frameOut (kernelRun.sl.r c arg3 harg3 x2) (kernelRun.sl.r_1 c arg4 harg4 x3) (kernelRun.sl.r_2 c arg5 harg5 x4) (kernelRun.sl.r_3 c arg6 harg6 x5)
          (View.readAt (Elt F) arg1.view (Rect.unit (s := S1x128x16x512) ![0, 0, 6, 0] S1x128x1x512.size inb_S1x128x16x512_S1x128x1x512_0_0_6_0).toLoadRect (harg1.unread x0))
          (View.readAt (Elt F) arg2.view (Rect.unit (s := S1x3x512x512) ![0, 1, 0, 0] S1x1x512x512.size inb_S1x3x512x512_S1x1x512x512_0_1_0_0).toLoadRect (harg2.unread x1)) := by
  unfold kernelRun.sl.v375 kernelRun.sl.H12_7 kernelRun.sl.v365 kernelRun.sl.v364 kernelRun.sl.H11_7 kernelRun.sl.v358 kernelRun.sl.H10_14 kernelRun.sl.v346 kernelRun.sl.v118 kernelRun.sl.v120 kernelRun.sl.v347 kernelRun.sl.H9_7
  repeat rw [readCov_after_whole]
  rw [readCov_two_halves, mask_1, inv_1]
  rfl

/-- Frame 7: slice 1 of the adjacency block. -/
theorem piece7 (c : Dev nD) (arg1 : Memref sig .tc .vmem S1x128x16x512 .f32) (harg1 : arg1.IsWhole) (arg2 : Memref sig .tc .vmem S1x3x512x512 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg8 : Memref sig .tc .vmem S3x512x512 .bf16) (arg9 : Memref sig .tc .vmem S8x512 .f32) (arg10 : Memref sig .tc .vmem S256x512 .f32) (arg11 : Memref sig .tc .vmem S256x512 .f32) (arg12 : Memref sig .tc .vmem S256x512 .f32) (arg13 : Memref sig .tc .vmem S128x512 .f32) (x0 : Vec F S1x128x16x512 .f32) (x1 : Vec F S1x3x512x512 .f32) (x2 : Vec F S256x128 .f32) (x3 : Vec F S128x128 .f32) (x4 : Vec F S128x1 .f32) (x5 : Vec F S128x1 .f32) :
    k0_pay81 (kernelRun.sl.r_19 c arg1 harg1 arg2 harg2 arg3 harg3 arg4 harg4 arg5 harg5 arg6 harg6 arg8 arg9 arg10 arg11 arg12 arg13 x0 x1 x2 x3 x4 x5)
      = frameOut (kernelRun.sl.r c arg3 harg3 x2) (kernelRun.sl.r_1 c arg4 harg4 x3) (kernelRun.sl.r_2 c arg5 harg5 x4) (kernelRun.sl.r_3 c arg6 harg6 x5)
          (View.readAt (Elt F) arg1.view (Rect.unit (s := S1x128x16x512) ![0, 0, 7, 0] S1x128x1x512.size inb_S1x128x16x512_S1x128x1x512_0_0_7_0).toLoadRect (harg1.unread x0))
          (View.readAt (Elt F) arg2.view (Rect.unit (s := S1x3x512x512) ![0, 1, 0, 0] S1x1x512x512.size inb_S1x3x512x512_S1x1x512x512_0_1_0_0).toLoadRect (harg2.unread x1)) := by
  unfold kernelRun.sl.r_19 kernelRun.sl.v421 kernelRun.sl.H12_8 kernelRun.sl.v411 kernelRun.sl.v410 kernelRun.sl.H11_8 kernelRun.sl.v404 kernelRun.sl.H10_16 kernelRun.sl.v392 kernelRun.sl.r_17 kernelRun.sl.r_18 kernelRun.sl.v118 kernelRun.sl.v120 kernelRun.sl.v393 kernelRun.sl.H9_8
  repeat rw [readCov_after_whole]
  rw [readCov_two_halves, mask_1, inv_1]
  rfl

/-- Frame 8: slice 1 of the adjacency block. -/
theorem piece8 (c : Dev nD) (arg1 : Memref sig .tc .vmem S1x128x16x512 .f32) (harg1 : arg1.IsWhole) (arg2 : Memref sig .tc .vmem S1x3x512x512 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg8 : Memref sig .tc .vmem S3x512x512 .bf16) (arg9 : Memref sig .tc .vmem S8x512 .f32) (arg10 : Memref sig .tc .vmem S256x512 .f32) (arg11 : Memref sig .tc .vmem S256x512 .f32) (arg12 : Memref sig .tc .vmem S256x512 .f32) (arg13 : Memref sig .tc .vmem S128x512 .f32) (x0 : Vec F S1x128x16x512 .f32) (x1 : Vec F S1x3x512x512 .f32) (x2 : Vec F S256x128 .f32) (x3 : Vec F S128x128 .f32) (x4 : Vec F S128x1 .f32) (x5 : Vec F S128x1 .f32) :
    k0_pay88 (kernelRun.sl.r_1 c arg4 harg4 x3) (kernelRun.sl.r_3 c arg6 harg6 x5) (kernelRun.sl.v467 c arg1 harg1 arg2 harg2 arg3 harg3 arg5 harg5 arg8 arg9 arg10 arg11 arg12 arg13 x0 x1 x2 x4)
      = frameOut (kernelRun.sl.r c arg3 harg3 x2) (kernelRun.sl.r_1 c arg4 harg4 x3) (kernelRun.sl.r_2 c arg5 harg5 x4) (kernelRun.sl.r_3 c arg6 harg6 x5)
          (View.readAt (Elt F) arg1.view (Rect.unit (s := S1x128x16x512) ![0, 0, 8, 0] S1x128x1x512.size inb_S1x128x16x512_S1x128x1x512_0_0_8_0).toLoadRect (harg1.unread x0))
          (View.readAt (Elt F) arg2.view (Rect.unit (s := S1x3x512x512) ![0, 1, 0, 0] S1x1x512x512.size inb_S1x3x512x512_S1x1x512x512_0_1_0_0).toLoadRect (harg2.unread x1)) := by
  unfold kernelRun.sl.v467 kernelRun.sl.H12_9 kernelRun.sl.v457 kernelRun.sl.v456 kernelRun.sl.H11_9 kernelRun.sl.v450 kernelRun.sl.H10_18 kernelRun.sl.v438 kernelRun.sl.v118 kernelRun.sl.v120 kernelRun.sl.v439 kernelRun.sl.H9_9
  repeat rw [readCov_after_whole]
  rw [readCov_two_halves, mask_1, inv_1]
  rfl

/-- Frame 9: slice 1 of the adjacency block. -/
theorem piece9 (c : Dev nD) (arg1 : Memref sig .tc .vmem S1x128x16x512 .f32) (harg1 : arg1.IsWhole) (arg2 : Memref sig .tc .vmem S1x3x512x512 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg8 : Memref sig .tc .vmem S3x512x512 .bf16) (arg9 : Memref sig .tc .vmem S8x512 .f32) (arg10 : Memref sig .tc .vmem S256x512 .f32) (arg11 : Memref sig .tc .vmem S256x512 .f32) (arg12 : Memref sig .tc .vmem S256x512 .f32) (arg13 : Memref sig .tc .vmem S128x512 .f32) (x0 : Vec F S1x128x16x512 .f32) (x1 : Vec F S1x3x512x512 .f32) (x2 : Vec F S256x128 .f32) (x3 : Vec F S128x128 .f32) (x4 : Vec F S128x1 .f32) (x5 : Vec F S128x1 .f32) :
    k0_pay96 (kernelRun.sl.r_21 c arg1 harg1 arg2 harg2 arg3 harg3 arg4 harg4 arg5 harg5 arg6 harg6 arg8 arg9 arg10 arg11 arg12 arg13 x0 x1 x2 x3 x4 x5)
      = frameOut (kernelRun.sl.r c arg3 harg3 x2) (kernelRun.sl.r_1 c arg4 harg4 x3) (kernelRun.sl.r_2 c arg5 harg5 x4) (kernelRun.sl.r_3 c arg6 harg6 x5)
          (View.readAt (Elt F) arg1.view (Rect.unit (s := S1x128x16x512) ![0, 0, 9, 0] S1x128x1x512.size inb_S1x128x16x512_S1x128x1x512_0_0_9_0).toLoadRect (harg1.unread x0))
          (View.readAt (Elt F) arg2.view (Rect.unit (s := S1x3x512x512) ![0, 1, 0, 0] S1x1x512x512.size inb_S1x3x512x512_S1x1x512x512_0_1_0_0).toLoadRect (harg2.unread x1)) := by
  unfold kernelRun.sl.r_21 kernelRun.sl.v513 kernelRun.sl.H12_10 kernelRun.sl.v503 kernelRun.sl.v502 kernelRun.sl.H11_10 kernelRun.sl.v496 kernelRun.sl.H10_20 kernelRun.sl.v484 kernelRun.sl.r_20 kernelRun.sl.v118 kernelRun.sl.v120 kernelRun.sl.v485 kernelRun.sl.H9_10
  repeat rw [readCov_after_whole]
  rw [readCov_two_halves, mask_1, inv_1]
  rfl

/-- Frame 10: slice 1 of the adjacency block. -/
theorem piece10 (c : Dev nD) (arg1 : Memref sig .tc .vmem S1x128x16x512 .f32) (harg1 : arg1.IsWhole) (arg2 : Memref sig .tc .vmem S1x3x512x512 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg8 : Memref sig .tc .vmem S3x512x512 .bf16) (arg9 : Memref sig .tc .vmem S8x512 .f32) (arg10 : Memref sig .tc .vmem S256x512 .f32) (arg11 : Memref sig .tc .vmem S256x512 .f32) (arg12 : Memref sig .tc .vmem S256x512 .f32) (arg13 : Memref sig .tc .vmem S128x512 .f32) (x0 : Vec F S1x128x16x512 .f32) (x1 : Vec F S1x3x512x512 .f32) (x2 : Vec F S256x128 .f32) (x3 : Vec F S128x128 .f32) (x4 : Vec F S128x1 .f32) (x5 : Vec F S128x1 .f32) :
    k0_pay103 (kernelRun.sl.r_1 c arg4 harg4 x3) (kernelRun.sl.r_3 c arg6 harg6 x5) (kernelRun.sl.v559 c arg1 harg1 arg2 harg2 arg3 harg3 arg5 harg5 arg8 arg9 arg10 arg11 arg12 arg13 x0 x1 x2 x4)
      = frameOut (kernelRun.sl.r c arg3 harg3 x2) (kernelRun.sl.r_1 c arg4 harg4 x3) (kernelRun.sl.r_2 c arg5 harg5 x4) (kernelRun.sl.r_3 c arg6 harg6 x5)
          (View.readAt (Elt F) arg1.view (Rect.unit (s := S1x128x16x512) ![0, 0, 10, 0] S1x128x1x512.size inb_S1x128x16x512_S1x128x1x512_0_0_10_0).toLoadRect (harg1.unread x0))
          (View.readAt (Elt F) arg2.view (Rect.unit (s := S1x3x512x512) ![0, 1, 0, 0] S1x1x512x512.size inb_S1x3x512x512_S1x1x512x512_0_1_0_0).toLoadRect (harg2.unread x1)) := by
  unfold kernelRun.sl.v559 kernelRun.sl.H12_11 kernelRun.sl.v549 kernelRun.sl.v548 kernelRun.sl.H11_11 kernelRun.sl.r_22 kernelRun.sl.v542 kernelRun.sl.H10_22 kernelRun.sl.v530 kernelRun.sl.v118 kernelRun.sl.v120 kernelRun.sl.v531 kernelRun.sl.H9_11
  repeat rw [readCov_after_whole]
  rw [readCov_two_halves, mask_1, inv_1]
  rfl

/-- Frame 11: slice 1 of the adjacency block. -/
theorem piece11 (c : Dev nD) (arg1 : Memref sig .tc .vmem S1x128x16x512 .f32) (harg1 : arg1.IsWhole) (arg2 : Memref sig .tc .vmem S1x3x512x512 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg8 : Memref sig .tc .vmem S3x512x512 .bf16) (arg9 : Memref sig .tc .vmem S8x512 .f32) (arg10 : Memref sig .tc .vmem S256x512 .f32) (arg11 : Memref sig .tc .vmem S256x512 .f32) (arg12 : Memref sig .tc .vmem S256x512 .f32) (arg13 : Memref sig .tc .vmem S128x512 .f32) (x0 : Vec F S1x128x16x512 .f32) (x1 : Vec F S1x3x512x512 .f32) (x2 : Vec F S256x128 .f32) (x3 : Vec F S128x128 .f32) (x4 : Vec F S128x1 .f32) (x5 : Vec F S128x1 .f32) :
    k0_pay112 (kernelRun.sl.r_24 c arg1 harg1 arg2 harg2 arg3 harg3 arg4 harg4 arg5 harg5 arg6 harg6 arg8 arg9 arg10 arg11 arg12 arg13 x0 x1 x2 x3 x4 x5) k0_pay111
      = frameOut (kernelRun.sl.r c arg3 harg3 x2) (kernelRun.sl.r_1 c arg4 harg4 x3) (kernelRun.sl.r_2 c arg5 harg5 x4) (kernelRun.sl.r_3 c arg6 harg6 x5)
          (View.readAt (Elt F) arg1.view (Rect.unit (s := S1x128x16x512) ![0, 0, 11, 0] S1x128x1x512.size inb_S1x128x16x512_S1x128x1x512_0_0_11_0).toLoadRect (harg1.unread x0))
          (View.readAt (Elt F) arg2.view (Rect.unit (s := S1x3x512x512) ![0, 1, 0, 0] S1x1x512x512.size inb_S1x3x512x512_S1x1x512x512_0_1_0_0).toLoadRect (harg2.unread x1)) := by
  unfold kernelRun.sl.r_24 kernelRun.sl.v605 kernelRun.sl.H12_12 kernelRun.sl.v595 kernelRun.sl.v594 kernelRun.sl.H11_12 kernelRun.sl.v588 kernelRun.sl.H10_24 kernelRun.sl.v576 kernelRun.sl.r_23 kernelRun.sl.v118 kernelRun.sl.v120 kernelRun.sl.v577 kernelRun.sl.H9_12
  repeat rw [readCov_after_whole]
  rw [readCov_two_halves, mask_1, inv_1]
  rfl

/-- Frame 12: slice 2 of the adjacency block. -/
theorem piece12 (c : Dev nD) (arg1 : Memref sig .tc .vmem S1x128x16x512 .f32) (harg1 : arg1.IsWhole) (arg2 : Memref sig .tc .vmem S1x3x512x512 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg8 : Memref sig .tc .vmem S3x512x512 .bf16) (arg9 : Memref sig .tc .vmem S8x512 .f32) (arg10 : Memref sig .tc .vmem S256x512 .f32) (arg11 : Memref sig .tc .vmem S256x512 .f32) (arg12 : Memref sig .tc .vmem S256x512 .f32) (arg13 : Memref sig .tc .vmem S128x512 .f32) (x0 : Vec F S1x128x16x512 .f32) (x1 : Vec F S1x3x512x512 .f32) (x2 : Vec F S256x128 .f32) (x3 : Vec F S128x128 .f32) (x4 : Vec F S128x1 .f32) (x5 : Vec F S128x1 .f32) :
    k0_pay120 (kernelRun.sl.r_1 c arg4 harg4 x3) (kernelRun.sl.r_3 c arg6 harg6 x5) (kernelRun.sl.v651 c arg1 harg1 arg2 harg2 arg3 harg3 arg5 harg5 arg8 arg9 arg10 arg11 arg12 arg13 x0 x1 x2 x4)
      = frameOut (kernelRun.sl.r c arg3 harg3 x2) (kernelRun.sl.r_1 c arg4 harg4 x3) (kernelRun.sl.r_2 c arg5 harg5 x4) (kernelRun.sl.r_3 c arg6 harg6 x5)
          (View.readAt (Elt F) arg1.view (Rect.unit (s := S1x128x16x512) ![0, 0, 12, 0] S1x128x1x512.size inb_S1x128x16x512_S1x128x1x512_0_0_12_0).toLoadRect (harg1.unread x0))
          (View.readAt (Elt F) arg2.view (Rect.unit (s := S1x3x512x512) ![0, 2, 0, 0] S1x1x512x512.size inb_S1x3x512x512_S1x1x512x512_0_2_0_0).toLoadRect (harg2.unread x1)) := by
  unfold kernelRun.sl.v651 kernelRun.sl.H12_13 kernelRun.sl.v641 kernelRun.sl.v640 kernelRun.sl.H11_13 kernelRun.sl.r_25 kernelRun.sl.v634 kernelRun.sl.H10_26 kernelRun.sl.v622 kernelRun.sl.v624 kernelRun.sl.v626 kernelRun.sl.v623 kernelRun.sl.H9_13
  repeat rw [readCov_after_whole]
  rw [readCov_two_halves, mask_2, inv_2]
  rfl

/-- Frame 13: slice 2 of the adjacency block. -/
theorem piece13 (c : Dev nD) (arg1 : Memref sig .tc .vmem S1x128x16x512 .f32) (harg1 : arg1.IsWhole) (arg2 : Memref sig .tc .vmem S1x3x512x512 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg8 : Memref sig .tc .vmem S3x512x512 .bf16) (arg9 : Memref sig .tc .vmem S8x512 .f32) (arg10 : Memref sig .tc .vmem S256x512 .f32) (arg11 : Memref sig .tc .vmem S256x512 .f32) (arg12 : Memref sig .tc .vmem S256x512 .f32) (arg13 : Memref sig .tc .vmem S128x512 .f32) (x0 : Vec F S1x128x16x512 .f32) (x1 : Vec F S1x3x512x512 .f32) (x2 : Vec F S256x128 .f32) (x3 : Vec F S128x128 .f32) (x4 : Vec F S128x1 .f32) (x5 : Vec F S128x1 .f32) :
    k0_pay128 (kernelRun.sl.r_27 c arg1 harg1 arg2 harg2 arg3 harg3 arg4 harg4 arg5 harg5 arg6 harg6 arg8 arg9 arg10 arg11 arg12 arg13 x0 x1 x2 x3 x4 x5)
      = frameOut (kernelRun.sl.r c arg3 harg3 x2) (kernelRun.sl.r_1 c arg4 harg4 x3) (kernelRun.sl.r_2 c arg5 harg5 x4) (kernelRun.sl.r_3 c arg6 harg6 x5)
          (View.readAt (Elt F) arg1.view (Rect.unit (s := S1x128x16x512) ![0, 0, 13, 0] S1x128x1x512.size inb_S1x128x16x512_S1x128x1x512_0_0_13_0).toLoadRect (harg1.unread x0))
          (View.readAt (Elt F) arg2.view (Rect.unit (s := S1x3x512x512) ![0, 2, 0, 0] S1x1x512x512.size inb_S1x3x512x512_S1x1x512x512_0_2_0_0).toLoadRect (harg2.unread x1)) := by
  unfold kernelRun.sl.r_27 kernelRun.sl.v697 kernelRun.sl.H12_14 kernelRun.sl.v687 kernelRun.sl.v686 kernelRun.sl.H11_14 kernelRun.sl.v680 kernelRun.sl.H10_28 kernelRun.sl.v668 kernelRun.sl.r_26 kernelRun.sl.v624 kernelRun.sl.v626 kernelRun.sl.v669 kernelRun.sl.H9_14
  repeat rw [readCov_after_whole]
  rw [readCov_two_halves, mask_2, inv_2]
  rfl

/-- Frame 14: slice 2 of the adjacency block. -/
theorem piece14 (c : Dev nD) (arg1 : Memref sig .tc .vmem S1x128x16x512 .f32) (harg1 : arg1.IsWhole) (arg2 : Memref sig .tc .vmem S1x3x512x512 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg8 : Memref sig .tc .vmem S3x512x512 .bf16) (arg9 : Memref sig .tc .vmem S8x512 .f32) (arg10 : Memref sig .tc .vmem S256x512 .f32) (arg11 : Memref sig .tc .vmem S256x512 .f32) (arg12 : Memref sig .tc .vmem S256x512 .f32) (arg13 : Memref sig .tc .vmem S128x512 .f32) (x0 : Vec F S1x128x16x512 .f32) (x1 : Vec F S1x3x512x512 .f32) (x2 : Vec F S256x128 .f32) (x3 : Vec F S128x128 .f32) (x4 : Vec F S128x1 .f32) (x5 : Vec F S128x1 .f32) :
    k0_pay136 (kernelRun.sl.r_1 c arg4 harg4 x3) (kernelRun.sl.r_3 c arg6 harg6 x5) (kernelRun.sl.v743 c arg1 harg1 arg2 harg2 arg3 harg3 arg5 harg5 arg8 arg9 arg10 arg11 arg12 arg13 x0 x1 x2 x4)
      = frameOut (kernelRun.sl.r c arg3 harg3 x2) (kernelRun.sl.r_1 c arg4 harg4 x3) (kernelRun.sl.r_2 c arg5 harg5 x4) (kernelRun.sl.r_3 c arg6 harg6 x5)
          (View.readAt (Elt F) arg1.view (Rect.unit (s := S1x128x16x512) ![0, 0, 14, 0] S1x128x1x512.size inb_S1x128x16x512_S1x128x1x512_0_0_14_0).toLoadRect (harg1.unread x0))
          (View.readAt (Elt F) arg2.view (Rect.unit (s := S1x3x512x512) ![0, 2, 0, 0] S1x1x512x512.size inb_S1x3x512x512_S1x1x512x512_0_2_0_0).toLoadRect (harg2.unread x1)) := by
  unfold kernelRun.sl.v743 kernelRun.sl.H12_15 kernelRun.sl.v733 kernelRun.sl.v732 kernelRun.sl.H11_15 kernelRun.sl.r_28 kernelRun.sl.v726 kernelRun.sl.H10_30 kernelRun.sl.v714 kernelRun.sl.v624 kernelRun.sl.v626 kernelRun.sl.v715 kernelRun.sl.H9_15
  repeat rw [readCov_after_whole]
  rw [readCov_two_halves, mask_2, inv_2]
  rfl

/-- Frame 15: slice 2 of the adjacency block. -/
theorem piece15 (c : Dev nD) (arg1 : Memref sig .tc .vmem S1x128x16x512 .f32) (harg1 : arg1.IsWhole) (arg2 : Memref sig .tc .vmem S1x3x512x512 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg8 : Memref sig .tc .vmem S3x512x512 .bf16) (arg9 : Memref sig .tc .vmem S8x512 .f32) (arg10 : Memref sig .tc .vmem S256x512 .f32) (arg11 : Memref sig .tc .vmem S256x512 .f32) (arg12 : Memref sig .tc .vmem S256x512 .f32) (arg13 : Memref sig .tc .vmem S128x512 .f32) (x0 : Vec F S1x128x16x512 .f32) (x1 : Vec F S1x3x512x512 .f32) (x2 : Vec F S256x128 .f32) (x3 : Vec F S128x128 .f32) (x4 : Vec F S128x1 .f32) (x5 : Vec F S128x1 .f32) :
    k0_pay1 (kernelRun.sl.r_3 c arg6 harg6 x5) (kernelRun.sl.r_30 c arg1 harg1 arg2 harg2 arg3 harg3 arg4 harg4 arg5 harg5 arg8 arg9 arg10 arg11 arg12 arg13 x0 x1 x2 x3 x4)
      = frameOut (kernelRun.sl.r c arg3 harg3 x2) (kernelRun.sl.r_1 c arg4 harg4 x3) (kernelRun.sl.r_2 c arg5 harg5 x4) (kernelRun.sl.r_3 c arg6 harg6 x5)
          (View.readAt (Elt F) arg1.view (Rect.unit (s := S1x128x16x512) ![0, 0, 15, 0] S1x128x1x512.size inb_S1x128x16x512_S1x128x1x512_0_0_15_0).toLoadRect (harg1.unread x0))
          (View.readAt (Elt F) arg2.view (Rect.unit (s := S1x3x512x512) ![0, 2, 0, 0] S1x1x512x512.size inb_S1x3x512x512_S1x1x512x512_0_2_0_0).toLoadRect (harg2.unread x1)) := by
  unfold kernelRun.sl.r_30 kernelRun.sl.v789 kernelRun.sl.H12_16 kernelRun.sl.v779 kernelRun.sl.v778 kernelRun.sl.H11_16 kernelRun.sl.v772 kernelRun.sl.H10_32 kernelRun.sl.v760 kernelRun.sl.r_29 kernelRun.sl.v624 kernelRun.sl.v626 kernelRun.sl.v761 kernelRun.sl.H9_16
  repeat rw [readCov_after_whole]
  rw [readCov_two_halves, mask_2, inv_2]
  rfl

end Cert.KernelIdeal.Body

end
-- ==== Proof.BlockIdeal.lean ====
import proofs.«158974_j47270410060055_2_alg».proof.Proof.PiecesIdeal
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx Idealize.SL.Sem

variable {F : FTy → Type} [FloatOps F]

/-! ## The output block as one function of the input blocks

The sixteen pieces are the sixteen values of one function of the frame: frame `f` reads slab `f` of
the feature block and slice `selF f` of the adjacency block.  So the block the body leaves is, index
by index, `frameOut` of the slab and the slice that the index's frame coordinate names. -/

/-- The adjacency slice that frame `f` reads: `0` for the first frame, `1` up to frame `11`, `2` after. -/
def selF (f : Fin 16) : Fin 3 :=
  if f.val = 0 then ⟨0, by omega⟩ else if f.val ≤ 11 then ⟨1, by omega⟩ else ⟨2, by omega⟩

/-- Slab `f` of a feature block, and slice `s` of an adjacency block. -/
def slabX (x0 : Vec F S1x128x16x512 .f32) (f : Fin 16) : Vec F S1x128x1x512 .f32 :=
  fun j => x0 (ix4 (j 0 : Fin 1) (j 1 : Fin 128) f (j 3 : Fin 512))
def sliceY (x1 : Vec F S1x3x512x512 .f32) (s : Fin 3) : Vec F S1x1x512x512 .f32 :=
  fun j => x1 (ix4 (j 0 : Fin 1) s (j 2 : Fin 512) (j 3 : Fin 512))

/-- A load of the slab at frame `f` through a whole staging buffer reads slab `f` of its contents. -/
theorem readAt_slab (arg1 : Memref sig .tc .vmem S1x128x16x512 .f32) (harg1 : arg1.IsWhole) (x0 : Vec F S1x128x16x512 .f32)
    (f : Nat) (hf : f < 16)
    (inb : ∀ a, (![0, 0, f, 0] : Fin 4 → Nat) a + S1x128x1x512.size a ≤ S1x128x16x512.size a) :
    View.readAt (Elt F) arg1.view (Rect.unit (s := S1x128x16x512) ![0, 0, f, 0] S1x128x1x512.size inb).toLoadRect (harg1.unread x0)
      = slabX x0 ⟨f, hf⟩ := by
  rw [View.readAt_eq_ld, harg1.read_unread]
  funext j
  refine congrArg x0 (funext fun a => Fin.ext ?_)
  match a with
  | ⟨0, _⟩ => show 0 + 1 * (j 0).val = (j 0).val; omega
  | ⟨1, _⟩ => show 0 + 1 * (j 1).val = (j 1).val; omega
  | ⟨2, _⟩ => show f + 1 * (j 2).val = f; have : (j 2).val < 1 := (j 2).isLt; omega
  | ⟨3, _⟩ => show 0 + 1 * (j 3).val = (j 3).val; omega

/-- A load of slice `s` likewise. -/
theorem readAt_slice (arg2 : Memref sig .tc .vmem S1x3x512x512 .f32) (harg2 : arg2.IsWhole) (x1 : Vec F S1x3x512x512 .f32)
    (s : Nat) (hs : s < 3)
    (inb : ∀ a, (![0, s, 0, 0] : Fin 4 → Nat) a + S1x1x512x512.size a ≤ S1x3x512x512.size a) :
    View.readAt (Elt F) arg2.view (Rect.unit (s := S1x3x512x512) ![0, s, 0, 0] S1x1x512x512.size inb).toLoadRect (harg2.unread x1)
      = sliceY x1 ⟨s, hs⟩ := by
  rw [View.readAt_eq_ld, harg2.read_unread]
  funext j
  refine congrArg x1 (funext fun a => Fin.ext ?_)
  match a with
  | ⟨0, _⟩ => show 0 + 1 * (j 0).val = (j 0).val; omega
  | ⟨1, _⟩ => show s + 1 * (j 1).val = s; have : (j 1).val < 1 := (j 1).isLt; omega
  | ⟨2, _⟩ => show 0 + 1 * (j 2).val = (j 2).val; omega
  | ⟨3, _⟩ => show 0 + 1 * (j 3).val = (j 3).val; omega

/-- The output block: at frame coordinate `f`, the frame function of slab `f` and slice `selF f`. -/
def blockOut (wsd : FVec F S256x128 .bf16) (wn : FVec F S128x128 .bf16) (bD bN : FVec F S128x1 .f32)
    (x0 : Vec F S1x128x16x512 .f32) (x1 : Vec F S1x3x512x512 .f32) : Vec F S1x128x16x512 .f32 :=
  fun y => frameOut wsd wn bD bN (slabX x0 (y 2 : Fin 16)) (sliceY x1 (selF (y 2 : Fin 16)))
    (ix4 (y 0 : Fin 1) (y 1 : Fin 128) (0 : Fin 1) (y 3 : Fin 512))

/-- The frame function at frame `f` is the output block read through frame `f`'s slab of it. -/
theorem piece_at (wsd : FVec F S256x128 .bf16) (wn : FVec F S128x128 .bf16) (bD bN : FVec F S128x1 .f32)
    (x0 : Vec F S1x128x16x512 .f32) (x1 : Vec F S1x3x512x512 .f32) (f : Nat) (hf : f < 16)
    (inb : ∀ a, (![0, 0, f, 0] : Fin 4 → Nat) a + S1x128x1x512.size a ≤ S1x128x16x512.size a) (x : S1x128x1x512.Idx) :
    frameOut wsd wn bD bN (slabX x0 ⟨f, hf⟩) (sliceY x1 (selF ⟨f, hf⟩)) x
      = blockOut wsd wn bD bN x0 x1 ((Rect.unit (s := S1x128x16x512) ![0, 0, f, 0] S1x128x1x512.size inb).emb x) := by
  unfold blockOut
  have e2 : ((Rect.unit (s := S1x128x16x512) ![0, 0, f, 0] S1x128x1x512.size inb).emb x 2 : Fin 16) = ⟨f, hf⟩ :=
    Fin.ext (by show f + 1 * (x 2).val = f; have : (x 2).val < 1 := (x 2).isLt; omega)
  rw [e2]
  refine congrArg _ (funext fun a => Fin.ext ?_)
  match a with
  | ⟨0, _⟩ => show (x 0).val = 0 + 1 * (x 0).val; omega
  | ⟨1, _⟩ => show (x 1).val = 0 + 1 * (x 1).val; omega
  | ⟨2, _⟩ => show (x 2).val = 0; have : (x 2).val < 1 := (x 2).isLt; omega
  | ⟨3, _⟩ => show (x 3).val = 0 + 1 * (x 3).val; omega

set_option maxHeartbeats 1000000 in
/-- Every piece the body writes is the output block read through the piece's rectangle. -/
theorem pieces_ok (c : Dev nD) (i : grid0.Coords) (arg1 : Memref sig .tc .vmem S1x128x16x512 .f32) (harg1 : arg1.IsWhole) (arg2 : Memref sig .tc .vmem S1x3x512x512 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S1x128x16x512 .f32) (harg7 : arg7.IsWhole) (arg8 : Memref sig .tc .vmem S3x512x512 .bf16) (harg8 : arg8.IsWhole) (arg9 : Memref sig .tc .vmem S8x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S128x512 .f32) (harg13 : arg13.IsWhole) (x0 : Vec F S1x128x16x512 .f32) (x1 : Vec F S1x3x512x512 .f32) (x2 : Vec F S256x128 .f32) (x3 : Vec F S128x128 .f32) (x4 : Vec F S128x1 .f32) (x5 : Vec F S128x1 .f32) :
    ∀ p ∈ (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5).1, ∀ x, p.2 x = blockOut (kernelRun.sl.r c arg3 harg3 x2) (kernelRun.sl.r_1 c arg4 harg4 x3) (kernelRun.sl.r_2 c arg5 harg5 x4) (kernelRun.sl.r_3 c arg6 harg6 x5) x0 x1 (p.1.emb x) := by
  have key : ∀ (f : Nat) (hf : f < 16) (s : Nat) (hs : s < 3) (hsel : selF ⟨f, hf⟩ = ⟨s, hs⟩)
      (inbX : ∀ a, (![0, 0, f, 0] : Fin 4 → Nat) a + S1x128x1x512.size a ≤ S1x128x16x512.size a)
      (inbY : ∀ a, (![0, s, 0, 0] : Fin 4 → Nat) a + S1x1x512x512.size a ≤ S1x3x512x512.size a)
      (pay : Vec F S1x128x1x512 .f32)
      (hp : pay = frameOut (kernelRun.sl.r c arg3 harg3 x2) (kernelRun.sl.r_1 c arg4 harg4 x3) (kernelRun.sl.r_2 c arg5 harg5 x4) (kernelRun.sl.r_3 c arg6 harg6 x5)
        (View.readAt (Elt F) arg1.view (Rect.unit (s := S1x128x16x512) ![0, 0, f, 0] S1x128x1x512.size inbX).toLoadRect (harg1.unread x0))
        (View.readAt (Elt F) arg2.view (Rect.unit (s := S1x3x512x512) ![0, s, 0, 0] S1x1x512x512.size inbY).toLoadRect (harg2.unread x1)))
      (x : S1x128x1x512.Idx),
      pay x = blockOut (kernelRun.sl.r c arg3 harg3 x2) (kernelRun.sl.r_1 c arg4 harg4 x3) (kernelRun.sl.r_2 c arg5 harg5 x4) (kernelRun.sl.r_3 c arg6 harg6 x5) x0 x1
        ((Rect.unit (s := S1x128x16x512) ![0, 0, f, 0] S1x128x1x512.size inbX).emb x) := by
    intro f hf s hs hsel inbX inbY pay hp x
    rw [hp, readAt_slab arg1 harg1 x0 f hf, readAt_slice arg2 harg2 x1 s hs, ← hsel]
    exact piece_at _ _ _ _ x0 x1 f hf inbX x
  show ∀ p ∈ ((⟨Rect.unit (s := S1x128x16x512) ![0, 0, 15, 0] S1x128x1x512.size inb_S1x128x16x512_S1x128x1x512_0_0_15_0, k0_pay1 (kernelRun.sl.r_3 c arg6 harg6 x5) (kernelRun.sl.r_30 c arg1 harg1 arg2 harg2 arg3 harg3 arg4 harg4 arg5 harg5 arg8 arg9 arg10 arg11 arg12 arg13 x0 x1 x2 x3 x4)⟩ : View.Piece (Elt F) S1x128x16x512 .f32)
      :: kernelRun.sl.H6_15 c arg1 harg1 arg2 harg2 arg3 harg3 arg4 harg4 arg5 harg5 arg6 harg6 arg8 arg9 arg10 arg11 arg12 arg13 x0 x1 x2 x3 x4 x5), _
  refine List.forall_mem_cons.mpr ⟨fun x => key 15 (by decide) 2 (by decide) rfl inb_S1x128x16x512_S1x128x1x512_0_0_15_0 inb_S1x3x512x512_S1x1x512x512_0_2_0_0 _ (piece15 c arg1 harg1 arg2 harg2 arg3 harg3 arg4 harg4 arg5 harg5 arg6 harg6 arg8 arg9 arg10 arg11 arg12 arg13 x0 x1 x2 x3 x4 x5) x, ?_⟩
  unfold kernelRun.sl.H6_15
  refine List.forall_mem_cons.mpr ⟨fun x => key 14 (by decide) 2 (by decide) rfl inb_S1x128x16x512_S1x128x1x512_0_0_14_0 inb_S1x3x512x512_S1x1x512x512_0_2_0_0 _ (piece14 c arg1 harg1 arg2 harg2 arg3 harg3 arg4 harg4 arg5 harg5 arg6 harg6 arg8 arg9 arg10 arg11 arg12 arg13 x0 x1 x2 x3 x4 x5) x, ?_⟩
  unfold kernelRun.sl.H6_14
  refine List.forall_mem_cons.mpr ⟨fun x => key 13 (by decide) 2 (by decide) rfl inb_S1x128x16x512_S1x128x1x512_0_0_13_0 inb_S1x3x512x512_S1x1x512x512_0_2_0_0 _ (piece13 c arg1 harg1 arg2 harg2 arg3 harg3 arg4 harg4 arg5 harg5 arg6 harg6 arg8 arg9 arg10 arg11 arg12 arg13 x0 x1 x2 x3 x4 x5) x, ?_⟩
  unfold kernelRun.sl.H6_13
  refine List.forall_mem_cons.mpr ⟨fun x => key 12 (by decide) 2 (by decide) rfl inb_S1x128x16x512_S1x128x1x512_0_0_12_0 inb_S1x3x512x512_S1x1x512x512_0_2_0_0 _ (piece12 c arg1 harg1 arg2 harg2 arg3 harg3 arg4 harg4 arg5 harg5 arg6 harg6 arg8 arg9 arg10 arg11 arg12 arg13 x0 x1 x2 x3 x4 x5) x, ?_⟩
  unfold kernelRun.sl.H6_12
  refine List.forall_mem_cons.mpr ⟨fun x => key 11 (by decide) 1 (by decide) rfl inb_S1x128x16x512_S1x128x1x512_0_0_11_0 inb_S1x3x512x512_S1x1x512x512_0_1_0_0 _ (piece11 c arg1 harg1 arg2 harg2 arg3 harg3 arg4 harg4 arg5 harg5 arg6 harg6 arg8 arg9 arg10 arg11 arg12 arg13 x0 x1 x2 x3 x4 x5) x, ?_⟩
  unfold kernelRun.sl.H6_11
  refine List.forall_mem_cons.mpr ⟨fun x => key 10 (by decide) 1 (by decide) rfl inb_S1x128x16x512_S1x128x1x512_0_0_10_0 inb_S1x3x512x512_S1x1x512x512_0_1_0_0 _ (piece10 c arg1 harg1 arg2 harg2 arg3 harg3 arg4 harg4 arg5 harg5 arg6 harg6 arg8 arg9 arg10 arg11 arg12 arg13 x0 x1 x2 x3 x4 x5) x, ?_⟩
  unfold kernelRun.sl.H6_10
  refine List.forall_mem_cons.mpr ⟨fun x => key 9 (by decide) 1 (by decide) rfl inb_S1x128x16x512_S1x128x1x512_0_0_9_0 inb_S1x3x512x512_S1x1x512x512_0_1_0_0 _ (piece9 c arg1 harg1 arg2 harg2 arg3 harg3 arg4 harg4 arg5 harg5 arg6 harg6 arg8 arg9 arg10 arg11 arg12 arg13 x0 x1 x2 x3 x4 x5) x, ?_⟩
  unfold kernelRun.sl.H6_9
  refine List.forall_mem_cons.mpr ⟨fun x => key 8 (by decide) 1 (by decide) rfl inb_S1x128x16x512_S1x128x1x512_0_0_8_0 inb_S1x3x512x512_S1x1x512x512_0_1_0_0 _ (piece8 c arg1 harg1 arg2 harg2 arg3 harg3 arg4 harg4 arg5 harg5 arg6 harg6 arg8 arg9 arg10 arg11 arg12 arg13 x0 x1 x2 x3 x4 x5) x, ?_⟩
  unfold kernelRun.sl.H6_8
  refine List.forall_mem_cons.mpr ⟨fun x => key 7 (by decide) 1 (by decide) rfl inb_S1x128x16x512_S1x128x1x512_0_0_7_0 inb_S1x3x512x512_S1x1x512x512_0_1_0_0 _ (piece7 c arg1 harg1 arg2 harg2 arg3 harg3 arg4 harg4 arg5 harg5 arg6 harg6 arg8 arg9 arg10 arg11 arg12 arg13 x0 x1 x2 x3 x4 x5) x, ?_⟩
  unfold kernelRun.sl.H6_7
  refine List.forall_mem_cons.mpr ⟨fun x => key 6 (by decide) 1 (by decide) rfl inb_S1x128x16x512_S1x128x1x512_0_0_6_0 inb_S1x3x512x512_S1x1x512x512_0_1_0_0 _ (piece6 c arg1 harg1 arg2 harg2 arg3 harg3 arg4 harg4 arg5 harg5 arg6 harg6 arg8 arg9 arg10 arg11 arg12 arg13 x0 x1 x2 x3 x4 x5) x, ?_⟩
  unfold kernelRun.sl.H6_6
  refine List.forall_mem_cons.mpr ⟨fun x => key 5 (by decide) 1 (by decide) rfl inb_S1x128x16x512_S1x128x1x512_0_0_5_0 inb_S1x3x512x512_S1x1x512x512_0_1_0_0 _ (piece5 c arg1 harg1 arg2 harg2 arg3 harg3 arg4 harg4 arg5 harg5 arg6 harg6 arg8 arg9 arg10 arg11 arg12 arg13 x0 x1 x2 x3 x4 x5) x, ?_⟩
  unfold kernelRun.sl.H6_5
  refine List.forall_mem_cons.mpr ⟨fun x => key 4 (by decide) 1 (by decide) rfl inb_S1x128x16x512_S1x128x1x512_0_0_4_0 inb_S1x3x512x512_S1x1x512x512_0_1_0_0 _ (piece4 c arg1 harg1 arg2 harg2 arg3 harg3 arg4 harg4 arg5 harg5 arg6 harg6 arg8 arg9 arg10 arg11 arg12 arg13 x0 x1 x2 x3 x4 x5) x, ?_⟩
  unfold kernelRun.sl.H6_4
  refine List.forall_mem_cons.mpr ⟨fun x => key 3 (by decide) 1 (by decide) rfl inb_S1x128x16x512_S1x128x1x512_0_0_3_0 inb_S1x3x512x512_S1x1x512x512_0_1_0_0 _ (piece3 c arg1 harg1 arg2 harg2 arg3 harg3 arg4 harg4 arg5 harg5 arg6 harg6 arg8 arg9 arg10 arg11 arg12 arg13 x0 x1 x2 x3 x4 x5) x, ?_⟩
  unfold kernelRun.sl.H6_3
  refine List.forall_mem_cons.mpr ⟨fun x => key 2 (by decide) 1 (by decide) rfl inb_S1x128x16x512_S1x128x1x512_0_0_2_0 inb_S1x3x512x512_S1x1x512x512_0_1_0_0 _ (piece2 c arg1 harg1 arg2 harg2 arg3 harg3 arg4 harg4 arg5 harg5 arg6 harg6 arg8 arg9 arg10 arg11 arg12 arg13 x0 x1 x2 x3 x4 x5) x, ?_⟩
  unfold kernelRun.sl.H6_2
  refine List.forall_mem_cons.mpr ⟨fun x => key 1 (by decide) 1 (by decide) rfl inb_S1x128x16x512_S1x128x1x512_0_0_1_0 inb_S1x3x512x512_S1x1x512x512_0_1_0_0 _ (piece1 c arg1 harg1 arg2 harg2 arg3 harg3 arg4 harg4 arg5 harg5 arg6 harg6 arg8 arg9 arg10 arg11 arg12 arg13 x0 x1 x2 x3 x4 x5) x, ?_⟩
  unfold kernelRun.sl.H6_1
  refine List.forall_mem_cons.mpr ⟨fun x => key 0 (by decide) 0 (by decide) rfl inb_S1x128x16x512_S1x128x1x512_0_0_0_0 inb_S1x3x512x512_S1x1x512x512_0_0_0_0 _ (piece0 c arg1 harg1 arg2 harg2 arg3 harg3 arg4 harg4 arg5 harg5 arg6 harg6 arg8 arg9 arg10 arg11 arg12 arg13 x0 x1 x2 x3 x4 x5) x, ?_⟩
  intro p hp; exact absurd hp List.not_mem_nil

/-- So the block the body leaves — its pieces read back — is the output block. -/
theorem canon_pieces (c : Dev nD) (i : grid0.Coords) (arg1 : Memref sig .tc .vmem S1x128x16x512 .f32) (harg1 : arg1.IsWhole) (arg2 : Memref sig .tc .vmem S1x3x512x512 .f32) (harg2 : arg2.IsWhole) (arg3 : Memref sig .tc .vmem S256x128 .f32) (harg3 : arg3.IsWhole) (arg4 : Memref sig .tc .vmem S128x128 .f32) (harg4 : arg4.IsWhole) (arg5 : Memref sig .tc .vmem S128x1 .f32) (harg5 : arg5.IsWhole) (arg6 : Memref sig .tc .vmem S128x1 .f32) (harg6 : arg6.IsWhole) (arg7 : Memref sig .tc .vmem S1x128x16x512 .f32) (harg7 : arg7.IsWhole) (arg8 : Memref sig .tc .vmem S3x512x512 .bf16) (harg8 : arg8.IsWhole) (arg9 : Memref sig .tc .vmem S8x512 .f32) (harg9 : arg9.IsWhole) (arg10 : Memref sig .tc .vmem S256x512 .f32) (harg10 : arg10.IsWhole) (arg11 : Memref sig .tc .vmem S256x512 .f32) (harg11 : arg11.IsWhole) (arg12 : Memref sig .tc .vmem S256x512 .f32) (harg12 : arg12.IsWhole) (arg13 : Memref sig .tc .vmem S128x512 .f32) (harg13 : arg13.IsWhole) (x0 : Vec F S1x128x16x512 .f32) (x1 : Vec F S1x3x512x512 .f32) (x2 : Vec F S256x128 .f32) (x3 : Vec F S128x128 .f32) (x4 : Vec F S128x1 .f32) (x5 : Vec F S128x1 .f32) :
    View.canon (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5).1 = blockOut (kernelRun.sl.r c arg3 harg3 x2) (kernelRun.sl.r_1 c arg4 harg4 x3) (kernelRun.sl.r_2 c arg5 harg5 x4) (kernelRun.sl.r_3 c arg6 harg6 x5) x0 x1 :=
  funext fun y => View.canon_apply_of_pieces _ _ (pieces_ok c i arg1 harg1 arg2 harg2 arg3 harg3 arg4 harg4 arg5 harg5 arg6 harg6 arg7 harg7 arg8 harg8 arg9 harg9 arg10 harg10 arg11 harg11 arg12 harg12 arg13 harg13 x0 x1 x2 x3 x4 x5) y
    (View.cover_of_tiledL (kernelRun c i arg1 harg1 arg2 harg2 arg3 harg3 arg4 harg4 arg5 harg5 arg6 harg6 arg7 harg7 arg8 harg8 arg9 harg9 arg10 harg10 arg11 harg11 arg12 harg12 arg13 harg13 x0 x1 x2 x3 x4 x5).1 S1x128x1x512.size (by sl_kernel_rfl) y)

end Cert.KernelIdeal.Body

end
-- ==== Proof.BlocksAtIdeal.lean ====
import proofs.«158974_j47270410060055_2_alg».proof.Proof.RunIdeal
import proofs.«158974_j47270410060055_2_alg».proof.Proof.BlockIdeal

/-!
# The blocks of a grid point

The grid has one point per batch.  At point `t` the feature window and the output window hold row `t` of their
arrays, the adjacency window holds the first three slices of row `t`, and the four small operands hold their whole
arrays.  What the body leaves in the output window is the block function of the point's input blocks; and every
index of the output array lies in the block of the point of its batch.
-/

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat Cfg Window)

variable {F : FTy → Type} [FloatOps F]

variable (m : (ℓ : Loc nD τ sig) → Buf (Elt F) ℓ)

/-! ## The blocks of a point, read at an index

Point `t` is batch `t`: the feature and output windows' blocks are row `t` of their arrays, the adjacency
window's block the first three frames of row `t`, and the four small operands' blocks their whole arrays. -/

/-- What the body leaves at point `t` is the output block of the point's input blocks. -/
theorem outAt_eq (c : Dev nD) (t : Fin cfg0.N) :
    outAt m c t = blockOut (kernelRun.sl.r c (ms2 t) (hs2 t) (iblk m c 2 t)) (kernelRun.sl.r_1 c (ms3 t) (hs3 t) (iblk m c 3 t)) (kernelRun.sl.r_2 c (ms4 t) (hs4 t) (iblk m c 4 t)) (kernelRun.sl.r_3 c (ms5 t) (hs5 t) (iblk m c 5 t)) (iblk m c 0 t) (yblk m c t) := by
  unfold outAt
  rw [View.read_writes_junk_eq_canon]
  exact canon_pieces c (grid0.coords t) (ms0 t) (hs0 t) (ms1 t) (hs1 t) (ms2 t) (hs2 t) (ms3 t) (hs3 t) (ms4 t) (hs4 t) (ms5 t) (hs5 t) (ms6 t) (hs6 t) sc0 (Memref.isWhole_whole _) sc1 (Memref.isWhole_whole _) sc2 (Memref.isWhole_whole _) sc3 (Memref.isWhole_whole _) sc4 (Memref.isWhole_whole _) sc5 (Memref.isWhole_whole _) (iblk m c 0 t) (yblk m c t) (iblk m c 2 t) (iblk m c 3 t) (iblk m c 4 t) (iblk m c 5 t)

/-- A load of a whole two-axis staging buffer reads its contents. -/
theorem readAt_whole2 {a b : Nat} {e : EltTy} (arg : Memref sig .tc .vmem (⟨2, ![a, b]⟩ : Shape) e) (harg : arg.IsWhole)
    (x : (⟨2, ![a, b]⟩ : Shape).Idx → Elt F e)
    (inb : ∀ i, (![0, 0] : Fin 2 → Nat) i + (⟨2, ![a, b]⟩ : Shape).size i ≤ (⟨2, ![a, b]⟩ : Shape).size i) :
    View.readAt (Elt F) arg.view (Rect.unit (s := (⟨2, ![a, b]⟩ : Shape)) ![0, 0] (⟨2, ![a, b]⟩ : Shape).size inb).toLoadRect (harg.unread x) = x := by
  rw [View.readAt_eq_ld, harg.read_unread, View.ld_unit_zero (by funext i; fin_cases i <;> rfl)]

/-- The point as a batch index. -/
def pt (t : Fin cfg0.N) : Fin 8 := ⟨t.val, lt_of_lt_of_eq t.isLt N_0⟩

/-- The printed index maps, decided over the grid: the three four-axis windows sit at row `t`, offset zero on the
    other axes; the four small operands' windows at offset zero. -/
theorem idx_facts : ∀ t : Fin cfg0.N,
    (win0_0.index t (0 : Fin 4) = t.val ∧ win0_0.index t (1 : Fin 4) = 0 ∧ win0_0.index t (2 : Fin 4) = 0 ∧ win0_0.index t (3 : Fin 4) = 0)
    ∧ (win0_1.index t (0 : Fin 4) = t.val ∧ win0_1.index t (1 : Fin 4) = 0 ∧ win0_1.index t (2 : Fin 4) = 0 ∧ win0_1.index t (3 : Fin 4) = 0)
    ∧ (win0_6.index t (0 : Fin 4) = t.val ∧ win0_6.index t (1 : Fin 4) = 0 ∧ win0_6.index t (2 : Fin 4) = 0 ∧ win0_6.index t (3 : Fin 4) = 0)
    ∧ (win0_2.index t (0 : Fin 2) = 0 ∧ win0_2.index t (1 : Fin 2) = 0) ∧ (win0_3.index t (0 : Fin 2) = 0 ∧ win0_3.index t (1 : Fin 2) = 0)
    ∧ (win0_4.index t (0 : Fin 2) = 0 ∧ win0_4.index t (1 : Fin 2) = 0) ∧ (win0_5.index t (0 : Fin 2) = 0 ∧ win0_5.index t (1 : Fin 2) = 0) :=
  (by decide +kernel : ∀ t : Fin grid0.N, _)

/-- The feature block at point `t` is row `t` of the feature array. -/
theorem iblk0_apply (c : Dev nD) (t : Fin cfg0.N) (y : S1x128x16x512.Idx) :
    iblk m c 0 t y = m ((c : Thread nD τ).loc main_arg1) (ix4 (pt t) (y 1 : Fin 128) (y 2 : Fin 16) (y 3 : Fin 512)) := by
  show V m c main_arg1 (((cfg0.win 0).blk t).view.emb y) = _
  rw [V_main_arg1]
  obtain ⟨⟨e0, e1, e2, e3⟩, -⟩ := idx_facts t
  refine congrArg _ (funext fun a => Fin.ext ?_)
  match a with
  | ⟨0, _⟩ => show win0_0.index t (0 : Fin 4) * 1 + 1 * (y 0).val = t.val; have : (y 0).val < 1 := (y 0).isLt; omega
  | ⟨1, _⟩ => show win0_0.index t (1 : Fin 4) * 128 + 1 * (y 1).val = (y 1).val; omega
  | ⟨2, _⟩ => show win0_0.index t (2 : Fin 4) * 16 + 1 * (y 2).val = (y 2).val; omega
  | ⟨3, _⟩ => show win0_0.index t (3 : Fin 4) * 512 + 1 * (y 3).val = (y 3).val; omega

/-- The adjacency buffer at point `t` holds frames `0, 1, 2` of row `t` of the adjacency array. -/
theorem yblk_apply (c : Dev nD) (t : Fin cfg0.N) (y : S1x3x512x512.Idx) :
    yblk m c t y = m ((c : Thread nD τ).loc main_arg0)
      (ix4 (pt t) (⟨(y 1).val, by have : (y 1).val < 3 := (y 1).isLt; omega⟩ : Fin 16) (y 2 : Fin 512) (y 3 : Fin 512)) := by
  have hm : (cfg0.win 1).moved (cfg0.grid.coords t) y = true :=
    ((cfg0.win 1).moved_iff _ y).mpr fun a => by have := (y a).isLt; unfold Window.xsize; rw [clip1_none t a]; exact this
  unfold yblk Window.fill
  rw [dif_pos hm]
  show V m c main_arg0 (((cfg0.win 1).blk t).view.emb _) = _
  rw [V_main_arg0]
  obtain ⟨-, ⟨e0, e1, e2, e3⟩, -⟩ := idx_facts t
  refine congrArg _ (funext fun a => Fin.ext ?_)
  match a with
  | ⟨0, _⟩ => show win0_1.index t (0 : Fin 4) * 1 + 1 * (y 0).val = t.val; have : (y 0).val < 1 := (y 0).isLt; omega
  | ⟨1, _⟩ => show win0_1.index t (1 : Fin 4) * 3 + 1 * (y 1).val = (y 1).val; omega
  | ⟨2, _⟩ => show win0_1.index t (2 : Fin 4) * 512 + 1 * (y 2).val = (y 2).val; omega
  | ⟨3, _⟩ => show win0_1.index t (3 : Fin 4) * 512 + 1 * (y 3).val = (y 3).val; omega

/-- The four small operands' blocks are their whole arrays as the region finds them. -/
theorem iblk2_apply (c : Dev nD) (t : Fin cfg0.N) (y : S256x128.Idx) : iblk m c 2 t y = V m c main_v5 y := by
  show V m c main_v5 (((cfg0.win 2).blk t).view.emb y) = _
  obtain ⟨-, -, -, ⟨e0, e1⟩, -⟩ := idx_facts t
  refine congrArg _ (funext fun a => Fin.ext ?_)
  match a with
  | ⟨0, _⟩ => show win0_2.index t (0 : Fin 2) * 256 + 1 * (y 0).val = (y 0).val; omega
  | ⟨1, _⟩ => show win0_2.index t (1 : Fin 2) * 128 + 1 * (y 1).val = (y 1).val; omega
theorem iblk3_apply (c : Dev nD) (t : Fin cfg0.N) (y : S128x128.Idx) : iblk m c 3 t y = m ((c : Thread nD τ).loc main_arg4) y := by
  show V m c main_arg4 (((cfg0.win 3).blk t).view.emb y) = _
  rw [V_main_arg4]
  obtain ⟨-, -, -, -, ⟨e0, e1⟩, -⟩ := idx_facts t
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega
theorem iblk4_apply (c : Dev nD) (t : Fin cfg0.N) (y : S128x1.Idx) : iblk m c 4 t y = V m c main_v6 y := by
  show V m c main_v6 (((cfg0.win 4).blk t).view.emb y) = _
  obtain ⟨-, -, -, -, -, ⟨e0, e1⟩, -⟩ := idx_facts t
  refine congrArg _ (funext fun a => Fin.ext ?_)
  match a with
  | ⟨0, _⟩ => show win0_4.index t (0 : Fin 2) * 128 + 1 * (y 0).val = (y 0).val; omega
  | ⟨1, _⟩ => show win0_4.index t (1 : Fin 2) * 1 + 1 * (y 1).val = (y 1).val; omega
theorem iblk5_apply (c : Dev nD) (t : Fin cfg0.N) (y : S128x1.Idx) : iblk m c 5 t y = V m c main_v7 y := by
  show V m c main_v7 (((cfg0.win 5).blk t).view.emb y) = _
  obtain ⟨-, -, -, -, -, -, ⟨e0, e1⟩⟩ := idx_facts t
  refine congrArg _ (funext fun a => Fin.ext ?_)
  match a with
  | ⟨0, _⟩ => show win0_5.index t (0 : Fin 2) * 128 + 1 * (y 0).val = (y 0).val; omega
  | ⟨1, _⟩ => show win0_5.index t (1 : Fin 2) * 1 + 1 * (y 1).val = (y 1).val; omega

/-- The output window's block at point `t` sits at row `t` of the output array. -/
theorem oblk_emb (t : Fin cfg0.N) (y : S1x128x16x512.Idx) :
    ((cfg0.win 6).blk t).view.emb y = ix4 (pt t) (y 1 : Fin 128) (y 2 : Fin 16) (y 3 : Fin 512) := by
  obtain ⟨-, -, ⟨e0, e1, e2, e3⟩, -⟩ := idx_facts t
  refine funext fun a => Fin.ext ?_
  match a with
  | ⟨0, _⟩ => show win0_6.index t (0 : Fin 4) * 1 + 1 * (y 0).val = t.val; have : (y 0).val < 1 := (y 0).isLt; omega
  | ⟨1, _⟩ => show win0_6.index t (1 : Fin 4) * 128 + 1 * (y 1).val = (y 1).val; omega
  | ⟨2, _⟩ => show win0_6.index t (2 : Fin 4) * 16 + 1 * (y 2).val = (y 2).val; omega
  | ⟨3, _⟩ => show win0_6.index t (3 : Fin 4) * 512 + 1 * (y 3).val = (y 3).val; omega

/-- The body holds the four small operands as their staging buffers' contents, each passed through a change of
    float format or a cast to its own shape. -/
theorem opnd_wsd (c : Dev nD) (arg3 : Memref sig .tc .vmem S256x128 .f32) (harg3 : arg3.IsWhole) (x2 : Vec F S256x128 .f32) :
    kernelRun.sl.r c arg3 harg3 x2 = k0_pay2 x2 := by
  unfold kernelRun.sl.r; rw [readAt_whole2]
theorem opnd_wn (c : Dev nD) (arg4 : Memref sig .tc .vmem S128x128 .f32) (harg4 : arg4.IsWhole) (x3 : Vec F S128x128 .f32) :
    kernelRun.sl.r_1 c arg4 harg4 x3 = k0_pay3 x3 := by
  unfold kernelRun.sl.r_1; rw [readAt_whole2]
theorem opnd_bD (c : Dev nD) (arg5 : Memref sig .tc .vmem S128x1 .f32) (harg5 : arg5.IsWhole) (x4 : Vec F S128x1 .f32) :
    kernelRun.sl.r_2 c arg5 harg5 x4 = k0_pay4 x4 := by
  unfold kernelRun.sl.r_2; rw [readAt_whole2]
theorem opnd_bN (c : Dev nD) (arg6 : Memref sig .tc .vmem S128x1 .f32) (harg6 : arg6.IsWhole) (x5 : Vec F S128x1 .f32) :
    kernelRun.sl.r_3 c arg6 harg6 x5 = k0_pay5 x5 := by
  unfold kernelRun.sl.r_3; rw [readAt_whole2]

/-- Every index of the output array lies in the block of the point of its row. -/
theorem out_cover (i : S8x128x16x512.Idx) :
    ∃ t : Fin cfg0.N, (cfg0.win 6).flush t = true ∧ i ∈ ((cfg0.win 6).blk t).view.set := by
  have h0 : (i 0).val < 8 := (i 0).isLt
  have h1 : (i 1).val < 128 := (i 1).isLt
  have h2 : (i 2).val < 16 := (i 2).isLt
  have h3 : (i 3).val < 512 := (i 3).isLt
  have hN : (i 0).val < cfg0.N := lt_of_lt_of_eq h0 N_0.symm
  refine ⟨⟨(i 0).val, hN⟩, flush0_6 _, ?_⟩
  obtain ⟨-, -, ⟨e0, e1, e2, e3⟩, -⟩ := idx_facts ⟨(i 0).val, hN⟩
  show i ∈ ((View.whole main_v8).slice (win0_6.rect (⟨(i 0).val, hN⟩ : Fin cfg0.N))).set
  rw [View.set_slice_whole, Rect.mem_set_unit]
  intro a
  match a with
  | ⟨0, _⟩ =>
    show win0_6.index (⟨(i 0).val, hN⟩ : Fin cfg0.N) (0 : Fin 4) * 1 ≤ (i 0).val ∧ (i 0).val < win0_6.index (⟨(i 0).val, hN⟩ : Fin cfg0.N) (0 : Fin 4) * 1 + 1
    have e0' : win0_6.index (⟨(i 0).val, hN⟩ : Fin cfg0.N) (0 : Fin 4) = (i 0).val := e0
    rw [e0']; exact ⟨by omega, by omega⟩
  | ⟨1, _⟩ =>
    show win0_6.index (⟨(i 0).val, hN⟩ : Fin cfg0.N) (1 : Fin 4) * 128 ≤ (i 1).val ∧ (i 1).val < win0_6.index (⟨(i 0).val, hN⟩ : Fin cfg0.N) (1 : Fin 4) * 128 + 128
    rw [e1]; exact ⟨by omega, by omega⟩
  | ⟨2, _⟩ =>
    show win0_6.index (⟨(i 0).val, hN⟩ : Fin cfg0.N) (2 : Fin 4) * 16 ≤ (i 2).val ∧ (i 2).val < win0_6.index (⟨(i 0).val, hN⟩ : Fin cfg0.N) (2 : Fin 4) * 16 + 16
    rw [e2]; exact ⟨by omega, by omega⟩
  | ⟨3, _⟩ =>
    show win0_6.index (⟨(i 0).val, hN⟩ : Fin cfg0.N) (3 : Fin 4) * 512 ≤ (i 3).val ∧ (i 3).val < win0_6.index (⟨(i 0).val, hN⟩ : Fin cfg0.N) (3 : Fin 4) * 512 + 512
    rw [e3]; exact ⟨by omega, by omega⟩

end Cert.KernelIdeal.Body

end
-- ==== Proof.Spec.lean ====
import Idealize.ShloMosaic.PureOps.Ideal
import Idealize.ShloMosaic.PureOps.Ideal.Laws
import Idealize.ShloMosaic.Lib.ValueIdx

/-!
# The function both programs compute

For a batch `b`, a frame `f` and a node `v`, with `X[c, u] = infos[b, c, f, u]` the features of node
`u` and `M[u, v] = 1` when `Y[b, s f, u, v] ≠ 0` (else `0`) the adjacency mask of the frame's graph —
the frame reads slice `s f` of `Y`: slice `0` for frame `0`, slice `1` for frames `1 … 11`, slice `2`
for the rest —:

* the gate projections `S[c, u] = ∑ k, (W₁ + W₃)[c, k] · X[k, u]` and `D[c, u] = ∑ k, (W₂ − W₃)[c, k] · X[k, u]`,
  where `W₁, W₂, W₃` are the three `128`-column thirds of `W_dense`;
* the two aggregates over incoming edges `A₁[c, v] = ∑ u, (X[c, u] · S[c, u]) · M[u, v]` and
  `A₂[c, v] = ∑ u, X[c, u] · M[u, v]`;
* the in-degree `deg v = max (∑ u, M[u, v]) 1`, and the mean message
  `agg[c, v] = (A₁[c, v] + A₂[c, v] · (D[c, v] + b_dense[c])) · (deg v)⁻¹`;
* the node update `out[b, o, f, v] = max (∑ c, W_node[o, c] · agg[c, v] + b_node[o]) 0`.

Everything is an extended real; sums are finite sums over `Fin`.  The degree is at least one, so
its inverse is the inverse of a nonzero number (`deg_ne_zero`).
-/

noncomputable section

namespace Cert.Spec

open Idealize.ShloMosaic Idealize.ShloMosaic.ValueIdx

abbrev SY : Shape := ⟨4, ![8, 16, 512, 512]⟩
abbrev SX : Shape := ⟨4, ![8, 128, 16, 512]⟩
abbrev SWd : Shape := ⟨2, ![128, 384]⟩
abbrev SWn : Shape := ⟨2, ![128, 128]⟩
abbrev Sb : Shape := ⟨1, ![128]⟩

/-- The slice of `Y` that frame `f` reads. -/
def ysel (f : Fin 16) : Fin 16 :=
  if f.val = 0 then ⟨0, by omega⟩ else if f.val ≤ 11 then ⟨1, by omega⟩ else ⟨2, by omega⟩

/-- The indicator of a nonzero entry. -/
def ind (y : EReal) : EReal := if y = 0 then 0 else 1

theorem ind_nonneg (y : EReal) : 0 ≤ ind y := by
  unfold ind; split
  · exact le_refl _
  · exact zero_le_one

variable (Y : SY.Idx → EReal) (X : SX.Idx → EReal) (Wd : SWd.Idx → EReal) (bd : Sb.Idx → EReal)
  (Wn : SWn.Idx → EReal) (bn : Sb.Idx → EReal)

/-- The adjacency mask of frame `f` of batch `b`: edge `u → v`. -/
def mask (b : Fin 8) (f : Fin 16) (u v : Fin 512) : EReal := ind (Y (ix4 b (ysel f) u v))

/-- The in-degree of `v`, at least one. -/
def deg (b : Fin 8) (f : Fin 16) (v : Fin 512) : EReal := max (∑ u : Fin 512, mask Y b f u v) 1

theorem one_le_deg (b : Fin 8) (f : Fin 16) (v : Fin 512) : 1 ≤ deg Y b f v := le_max_right _ _

theorem deg_ne_zero (b : Fin 8) (f : Fin 16) (v : Fin 512) : deg Y b f v ≠ 0 :=
  fun h => absurd (h ▸ one_le_deg Y b f v) (not_le.mpr zero_lt_one)

/-- `W₁ + W₃` and `W₂ − W₃`: the thirds of `W_dense` are its columns `0 … 127`, `128 … 255`, `256 … 383`. -/
def wS (c k : Fin 128) : EReal :=
  Wd (ix2 c (⟨k.val, by omega⟩ : Fin 384)) + Wd (ix2 c (⟨k.val + 256, by omega⟩ : Fin 384))
def wD (c k : Fin 128) : EReal :=
  Wd (ix2 c (⟨k.val + 128, by omega⟩ : Fin 384)) - Wd (ix2 c (⟨k.val + 256, by omega⟩ : Fin 384))

/-- The two gate projections of node `u`'s features. -/
def projS (b : Fin 8) (f : Fin 16) (c : Fin 128) (u : Fin 512) : EReal :=
  ∑ k : Fin 128, wS Wd c k * X (ix4 b k f u)
def projD (b : Fin 8) (f : Fin 16) (c : Fin 128) (u : Fin 512) : EReal :=
  ∑ k : Fin 128, wD Wd c k * X (ix4 b k f u)

/-- The two aggregates over the edges into `v`. -/
def agg1 (b : Fin 8) (f : Fin 16) (c : Fin 128) (v : Fin 512) : EReal :=
  ∑ u : Fin 512, (X (ix4 b c f u) * projS X Wd b f c u) * mask Y b f u v
def agg2 (b : Fin 8) (f : Fin 16) (c : Fin 128) (v : Fin 512) : EReal :=
  ∑ u : Fin 512, X (ix4 b c f u) * mask Y b f u v

/-- The mean message into `v`. -/
def agg (b : Fin 8) (f : Fin 16) (c : Fin 128) (v : Fin 512) : EReal :=
  (agg1 Y X Wd b f c v + agg2 Y X b f c v * (projD X Wd b f c v + bd (ix1 c))) * (deg Y b f v)⁻¹

/-- The result array. -/
def out (j : SX.Idx) : EReal :=
  max (∑ c : Fin 128, Wn (ix2 (j 1) c) * agg Y X Wd bd (j 0) (j 2) c (j 3) + bn (ix1 (j 1))) 0

end Cert.Spec

end
-- ==== Proof.SpecFrame.lean ====
import Idealize.ShloMosaic.PureOps.Ideal
import Idealize.ShloMosaic.PureOps.Ideal.Laws
import Idealize.ShloMosaic.Lib.ValueIdx
import proofs.«158974_j47270410060055_2_alg».proof.Proof.Spec

/-!
# One frame, as the kernel computes it

The kernel works one frame at a time on the operands as it holds them: the stacked projection
weights `wsd` (`[256, 128]`: rows `0 … 127` the first gate's, rows `128 … 255` the second's), the node
weights `wn`, the two bias columns `bD`, `bN` (`[128, 1]`), the frame's feature slab `X`
(`[1, 128, 1, 512]`) and its adjacency slice `Ys` (`[1, 1, 512, 512]`).  With `M[u, v]` the indicator
of `Ys[u, v] ≠ 0`:

* `S[c, u] = ∑ k, wsd[c, k] · X[k, u]`, `D[c, u] = ∑ k, wsd[128 + c, k] · X[k, u]`;
* `A₁[c, v] = ∑ u, (X[c, u] · S[c, u]) · M[u, v]`, `A₂[c, v] = ∑ u, X[c, u] · M[u, v]`;
* the inverse degree `r v = 1 / max (∑ u, M[u, v]) 1` (the float quotient of one by the degree);
* `agg[c, v] = (A₁[c, v] + A₂[c, v] · (D[c, v] + bD[c])) · r v`;
* `out[o, v] = max (∑ c, wn[o, c] · agg[c, v] + bN[o]) 0`.
-/

noncomputable section

namespace Cert.Spec

open Idealize.ShloMosaic Idealize.ShloMosaic.ValueIdx

abbrev SWsd : Shape := ⟨2, ![256, 128]⟩
abbrev SCol : Shape := ⟨2, ![128, 1]⟩
abbrev SSlab : Shape := ⟨4, ![1, 128, 1, 512]⟩
abbrev SSlice : Shape := ⟨4, ![1, 1, 512, 512]⟩

variable (wsd : SWsd.Idx → EReal) (wn : SWn.Idx → EReal) (bD bN : SCol.Idx → EReal)
  (X : SSlab.Idx → EReal) (Ys : SSlice.Idx → EReal)

def fMask (u v : Fin 512) : EReal := ind (Ys (ix4 (0 : Fin 1) (0 : Fin 1) u v))
def fDeg (v : Fin 512) : EReal := max (∑ u : Fin 512, fMask Ys u v) 1
def fS (c : Fin 128) (u : Fin 512) : EReal :=
  ∑ k : Fin 128, wsd (ix2 (⟨c.val, by omega⟩ : Fin 256) k) * X (ix4 (0 : Fin 1) k (0 : Fin 1) u)
def fD (c : Fin 128) (u : Fin 512) : EReal :=
  ∑ k : Fin 128, wsd (ix2 (⟨c.val + 128, by omega⟩ : Fin 256) k) * X (ix4 (0 : Fin 1) k (0 : Fin 1) u)
def fA1 (c : Fin 128) (v : Fin 512) : EReal :=
  ∑ u : Fin 512, (X (ix4 (0 : Fin 1) c (0 : Fin 1) u) * fS wsd X c u) * fMask Ys u v
def fA2 (c : Fin 128) (v : Fin 512) : EReal :=
  ∑ u : Fin 512, X (ix4 (0 : Fin 1) c (0 : Fin 1) u) * fMask Ys u v
def fAgg (c : Fin 128) (v : Fin 512) : EReal :=
  (fA1 wsd X Ys c v + fA2 X Ys c v * (fD wsd X c v + bD (ix2 c (0 : Fin 1)))) * Ideal.div 1 (fDeg Ys v)
def fOut (o : Fin 128) (v : Fin 512) : EReal :=
  max (∑ c : Fin 128, wn (ix2 o c) * fAgg wsd bD X Ys c v + bN (ix2 o (0 : Fin 1))) 0

end Cert.Spec

end
-- ==== Proof.FrameAtIdeal.lean ====
import proofs.«158974_j47270410060055_2_alg».proof.Proof.FramesIdeal
import proofs.«158974_j47270410060055_2_alg».proof.Proof.SpecFrame
import Idealize.ShloMosaic.Lib.ValueIdx
import Idealize.ShloMosaic.Lib.ValueLayout
import Idealize.ShloMosaic.PureOps.Ideal.Laws

/-!
# One frame of the body, read at an index

Each stage of a frame's arithmetic as a number.  The mask is the indicator of a nonzero adjacency entry, and the
inverse degree is one over the larger of the mask's column sum and one.  A matrix product into a zero accumulator
is the finite sum of products over the contracted coordinate.  A band of rows of a stacked array is its rows at an
offset, and an array written as two bands of rows reads, in each band, what that band's store wrote.  A column
repeated along the lanes reads its own entry.  Put together, the frame's result at `(o, v)` is the frame
specification's `fOut` at `(o, v)`.
-/

noncomputable section

namespace Cert.KernelIdeal.Body

open Cert.KernelIdeal Cert.KernelIdeal.Gen Idealize.ShloMosaic Idealize.ShloMosaic.ValueIdx

/-- "Differs from zero" as a one-bit word, widened to 32 bits and read as a signed integer, is the indicator. -/
theorem ind_bits (y : EReal) :
    FloatOps.sitofp (F := Ideal) .f32
        ((FloatOps.cmpf (F := Ideal) (φ := .f32) .one y (FloatOps.ofBits (F := Ideal) .f32 0x00000000#32)).setWidth 32)
      = Cert.Spec.ind y := by
  rw [Ideal.ofBits_def, Ideal.ofBits_zero_f32]
  show ((((Ideal.cmp .one y 0).setWidth 32).toInt : ℝ) : EReal) = Cert.Spec.ind y
  unfold Cert.Spec.ind Ideal.cmp
  by_cases h : y = 0
  · rw [if_pos h]; simp [h]
  · rw [if_neg h]; simp [h]

/-- The word `0x3F800000` is one. -/
theorem one_bits : Ideal.ofBits .f32 0x3F800000#32 = 1 := by
  simp [Ideal.ofBits, Ideal.ieee, -EReal.coe_mul]; norm_num

/-- The adjacency slice as a matrix: entry `(u, v)` of the `[1, 1, 512, 512]` block. -/
theorem slice_cast (Ys : Vec Ideal S1x1x512x512 .f32) (u v : Fin 512) :
    shapeCast S512x512 Ys shapeCasts_S1x1x512x512_S512x512 (ix2 u v) = Ys (ix4 (0 : Fin 1) (0 : Fin 1) u v) :=
  shapeCast_apply Ys _ _ _ (by
    rw [Shape.rowMajor_val_four, Shape.rowMajor_val_two]
    show ((0 * 1 + 0) * 512 + u.val) * 512 + v.val = u.val * 512 + v.val
    omega)

/-- The mask as numbers. -/
theorem pay6_apply (Ys : Vec Ideal S1x1x512x512 .f32) (u v : Fin 512) :
    k0_pay6 (F := Ideal) Ys (ix2 u v) = Cert.Spec.fMask Ys u v := by
  unfold k0_pay6 Cert.Spec.fMask
  refine Eq.trans ?_ (ind_bits _)
  show FloatOps.sitofp (F := Ideal) .f32 ((FloatOps.cmpf (F := Ideal) (φ := .f32) .one
    (shapeCast S512x512 Ys shapeCasts_S1x1x512x512_S512x512 (ix2 u v)) _).setWidth 32) = _
  rw [slice_cast]
  rfl

/-- The mask as the body stores it (narrowed, with a leading unit axis): the same numbers. -/
theorem pay7_apply (Ys : Vec Ideal S1x1x512x512 .f32) (u v : Fin 512) :
    k0_pay7 (F := Ideal) Ys (ix3 (0 : Fin 1) u v) = Cert.Spec.fMask Ys u v := by
  unfold k0_pay7
  refine (shapeCast_ab_1ab_apply _ _ (0 : Fin 1) u v).trans ?_
  exact pay6_apply Ys u v

/-- The lane sum of the mask over the source node. -/
theorem mask_sum (Ys : Vec Ideal S1x1x512x512 .f32) (hacc : (0x00000000#32 : BitVec 32) = 0x00000000#32) (v : Fin 512) :
    multiReduction (F := Ideal) .add [0] S512 (k0_pay6 (F := Ideal) Ys) 0x00000000#32 reduces_S512x512_S512 (.inl rfl) hacc (ix1 v)
      = ∑ u : Fin 512, Cert.Spec.fMask Ys u v := by
  refine (Ideal.multiReduction_add_single (k0_pay6 (F := Ideal) Ys) 0x00000000#32 reduces_S512x512_S512 (.inl rfl) hacc (ix1 v)).trans ?_
  refine Finset.sum_congr rfl fun u _ => ?_
  refine Eq.trans (congrArg (k0_pay6 (F := Ideal) Ys) ?_) (pay6_apply Ys u v)
  funext a
  match a with
  | ⟨0, _⟩ => rfl
  | ⟨1, _⟩ => rfl

/-- The inverse in-degree, as the body stores it: one row. -/
theorem pay8_apply (Ys : Vec Ideal S1x1x512x512 .f32) (v : Fin 512) :
    k0_pay8 (F := Ideal) Ys (ix2 (0 : Fin 1) v) = Ideal.div 1 (Cert.Spec.fDeg Ys v) := by
  unfold k0_pay8 Cert.Spec.fDeg
  refine (shapeCast_a_1a_apply _ _ (0 : Fin 1) v).trans ?_
  show Ideal.div (Ideal.ofBits .f32 0x3F800000#32) (max (multiReduction (F := Ideal) .add [0] S512 (k0_pay6 (F := Ideal) Ys) 0x00000000#32
    reduces_S512x512_S512 (.inl rfl) rfl (ix1 v)) (Ideal.ofBits .f32 0x3F800000#32)) = _
  rw [one_bits, mask_sum]

/-- The feature slab as a matrix: entry `(c, u)` of the `[1, 128, 1, 512]` block. -/
theorem pay16_apply (X : Vec Ideal S1x128x1x512 .f32) (c : Fin 128) (u : Fin 512) :
    k0_pay16 (F := Ideal) X (ix2 c u) = X (ix4 (0 : Fin 1) c (0 : Fin 1) u) := by
  unfold k0_pay16
  exact shapeCast_apply X _ _ _ (by
    rw [Shape.rowMajor_val_four, Shape.rowMajor_val_two]
    show ((0 * 128 + c.val) * 1 + 0) * 512 + u.val = c.val * 512 + u.val
    omega)

/-! ## A matrix product at an index -/

/-- A matrix product `[m, K] × [K, n]` into the zero accumulator, read at `(r, c)`: the sum over the contracted
    coordinate of the products. The four hypotheses say which coordinates the dimension numbers read. -/
theorem matmul_plain {m K n : Nat} {φ₁ φ₂ : FTy} (D : DotDims ⟨2, ![m, K]⟩ ⟨2, ![K, n]⟩ ⟨2, ![m, n]⟩)
    (hr : D.contr.rank = 1) (hs : D.contr.size ⟨0, by omega⟩ = K)
    (hl0 : ∀ i q, (D.lhsIdx i q 0).val = (i 0).val)
    (hl1 : ∀ i q, (D.lhsIdx i q 1).val = (q ⟨0, by omega⟩).val)
    (hr0 : ∀ i q, (D.rhsIdx i q 0).val = (q ⟨0, by omega⟩).val)
    (hr1 : ∀ i q, (D.rhsIdx i q 1).val = (i 1).val)
    (A : FVec Ideal ⟨2, ![m, K]⟩ φ₁) (B : FVec Ideal ⟨2, ![K, n]⟩ φ₂) (r : Fin m) (c : Fin n) :
    FloatOps.matmul D none A B (constant (F := Ideal) ⟨2, ![m, n]⟩ .f32 0x00000000#32) (ix2 r c)
      = ∑ k : Fin K, A (ix2 r k) * B (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 r c) ((contrEquiv1 D K hr hs).symm k) = ix2 r k := funext fun a => Fin.ext (by
    match a with
    | ⟨0, _⟩ => exact hl0 _ _
    | ⟨1, _⟩ => exact (hl1 _ _).trans hk)
  have er : D.rhsIdx (ix2 r c) ((contrEquiv1 D K hr hs).symm k) = ix2 k c := funext fun a => Fin.ext (by
    match a with
    | ⟨0, _⟩ => exact (hr0 _ _).trans hk
    | ⟨1, _⟩ => exact hr1 _ _)
  rw [el, er]

/-- The stacked projections: row `r` of `wsd` against column `u` of the features. -/
theorem pay17_apply (wsd : FVec Ideal S256x128 .bf16) (X : Vec Ideal S1x128x1x512 .f32) (r : Fin 256) (u : Fin 512) :
    k0_pay17 (F := Ideal) wsd X (ix2 r u) = ∑ k : Fin 128, wsd (ix2 r k) * X (ix4 (0 : Fin 1) k (0 : Fin 1) u) := by
  unfold k0_pay17
  rw [shapeCast_self]
  refine (matmul_plain dot_S256x128_S128x512_S256x512_1_0_0_1_n_n rfl rfl (fun _ _ => rfl)
    (fun i q => dot_S256x128_S128x512_S256x512_1_0_0_1_n_n.lhsIdx_val_of_single rfl i q)
    (fun i q => dot_S256x128_S128x512_S256x512_1_0_0_1_n_n.rhsIdx_val_of_single rfl i q) (fun _ _ => rfl) wsd _ r u).trans ?_
  refine Finset.sum_congr rfl fun k _ => ?_
  exact congrArg (wsd (ix2 r k) * ·) (pay16_apply X k u)

/-! ## Bands of rows, and the two broadcasts -/

/-- A band of `m` rows from row `o` of a matrix: entry `(c, u)` of the band is entry `(o + c, u)` of the matrix. -/
theorem ld_rows {M m n : Nat} (o : Nat) (A : Vec Ideal ⟨2, ![M, n]⟩ .f32)
    (inb : ∀ a, (![o, 0] : Fin 2 → Nat) a + (⟨2, ![m, n]⟩ : Shape).size a ≤ (⟨2, ![M, n]⟩ : Shape).size a)
    (c : Fin m) (u : Fin n) (r : Fin M) (hr : r.val = o + c.val) :
    View.ld (Val := Elt Ideal) A (Rect.unit (s := ⟨2, ![M, n]⟩) ![o, 0] (⟨2, ![m, n]⟩ : Shape).size inb) (ix2 c u) = A (ix2 r u) := by
  refine congrArg A (funext fun a => Fin.ext ?_)
  match a with
  | ⟨0, _⟩ => show o + 1 * c.val = r.val; omega
  | ⟨1, _⟩ => show 0 + 1 * u.val = u.val; omega

/-- A column `[a, 1]` broadcast to `[a, b]` reads, at `(p, c)`, the column's entry `p`. -/
theorem broadcastTo_a1_ab_apply {α : Type} {a b : ℕ} (x : (⟨2, ![a, 1]⟩ : Shape).Idx → α)
    (h : (⟨2, ![a, 1]⟩ : Shape).Broadcasts ⟨2, ![a, b]⟩) (p : Fin a) (c : Fin b) :
    broadcastTo ⟨2, ![a, b]⟩ x h (ix2 p c) = x (ix2 p (0 : Fin 1)) := by
  refine broadcastTo_apply x h (ix2 p c) (ix2 p (0 : Fin 1)) fun ax => ?_
  match ax with
  | ⟨0, _⟩ =>
    show p.val = if a = 1 then 0 else p.val
    split
    · have := p.isLt; omega
    · rfl
  | ⟨1, _⟩ => rfl

/-! ## The stages of one frame -/

section Stages
variable (wsd : FVec Ideal S256x128 .bf16) (wn : FVec Ideal S128x128 .bf16) (bD bN : FVec Ideal S128x1 .f32)
  (X : Vec Ideal S1x128x1x512 .f32) (Ys : Vec Ideal S1x1x512x512 .f32)

/-- `X · S`: the upper half of the aggregation's left operand. -/
theorem pay18_apply (St : Vec Ideal S128x512 .f32) (c : Fin 128) (u : Fin 512) :
    k0_pay18 (F := Ideal) X St (ix2 c u) = X (ix4 (0 : Fin 1) c (0 : Fin 1) u) * St (ix2 c u) := by
  unfold k0_pay18
  rw [shapeCast_self]
  exact congrArg (· * St (ix2 c u)) (pay16_apply X c u)

/-- `X`: its lower half. -/
theorem pay19_apply (c : Fin 128) (u : Fin 512) :
    k0_pay19 (F := Ideal) X (ix2 c u) = X (ix4 (0 : Fin 1) c (0 : Fin 1) u) := by
  unfold k0_pay19
  rw [shapeCast_self]
  exact pay16_apply X c u

/-- The aggregation: row `r` of the stacked left operand against column `v` of the mask. -/
theorem pay20_apply (M : Vec Ideal S1x512x512 .bf16) (stack : Vec Ideal S256x512 .f32) (r : Fin 256) (v : Fin 512) :
    k0_pay20 (F := Ideal) M stack (ix2 r v) = ∑ u : Fin 512, stack (ix2 r u) * M (ix3 (0 : Fin 1) u v) := by
  unfold k0_pay20
  rw [shapeCast_self]
  refine (matmul_plain dot_S256x512_S512x512_S256x512_1_0_0_1_n_n rfl rfl (fun _ _ => rfl)
    (fun i q => dot_S256x512_S512x512_S256x512_1_0_0_1_n_n.lhsIdx_val_of_single rfl i q)
    (fun i q => dot_S256x512_S512x512_S256x512_1_0_0_1_n_n.rhsIdx_val_of_single rfl i q) (fun _ _ => rfl) _ _ r v).trans ?_
  refine Finset.sum_congr rfl fun u _ => ?_
  exact congrArg (stack (ix2 r u) * ·) (shapeCast_1ab_ab_apply M _ u v)

/-- `A₂ · (D + b_dense)`. -/
theorem pay21_apply (Dt A2 : Vec Ideal S128x512 .f32) (c : Fin 128) (v : Fin 512) :
    k0_pay21 (F := Ideal) bD Dt A2 (ix2 c v) = A2 (ix2 c v) * (Dt (ix2 c v) + bD (ix2 c (0 : Fin 1))) := by
  unfold k0_pay21
  exact congrArg (fun t => A2 (ix2 c v) * (Dt (ix2 c v) + t)) (broadcastTo_a1_ab_apply bD _ c v)

/-- The mean message: the sum of the two terms times the inverse degree of the node. -/
theorem pay22_apply (inv : Vec Ideal S1x512 .f32) (A1 : Vec Ideal S128x512 .f32) (P : FVec Ideal S128x512 .f32)
    (c : Fin 128) (v : Fin 512) :
    k0_pay22 (F := Ideal) inv A1 P (ix2 c v) = (A1 (ix2 c v) + P (ix2 c v)) * inv (ix2 (0 : Fin 1) v) := by
  unfold k0_pay22
  rw [shapeCast_self]
  exact congrArg ((A1 (ix2 c v) + P (ix2 c v)) * ·) (broadcastTo_1b_ab_apply inv _ c v)

/-- The node update, stored with its two unit axes. -/
theorem pay23_apply (agg : Vec Ideal S128x512 .f32) (o : Fin 128) (v : Fin 512) :
    k0_pay23 (F := Ideal) wn bN agg (ix4 (0 : Fin 1) o (0 : Fin 1) v)
      = max (∑ c : Fin 128, wn (ix2 o c) * agg (ix2 c v) + bN (ix2 o (0 : Fin 1))) 0 := by
  unfold k0_pay23
  refine (shapeCast_apply _ _ (ix4 (0 : Fin 1) o (0 : Fin 1) v) (ix2 o v) (by
    rw [Shape.rowMajor_val_four, Shape.rowMajor_val_two]
    show o.val * 512 + v.val = ((0 * 128 + o.val) * 1 + 0) * 512 + v.val
    omega)).trans ?_
  show max (FloatOps.matmul dot_S128x128_S128x512_S128x512_1_0_0_1_n_n none wn _ (constant (F := Ideal) S128x512 .f32 0x00000000#32) (ix2 o v)
    + broadcastTo S128x512 bN broadcasts_S128x1_S128x512 (ix2 o v)) (Ideal.ofBits .f32 0x00000000#32) = _
  rw [Ideal.ofBits_zero_f32, broadcastTo_a1_ab_apply, matmul_plain dot_S128x128_S128x512_S128x512_1_0_0_1_n_n rfl rfl (fun _ _ => rfl)
    (fun i q => dot_S128x128_S128x512_S128x512_1_0_0_1_n_n.lhsIdx_val_of_single rfl i q)
    (fun i q => dot_S128x128_S128x512_S128x512_1_0_0_1_n_n.rhsIdx_val_of_single rfl i q) (fun _ _ => rfl)]
  rfl

end Stages

/-! ## Two bands of rows written one after the other

The body fills the left operand of the aggregation in two stores: rows `0 … 127` first, rows `128 … 255` second.
Read at a row of the lower band, the second store does not reach it and the first store's payload is read; read at
a row of the upper band, the second store's payload is. -/

section Halves
variable {Val : EltTy → Type} [∀ e, Nonempty (Val e)] {e : EltTy} {n : Nat}

/-- A row of the lower band reads the older store. -/
theorem canon_halves_lo
    (inbH : ∀ a, (![128, 0] : Fin 2 → Nat) a + (⟨2, ![128, n]⟩ : Shape).size a ≤ (⟨2, ![256, n]⟩ : Shape).size a)
    (inbL : ∀ a, (![0, 0] : Fin 2 → Nat) a + (⟨2, ![128, n]⟩ : Shape).size a ≤ (⟨2, ![256, n]⟩ : Shape).size a)
    (hi lo : (⟨2, ![128, n]⟩ : Shape).Idx → Val e) (c : Fin 128) (u : Fin n) (r : Fin 256) (hr : r.val = c.val) :
    View.canon [(⟨Rect.unit (s := (⟨2, ![256, n]⟩ : Shape)) ![128, 0] (⟨2, ![128, n]⟩ : Shape).size inbH, hi⟩ : View.Piece Val (⟨2, ![256, n]⟩ : Shape) e),
        (⟨Rect.unit (s := (⟨2, ![256, n]⟩ : Shape)) ![0, 0] (⟨2, ![128, n]⟩ : Shape).size inbL, lo⟩ : View.Piece Val (⟨2, ![256, n]⟩ : Shape) e)] (ix2 r u)
      = lo (ix2 c u) := by
  have hn : ix2 r u ∉ (Rect.unit (s := (⟨2, ![256, n]⟩ : Shape)) ![128, 0] (⟨2, ![128, n]⟩ : Shape).size inbH).set := fun h => by
    have h0 := (Rect.mem_set_unit.mp h) (0 : Fin 2)
    have h1 : 128 ≤ r.val := h0.1
    have := c.isLt
    omega
  refine (View.canon_cons_of_not_mem (⟨Rect.unit (s := (⟨2, ![256, n]⟩ : Shape)) ![128, 0] (⟨2, ![128, n]⟩ : Shape).size inbH, hi⟩ : View.Piece Val (⟨2, ![256, n]⟩ : Shape) e)
    [(⟨Rect.unit (s := (⟨2, ![256, n]⟩ : Shape)) ![0, 0] (⟨2, ![128, n]⟩ : Shape).size inbL, lo⟩ : View.Piece Val (⟨2, ![256, n]⟩ : Shape) e)] hn).trans ?_
  have e0 : ix2 r u = (Rect.unit (s := (⟨2, ![256, n]⟩ : Shape)) ![0, 0] (⟨2, ![128, n]⟩ : Shape).size inbL).emb (ix2 c u) :=
    funext fun a => Fin.ext (by
      match a with
      | ⟨0, _⟩ => show r.val = 0 + 1 * c.val; omega
      | ⟨1, _⟩ => show u.val = 0 + 1 * u.val; omega)
  rw [e0, View.canon_cons_emb]

/-- A row of the upper band reads the newer store. -/
theorem canon_halves_hi
    (inbH : ∀ a, (![128, 0] : Fin 2 → Nat) a + (⟨2, ![128, n]⟩ : Shape).size a ≤ (⟨2, ![256, n]⟩ : Shape).size a)
    (inbL : ∀ a, (![0, 0] : Fin 2 → Nat) a + (⟨2, ![128, n]⟩ : Shape).size a ≤ (⟨2, ![256, n]⟩ : Shape).size a)
    (hi lo : (⟨2, ![128, n]⟩ : Shape).Idx → Val e) (c : Fin 128) (u : Fin n) (r : Fin 256) (hr : r.val = c.val + 128) :
    View.canon [(⟨Rect.unit (s := (⟨2, ![256, n]⟩ : Shape)) ![128, 0] (⟨2, ![128, n]⟩ : Shape).size inbH, hi⟩ : View.Piece Val (⟨2, ![256, n]⟩ : Shape) e),
        (⟨Rect.unit (s := (⟨2, ![256, n]⟩ : Shape)) ![0, 0] (⟨2, ![128, n]⟩ : Shape).size inbL, lo⟩ : View.Piece Val (⟨2, ![256, n]⟩ : Shape) e)] (ix2 r u)
      = hi (ix2 c u) := by
  have e0 : ix2 r u = (Rect.unit (s := (⟨2, ![256, n]⟩ : Shape)) ![128, 0] (⟨2, ![128, n]⟩ : Shape).size inbH).emb (ix2 c u) :=
    funext fun a => Fin.ext (by
      match a with
      | ⟨0, _⟩ => show r.val = 128 + 1 * c.val; omega
      | ⟨1, _⟩ => show u.val = 0 + 1 * u.val; omega)
  rw [e0, View.canon_cons_emb]

end Halves

/-! ## One frame, stage by stage

The intermediate arrays of one frame, named, each read at an index and identified with the stage of the same name
in the frame's specification. -/

section Frame
variable (wsd : FVec Ideal S256x128 .bf16) (wn : FVec Ideal S128x128 .bf16) (bD bN : FVec Ideal S128x1 .f32)
  (X : Vec Ideal S1x128x1x512 .f32) (Ys : Vec Ideal S1x1x512x512 .f32)

/-- The stacked projections and their two bands. -/
def sdOf : FVec Ideal S256x512 .f32 := k0_pay17 (F := Ideal) wsd X
def StOf : Vec Ideal S128x512 .f32 :=
  View.ld (Val := Elt Ideal) (sdOf wsd X) (Rect.unit (s := S256x512) ![0, 0] S128x512.size inb_S256x512_S128x512_0_0)
def DtOf : Vec Ideal S128x512 .f32 :=
  View.ld (Val := Elt Ideal) (sdOf wsd X) (Rect.unit (s := S256x512) ![128, 0] S128x512.size inb_S256x512_S128x512_128_0)

/-- The left operand of the aggregation: `X · S` over `X`. -/
def stackOf : Vec Ideal S256x512 .f32 :=
  View.ld (Val := Elt Ideal) (View.canon
      [(⟨Rect.unit (s := S256x512) ![128, 0] S128x512.size inb_S256x512_S128x512_128_0, k0_pay19 (F := Ideal) X⟩ : View.Piece (Elt Ideal) S256x512 .f32),
       (⟨Rect.unit (s := S256x512) ![0, 0] S128x512.size inb_S256x512_S128x512_0_0, k0_pay18 (F := Ideal) X (StOf wsd X)⟩ : View.Piece (Elt Ideal) S256x512 .f32)])
      (Rect.unit (s := S256x512) ![0, 0] S256x512.size inb_S256x512_S256x512_0_0)

/-- The stacked aggregates and their two bands, and the mean message. -/
def resOf : FVec Ideal S256x512 .f32 := k0_pay20 (F := Ideal) (k0_pay7 (F := Ideal) Ys) (stackOf wsd X)
def A1Of : Vec Ideal S128x512 .f32 :=
  View.ld (Val := Elt Ideal) (resOf wsd X Ys) (Rect.unit (s := S256x512) ![0, 0] S128x512.size inb_S256x512_S128x512_0_0)
def A2Of : Vec Ideal S128x512 .f32 :=
  View.ld (Val := Elt Ideal) (resOf wsd X Ys) (Rect.unit (s := S256x512) ![128, 0] S128x512.size inb_S256x512_S128x512_128_0)
def aggOf : FVec Ideal S128x512 .f32 :=
  k0_pay22 (F := Ideal) (k0_pay8 (F := Ideal) Ys) (A1Of wsd X Ys) (k0_pay21 (F := Ideal) bD (DtOf wsd X) (A2Of wsd X Ys))

/-- One frame is the node update of the mean message. -/
theorem frameOut_unfold : frameOut (F := Ideal) wsd wn bD bN X Ys
    = k0_pay23 (F := Ideal) wn bN (View.ld (Val := Elt Ideal) (aggOf wsd bD X Ys)
        (Rect.unit (s := S128x512) ![0, 0] S128x512.size inb_S128x512_S128x512_0_0)) := rfl

/-- The first gate projection: the lower band of the stacked projections. -/
theorem St_apply (c : Fin 128) (u : Fin 512) : StOf wsd X (ix2 c u) = Cert.Spec.fS wsd X c u := by
  unfold StOf sdOf
  exact (ld_rows 0 _ _ c u (⟨c.val, by omega⟩ : Fin 256) (Nat.zero_add _).symm).trans (pay17_apply wsd X _ u)

/-- The second gate projection: the upper band. -/
theorem Dt_apply (c : Fin 128) (u : Fin 512) : DtOf wsd X (ix2 c u) = Cert.Spec.fD wsd X c u := by
  unfold DtOf sdOf
  exact (ld_rows 128 _ _ c u (⟨c.val + 128, by omega⟩ : Fin 256) (Nat.add_comm _ _)).trans (pay17_apply wsd X _ u)

/-- The left operand's lower band is `X · S`. -/
theorem stack_lo (c : Fin 128) (u : Fin 512) :
    stackOf wsd X (ix2 (⟨c.val, by omega⟩ : Fin 256) u) = X (ix4 (0 : Fin 1) c (0 : Fin 1) u) * Cert.Spec.fS wsd X c u := by
  unfold stackOf
  rw [View.ld_unit_zero (by funext a; fin_cases a <;> rfl)]
  refine (canon_halves_lo _ _ _ _ c u _ rfl).trans ?_
  rw [pay18_apply, St_apply]

/-- The left operand's upper band is `X`. -/
theorem stack_hi (c : Fin 128) (u : Fin 512) :
    stackOf wsd X (ix2 (⟨c.val + 128, by omega⟩ : Fin 256) u) = X (ix4 (0 : Fin 1) c (0 : Fin 1) u) := by
  unfold stackOf
  rw [View.ld_unit_zero (by funext a; fin_cases a <;> rfl)]
  refine (canon_halves_hi _ _ _ _ c u _ rfl).trans ?_
  exact pay19_apply X c u

/-- The stacked aggregates: each row of the left operand against each column of the mask. -/
theorem res_apply (r : Fin 256) (v : Fin 512) :
    resOf wsd X Ys (ix2 r v) = ∑ u : Fin 512, stackOf wsd X (ix2 r u) * Cert.Spec.fMask Ys u v := by
  unfold resOf
  refine (pay20_apply _ _ r v).trans (Finset.sum_congr rfl fun u _ => ?_)
  exact congrArg (stackOf wsd X (ix2 r u) * ·) (pay7_apply Ys u v)

/-- The gated aggregate: the lower band. -/
theorem A1_apply (c : Fin 128) (v : Fin 512) : A1Of wsd X Ys (ix2 c v) = Cert.Spec.fA1 wsd X Ys c v := by
  unfold A1Of Cert.Spec.fA1
  refine (ld_rows 0 _ _ c v (⟨c.val, by omega⟩ : Fin 256) (Nat.zero_add _).symm).trans ?_
  refine (res_apply wsd X Ys _ v).trans (Finset.sum_congr rfl fun u _ => ?_)
  exact congrArg (· * Cert.Spec.fMask Ys u v) (stack_lo wsd X c u)

/-- The plain aggregate: the upper band. -/
theorem A2_apply (c : Fin 128) (v : Fin 512) : A2Of wsd X Ys (ix2 c v) = Cert.Spec.fA2 X Ys c v := by
  unfold A2Of Cert.Spec.fA2
  refine (ld_rows 128 _ _ c v (⟨c.val + 128, by omega⟩ : Fin 256) (Nat.add_comm _ _)).trans ?_
  refine (res_apply wsd X Ys _ v).trans (Finset.sum_congr rfl fun u _ => ?_)
  exact congrArg (· * Cert.Spec.fMask Ys u v) (stack_hi wsd X c u)

/-- The mean message. -/
theorem agg_apply (c : Fin 128) (v : Fin 512) : aggOf wsd bD X Ys (ix2 c v) = Cert.Spec.fAgg wsd bD X Ys c v := by
  unfold aggOf Cert.Spec.fAgg
  refine (pay22_apply _ _ _ c v).trans ?_
  rw [pay21_apply, pay8_apply, A1_apply, A2_apply, Dt_apply]

/-- ONE FRAME of the body is one frame of the specification. -/
theorem frameOut_apply (o : Fin 128) (v : Fin 512) :
    frameOut (F := Ideal) wsd wn bD bN X Ys (ix4 (0 : Fin 1) o (0 : Fin 1) v) = Cert.Spec.fOut wsd wn bD bN X Ys o v := by
  rw [frameOut_unfold, View.ld_unit_zero (by funext a; fin_cases a <;> rfl)]
  refine (pay23_apply wn bN _ o v).trans ?_
  unfold Cert.Spec.fOut
  refine congrArg (max · (0 : EReal)) (congrArg (· + bN (ix2 o (0 : Fin 1))) (Finset.sum_congr rfl fun c _ => ?_))
  exact congrArg (wn (ix2 o c) * ·) (agg_apply wsd bD X Ys c v)

end Frame

end Cert.KernelIdeal.Body
end
-- ==== Proof.OperandsIdeal.lean ====
import proofs.«158974_j47270410060055_2_alg».proof.Proof.Gen.KernelIdeal.Frame
import proofs.«158974_j47270410060055_2_alg».proof.Proof.Spec
import Idealize.ShloMosaic.Lib.Pipeline.Value
import Idealize.ShloMosaic.Lib.ValueIdx
import Idealize.ShloMosaic.Lib.ValueLayout
import Idealize.ShloMosaic.Lib.StableHlo.Run

/-!
# The small operands as the region finds them

Before the region the program prepares three of the kernel's operands from the argument arrays:

* the stacked projection weights `[256, 128]`: the three `128`-column thirds `W₁, W₂, W₃` of `W_dense` are cut out,
  `W₁ + W₃` and `W₂ − W₃` are formed, and the second is put under the first;
* the two bias columns `[128, 1]`: `b_dense` and `b_node` with a unit axis added.

Read at an index: row `r < 128` of the stacked weights is row `r` of `W₁ + W₃`, row `128 + r` is row `r` of
`W₂ − W₃`, and entry `(o, 0)` of a bias column is entry `o` of the bias.
-/

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx Idealize.SL.Sem

variable (m : (ℓ : Loc nD τ sig) → Buf (Elt Ideal) ℓ)

/-- A third of `W_dense`: its `128` columns from column `off` on. -/
abbrev third (W : Vec Ideal S128x384 .f32) (off : Nat) (h : S128x384.Slices ![0, off] S128x128) : FVec Ideal S128x128 .f32 :=
  extractStridedSlice S128x128 ![0, off] W h

/-- The stacked weights as a function of `W_dense`. -/
def stackedW (W : Vec Ideal S128x384 .f32) : Vec Ideal S256x128 .f32 :=
  concatenate S256x128 0
    [⟨S128x128, addf (F := Ideal) (third W 0 slices_S128x384_S128x128_0_0) (third W 256 slices_S128x384_S128x128_0_256)⟩,
     ⟨S128x128, subf (F := Ideal) (third W 128 slices_S128x384_S128x128_0_128) (third W 256 slices_S128x384_S128x128_0_256)⟩]
    concatenates_S128x128_S128x128_S256x128_d0

/-- The region finds the stacked weights of `W_dense` in the first small operand's array. -/
theorem V_wsd (c : Dev nD) :
    (V m c main_v5 : S256x128.Idx → EReal) = stackedW (m ((c : Thread nD τ).loc main_arg2)) := by
  dsimp only [V, hostOps0]
  after_results
  rfl

/-- A third of `W_dense` read at an index: the columns from `off` on. -/
theorem third_apply (W : Vec Ideal S128x384 .f32) (off : Nat) (h : S128x384.Slices ![0, off] S128x128)
    (r k : Fin 128) (q : Fin 384) (hq : q.val = off + k.val) :
    extractStridedSlice S128x128 ![0, off] W h (ix2 r k) = W (ix2 r q) :=
  extractStridedSlice_apply _ W h (ix2 r k) (ix2 r q) (fun a => by
    match a with
    | ⟨0, _⟩ => show r.val = 0 + r.val; omega
    | ⟨1, _⟩ => show q.val = off + k.val; exact hq)

/-- Rows `0 … 127` of the stacked weights are `W₁ + W₃`. -/
theorem stackedW_lo (W : Vec Ideal S128x384 .f32) (r k : Fin 128) :
    stackedW W (ix2 (⟨r.val, by omega⟩ : Fin 256) k) = Cert.Spec.wS W r k := by
  unfold stackedW Cert.Spec.wS
  refine (concatenate_pair_apply_left (t := S256x128) (s₁ := S128x128) (s₂ := S128x128) (0 : Fin 2) _ _ _
    (ix2 (⟨r.val, by omega⟩ : Fin 256) k) rfl (ix2 r k) (fun b => ?_)).trans ?_
  · match b with
    | ⟨0, _⟩ => rfl
    | ⟨1, _⟩ => rfl
  · refine (addf_apply _ _ _).trans (congrArg₂ (· + ·) ?_ ?_)
    · exact third_apply W 0 _ r k _ (by show k.val = 0 + k.val; omega)
    · exact third_apply W 256 _ r k _ (by show k.val + 256 = 256 + k.val; omega)

/-- Rows `128 … 255` are `W₂ − W₃`. -/
theorem stackedW_hi (W : Vec Ideal S128x384 .f32) (r k : Fin 128) :
    stackedW W (ix2 (⟨r.val + 128, by omega⟩ : Fin 256) k) = Cert.Spec.wD W r k := by
  unfold stackedW Cert.Spec.wD
  refine (concatenate_pair_apply_right (t := S256x128) (s₁ := S128x128) (s₂ := S128x128) (0 : Fin 2) _ _ _
    (ix2 (⟨r.val + 128, by omega⟩ : Fin 256) k) rfl rfl (ix2 r k) (fun b hb => ?_) rfl).trans ?_
  · match b, hb with
    | ⟨0, _⟩, hb => exact absurd rfl hb
    | ⟨1, _⟩, _ => rfl
  · refine (subf_apply _ _ _).trans (congrArg₂ (· - ·) ?_ ?_)
    · exact third_apply W 128 _ r k _ (by show k.val + 128 = 128 + k.val; omega)
    · exact third_apply W 256 _ r k _ (by show k.val + 256 = 256 + k.val; omega)

/-- A vector with a unit axis added, read at `(o, 0)`. -/
theorem column_apply (x : Vec Ideal S128 .f32) (o : Fin 128) :
    shapeCast S128x1 x shapeCasts_S128_S128x1 (ix2 o (0 : Fin 1)) = x (ix1 o) :=
  shapeCast_apply x _ _ _ (by
    rw [Shape.rowMajor_val_one, Shape.rowMajor_val_two]
    show o.val = o.val * 1 + 0
    omega)

/-- The region finds `b_dense` as a column in the third small operand's array, -/
theorem V_bD (c : Dev nD) (o : Fin 128) :
    V m c main_v6 (ix2 o (0 : Fin 1)) = m ((c : Thread nD τ).loc main_arg3) (ix1 o) := by
  have e : (V m c main_v6 : S128x1.Idx → EReal) = shapeCast S128x1 (m ((c : Thread nD τ).loc main_arg3)) shapeCasts_S128_S128x1 := by
    dsimp only [V, hostOps0]
    after_results
    rfl
  rw [e]
  exact column_apply _ o

/-- and `b_node` in the fourth's. -/
theorem V_bN (c : Dev nD) (o : Fin 128) :
    V m c main_v7 (ix2 o (0 : Fin 1)) = m ((c : Thread nD τ).loc main_arg5) (ix1 o) := by
  have e : (V m c main_v7 : S128x1.Idx → EReal) = shapeCast S128x1 (m ((c : Thread nD τ).loc main_arg5)) shapeCasts_S128_S128x1 := by
    dsimp only [V, hostOps0]
    after_results
    rfl
  rw [e]
  exact column_apply _ o

end Cert.KernelIdeal.Body

end
-- ==== Proof.SpecBridge.lean ====
import proofs.«158974_j47270410060055_2_alg».proof.Proof.Spec
import proofs.«158974_j47270410060055_2_alg».proof.Proof.SpecFrame

/-!
# One frame of the kernel is one frame of the whole-array function

`SpecFrame` writes what the kernel computes on one frame from the operands as it holds them;
`Spec` writes the function of the whole arrays.  When the operands are what they should be —

* the stacked weights' rows `0 … 127` are `W₁ + W₃` and rows `128 … 255` are `W₂ − W₃`,
* the node weights are `W_node`, the two bias columns are `b_dense` and `b_node`,
* the feature slab is frame `f` of batch `b` of `X`, the adjacency slice is slice `s f` of batch `b` of `Y` —

the two are the same expression, stage by stage: the masks agree entrywise, so the degrees agree;
the projections agree term by term, so the aggregates do; and the one place where the two texts
differ, the float quotient `1 / deg` against the inverse `deg⁻¹`, is no difference because the
degree is at least one, hence nonzero, and off zero the quotient `x / y` is `x · y⁻¹`.
-/

noncomputable section

namespace Cert.Spec

open Idealize.ShloMosaic Idealize.ShloMosaic.ValueIdx

/-- Off zero the quotient of one by `d` is the inverse of `d`. -/
theorem div_one_of_ne_zero {d : EReal} (h : d ≠ 0) : Ideal.div 1 d = d⁻¹ := by
  unfold Ideal.div
  rw [if_neg h, one_mul]

section Stages

variable (Y : SY.Idx → EReal) (X : SX.Idx → EReal) (Wd : SWd.Idx → EReal) (bd : Sb.Idx → EReal)
  (Wn : SWn.Idx → EReal) (bn : Sb.Idx → EReal)
  (wsd : SWsd.Idx → EReal) (wn : SWn.Idx → EReal) (bD bN : SCol.Idx → EReal)
  (Xs : SSlab.Idx → EReal) (Ys : SSlice.Idx → EReal) (b : Fin 8) (f : Fin 16)

/-- The masks agree entrywise: the slice is slice `s f` of `Y`. -/
theorem fMask_eq (hY : ∀ (u v : Fin 512), Ys (ix4 (0 : Fin 1) (0 : Fin 1) u v) = Y (ix4 b (ysel f) u v))
    (u v : Fin 512) : fMask Ys u v = mask Y b f u v := by
  unfold fMask mask
  rw [hY u v]

/-- Equal masks have equal column sums, hence equal degrees. -/
theorem fDeg_eq (hY : ∀ (u v : Fin 512), Ys (ix4 (0 : Fin 1) (0 : Fin 1) u v) = Y (ix4 b (ysel f) u v))
    (v : Fin 512) : fDeg Ys v = deg Y b f v := by
  unfold fDeg deg
  rw [Finset.sum_congr rfl (fun u _ => fMask_eq Y Ys b f hY u v)]

/-- The first projection: rows `0 … 127` of the stacked weights are `W₁ + W₃`. -/
theorem fS_eq
    (hwS : ∀ (c k : Fin 128), wsd (ix2 (⟨c.val, by omega⟩ : Fin 256) k) = wS Wd c k)
    (hX : ∀ (k : Fin 128) (u : Fin 512), Xs (ix4 (0 : Fin 1) k (0 : Fin 1) u) = X (ix4 b k f u))
    (c : Fin 128) (u : Fin 512) : fS wsd Xs c u = projS X Wd b f c u := by
  unfold fS projS
  exact Finset.sum_congr rfl (fun k _ => by rw [hwS c k, hX k u])

/-- The second projection: rows `128 … 255` of the stacked weights are `W₂ − W₃`. -/
theorem fD_eq
    (hwD : ∀ (c k : Fin 128), wsd (ix2 (⟨c.val + 128, by omega⟩ : Fin 256) k) = wD Wd c k)
    (hX : ∀ (k : Fin 128) (u : Fin 512), Xs (ix4 (0 : Fin 1) k (0 : Fin 1) u) = X (ix4 b k f u))
    (c : Fin 128) (u : Fin 512) : fD wsd Xs c u = projD X Wd b f c u := by
  unfold fD projD
  exact Finset.sum_congr rfl (fun k _ => by rw [hwD c k, hX k u])

/-- The gated aggregate over the edges into `v`. -/
theorem fA1_eq
    (hwS : ∀ (c k : Fin 128), wsd (ix2 (⟨c.val, by omega⟩ : Fin 256) k) = wS Wd c k)
    (hX : ∀ (k : Fin 128) (u : Fin 512), Xs (ix4 (0 : Fin 1) k (0 : Fin 1) u) = X (ix4 b k f u))
    (hY : ∀ (u v : Fin 512), Ys (ix4 (0 : Fin 1) (0 : Fin 1) u v) = Y (ix4 b (ysel f) u v))
    (c : Fin 128) (v : Fin 512) : fA1 wsd Xs Ys c v = agg1 Y X Wd b f c v := by
  unfold fA1 agg1
  exact Finset.sum_congr rfl (fun u _ => by
    rw [hX c u, fS_eq X Wd wsd Xs b f hwS hX c u, fMask_eq Y Ys b f hY u v])

/-- The plain aggregate over the edges into `v`. -/
theorem fA2_eq
    (hX : ∀ (k : Fin 128) (u : Fin 512), Xs (ix4 (0 : Fin 1) k (0 : Fin 1) u) = X (ix4 b k f u))
    (hY : ∀ (u v : Fin 512), Ys (ix4 (0 : Fin 1) (0 : Fin 1) u v) = Y (ix4 b (ysel f) u v))
    (c : Fin 128) (v : Fin 512) : fA2 Xs Ys c v = agg2 Y X b f c v := by
  unfold fA2 agg2
  exact Finset.sum_congr rfl (fun u _ => by rw [hX c u, fMask_eq Y Ys b f hY u v])

/-- The mean message: the stages above, and the quotient by the degree is the product with its
    inverse because the degree is not zero. -/
theorem fAgg_eq
    (hwS : ∀ (c k : Fin 128), wsd (ix2 (⟨c.val, by omega⟩ : Fin 256) k) = wS Wd c k)
    (hwD : ∀ (c k : Fin 128), wsd (ix2 (⟨c.val + 128, by omega⟩ : Fin 256) k) = wD Wd c k)
    (hbD : ∀ c : Fin 128, bD (ix2 c (0 : Fin 1)) = bd (ix1 c))
    (hX : ∀ (k : Fin 128) (u : Fin 512), Xs (ix4 (0 : Fin 1) k (0 : Fin 1) u) = X (ix4 b k f u))
    (hY : ∀ (u v : Fin 512), Ys (ix4 (0 : Fin 1) (0 : Fin 1) u v) = Y (ix4 b (ysel f) u v))
    (c : Fin 128) (v : Fin 512) : fAgg wsd bD Xs Ys c v = agg Y X Wd bd b f c v := by
  unfold fAgg agg
  rw [fA1_eq Y X Wd wsd Xs Ys b f hwS hX hY c v, fA2_eq Y X Xs Ys b f hX hY c v,
    fD_eq X Wd wsd Xs b f hwD hX c v, hbD c, fDeg_eq Y Ys b f hY v,
    div_one_of_ne_zero (deg_ne_zero Y b f v)]

end Stages

/-- The coordinates of an index built from four coordinates. -/
theorem ix4_0 {n0 n1 n2 n3 : Nat} (a : Fin n0) (b : Fin n1) (c : Fin n2) (d : Fin n3) :
    (ix4 a b c d) 0 = a := rfl
theorem ix4_1 {n0 n1 n2 n3 : Nat} (a : Fin n0) (b : Fin n1) (c : Fin n2) (d : Fin n3) :
    (ix4 a b c d) 1 = b := rfl
theorem ix4_2 {n0 n1 n2 n3 : Nat} (a : Fin n0) (b : Fin n1) (c : Fin n2) (d : Fin n3) :
    (ix4 a b c d) 2 = c := rfl
theorem ix4_3 {n0 n1 n2 n3 : Nat} (a : Fin n0) (b : Fin n1) (c : Fin n2) (d : Fin n3) :
    (ix4 a b c d) 3 = d := rfl

/-- The kernel's frame function, on the right operands, is the whole-array function at the frame's
    indices. -/
theorem fOut_eq_out (Y : SY.Idx → EReal) (X : SX.Idx → EReal) (Wd : SWd.Idx → EReal) (bd : Sb.Idx → EReal)
    (Wn : SWn.Idx → EReal) (bn : Sb.Idx → EReal)
    (wsd : SWsd.Idx → EReal) (wn : SWn.Idx → EReal) (bD bN : SCol.Idx → EReal) (Xs : SSlab.Idx → EReal)
    (Ys : SSlice.Idx → EReal)
    (b : Fin 8) (f : Fin 16)
    (hwS : ∀ (c k : Fin 128), wsd (ix2 (⟨c.val, by omega⟩ : Fin 256) k) = wS Wd c k)
    (hwD : ∀ (c k : Fin 128), wsd (ix2 (⟨c.val + 128, by omega⟩ : Fin 256) k) = wD Wd c k)
    (hwn : ∀ (o c : Fin 128), wn (ix2 o c) = Wn (ix2 o c))
    (hbD : ∀ c : Fin 128, bD (ix2 c (0 : Fin 1)) = bd (ix1 c))
    (hbN : ∀ o : Fin 128, bN (ix2 o (0 : Fin 1)) = bn (ix1 o))
    (hX : ∀ (k : Fin 128) (u : Fin 512), Xs (ix4 (0 : Fin 1) k (0 : Fin 1) u) = X (ix4 b k f u))
    (hY : ∀ (u v : Fin 512), Ys (ix4 (0 : Fin 1) (0 : Fin 1) u v) = Y (ix4 b (ysel f) u v))
    (o : Fin 128) (v : Fin 512) :
    fOut wsd wn bD bN Xs Ys o v = out Y X Wd bd Wn bn (ix4 b o f v) := by
  unfold fOut out
  rw [ix4_0, ix4_1, ix4_2, ix4_3, hbN o]
  congr 2
  exact Finset.sum_congr rfl (fun c _ => by
    rw [hwn o c, fAgg_eq Y X Wd bd wsd bD Xs Ys b f hwS hwD hbD hX hY c v])

end Cert.Spec

end
-- ==== Proof.ValueIdeal.lean ====
import proofs.«158974_j47270410060055_2_alg».proof.Proof.BlocksAtIdeal
import proofs.«158974_j47270410060055_2_alg».proof.Proof.FrameAtIdeal
import proofs.«158974_j47270410060055_2_alg».proof.Proof.OperandsIdeal
import proofs.«158974_j47270410060055_2_alg».proof.Proof.SpecBridge
import Idealize.ShloMosaic.Lib.Pipeline.Value

/-!
# The kernel's result array

Point `t` of the grid is batch `t`.  Its output block is, frame by frame, the frame function of the operands as
the body holds them; those operands are what the specification's frame needs — the stacked weights' two bands are
`W₁ + W₃` and `W₂ − W₃`, the node weights and the two bias columns are the arguments', the feature slab is frame
`f` of batch `t` and the adjacency slice is slice `s f` of batch `t` — so the block is the specified array read
through the block's rectangle.  The eight blocks tile the output array (one per batch), so the array ends holding
the specified function of the six argument arrays.
-/

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx Idealize.SL.Sem
open Idealize.ShloMosaic.Pipeline (Dat Cfg Window)

variable (m : (ℓ : Loc nD τ sig) → Buf (Elt Ideal) ℓ) (ρ : Dev nD → PrngReg)

/-- The specified result of core `c`'s six argument arrays. -/
def result (c : Dev nD) : S8x128x16x512.Idx → EReal :=
  Cert.Spec.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- A cast of an array to its own shape changes no entry. -/
theorem cast_same {s : Shape} {α : Type} (x : s.Idx → α) (h : s.ShapeCasts s) (i : s.Idx) : shapeCast s x h i = x i :=
  congrFun (shapeCast_self x h) i

/-! ## The four small operands as the body holds them at a point -/

/-- The stacked weights: a change of float format and a cast to the same shape change no entry. -/
theorem wsd_at (c : Dev nD) (t : Fin cfg0.N) (i : S256x128.Idx) : (kernelRun.sl.r c (ms2 t) (hs2 t) (iblk m c 2 t)) i = V m c main_v5 i := by
  rw [opnd_wsd]
  unfold k0_pay2
  refine Eq.trans ?_ (iblk2_apply m c t i)
  show (shapeCast S256x128 (iblk m c 2 t) shapeCasts_S256x128_S256x128) i = _
  exact cast_same (s := S256x128) _ shapeCasts_S256x128_S256x128 i

theorem wn_at (c : Dev nD) (t : Fin cfg0.N) (i : S128x128.Idx) : (kernelRun.sl.r_1 c (ms3 t) (hs3 t) (iblk m c 3 t)) i = m ((c : Thread nD τ).loc main_arg4) i := by
  rw [opnd_wn]
  unfold k0_pay3
  exact iblk3_apply m c t i

theorem bD_at (c : Dev nD) (t : Fin cfg0.N) (i : S128x1.Idx) : (kernelRun.sl.r_2 c (ms4 t) (hs4 t) (iblk m c 4 t)) i = V m c main_v6 i := by
  rw [opnd_bD]
  unfold k0_pay4
  refine Eq.trans ?_ (iblk4_apply m c t i)
  exact cast_same (s := S128x1) _ shapeCasts_S128x1_S128x1 i

theorem bN_at (c : Dev nD) (t : Fin cfg0.N) (i : S128x1.Idx) : (kernelRun.sl.r_3 c (ms5 t) (hs5 t) (iblk m c 5 t)) i = V m c main_v7 i := by
  rw [opnd_bN]
  unfold k0_pay5
  refine Eq.trans ?_ (iblk5_apply m c t i)
  exact cast_same (s := S128x1) _ shapeCasts_S128x1_S128x1 i

/-- The adjacency slice a frame reads, as an index of the sixteen slices of `Y`. -/
theorem sel_eq (f : Fin 16) : (⟨(selF f).val, by have := (selF f).isLt; omega⟩ : Fin 16) = Cert.Spec.ysel f := by
  unfold selF Cert.Spec.ysel
  split_ifs <;> rfl

/-! ## One entry of a point's output block -/

/-- Entry `(o, f, v)` of the block point `t` leaves is entry `(t, o, f, v)` of the specified array. -/
theorem block_at (c : Dev nD) (t : Fin cfg0.N) (o : Fin 128) (f : Fin 16) (v : Fin 512) :
    blockOut (kernelRun.sl.r c (ms2 t) (hs2 t) (iblk m c 2 t)) (kernelRun.sl.r_1 c (ms3 t) (hs3 t) (iblk m c 3 t)) (kernelRun.sl.r_2 c (ms4 t) (hs4 t) (iblk m c 4 t)) (kernelRun.sl.r_3 c (ms5 t) (hs5 t) (iblk m c 5 t)) (iblk m c 0 t) (yblk m c t) (ix4 (0 : Fin 1) o f v)
      = result m c (ix4 (pt t) o f v) := by
  unfold blockOut result
  show frameOut (F := Ideal) (kernelRun.sl.r c (ms2 t) (hs2 t) (iblk m c 2 t)) (kernelRun.sl.r_1 c (ms3 t) (hs3 t) (iblk m c 3 t)) (kernelRun.sl.r_2 c (ms4 t) (hs4 t) (iblk m c 4 t)) (kernelRun.sl.r_3 c (ms5 t) (hs5 t) (iblk m c 5 t)) (slabX (iblk m c 0 t) f) (sliceY (yblk m c t) (selF f))
    (ix4 (0 : Fin 1) o (0 : Fin 1) v) = _
  refine (frameOut_apply _ _ _ _ _ _ o v).trans ?_
  refine Cert.Spec.fOut_eq_out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) _ _ _ _ _ _ (pt t) f
    (fun r k => ?_) (fun r k => ?_) (fun a b => ?_) (fun a => ?_) (fun a => ?_) (fun k u => ?_) (fun u w => ?_) o v
  · rw [wsd_at, V_wsd]; exact stackedW_lo _ r k
  · rw [wsd_at, V_wsd]; exact stackedW_hi _ r k
  · exact wn_at m c t (ix2 a b)
  · rw [bD_at]; exact V_bD m c a
  · rw [bN_at]; exact V_bN m c a
  · exact iblk0_apply m c t (ix4 (0 : Fin 1) k f u)
  · refine (yblk_apply m c t (ix4 (0 : Fin 1) (selF f) u w)).trans ?_
    exact congrArg (fun s => m ((c : Thread nD τ).loc main_arg0) (ix4 (pt t) s u w)) (sel_eq f)

/-! ## The blocks, the array, the run -/

/-- What point `t` writes back is the specified array read through the point's block. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after6, outAt_eq]
  funext y
  obtain ⟨a, o, f, v, rfl⟩ : ∃ (a : Fin 1) (o : Fin 128) (f : Fin 16) (v : Fin 512), y = ix4 a o f v :=
    ⟨y 0, y 1, y 2, y 3, eq_ix4 y⟩
  obtain rfl : a = 0 := Subsingleton.elim _ _
  show blockOut (kernelRun.sl.r c (ms2 t) (hs2 t) (iblk m c 2 t)) (kernelRun.sl.r_1 c (ms3 t) (hs3 t) (iblk m c 3 t)) (kernelRun.sl.r_2 c (ms4 t) (hs4 t) (iblk m c 4 t)) (kernelRun.sl.r_3 c (ms5 t) (hs5 t) (iblk m c 5 t)) (iblk m c 0 t) (yblk m c t) (ix4 (0 : Fin 1) o f v)
    = result m c (((cfg0.win 6).blk t).view.emb (ix4 (0 : Fin 1) o f v))
  rw [oblk_emb]
  exact block_at m c t o f v

/-- The eight blocks tile the output array, so it ends holding the specified array. -/
theorem final (c : Dev nD) : (dats m 0 c).arrAt 6 cfg0.N = result m c :=
  (dats m 0 c).arrAt_eq_of_cover 6 (result m c) (fun t _ => flushed_eq m c t) (fun i => out_cover i)

/-- Every weakly fair execution of the program terminates with the output array at the specified function of
    the six argument arrays, and those arrays unchanged. -/
theorem run : θ_run defs (onTc (τ := τ) (main (F := Ideal))) ⟨m, fun _ => 0, ρ⟩ (fun r => ∀ c : Dev nD,
      r.2.mem ((c.tc : Thread nD τ).loc main_v8) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final m c),
      ((h c).1 1).trans (((dats m 0 c).arrAt_in 1 rfl _).trans ((A_eq m c 1).trans (V_main_arg0 m c))),
      ((h c).1 0).trans (((dats m 0 c).arrAt_in 0 rfl _).trans ((A_eq m c 0).trans (V_main_arg1 m c))),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c))),
      ((h c).2 main_arg5 (Pipeline.mem_restRefs_of main_arg5 (by decide) (by decide))).trans (V_main_arg5 m c)⟩)
    (run_main m ρ)

end Cert.KernelIdeal.Body

end
-- ==== Proof.RefIndex.lean ====
import proofs.«158974_j47270410060055_2_alg».proof.Proof.Gen.ReferenceIdeal.Read
import proofs.«158974_j47270410060055_2_alg».proof.Proof.Spec
import Idealize.ShloMosaic.Lib.ValueIdx

/-!
# The reference's slice selector

For each of the sixteen frames the reference picks a slice of `Y` by integer arithmetic on the frame number `f`:
`0` where `f = 0`, otherwise `1` where `f ≤ 11`, otherwise `2`. It then adds `16` to a negative choice (no choice
is negative, so nothing moves) and passes the sixteen words, as a column, to the gather that reads `Y`.

This file evaluates that arithmetic once and for all. The statements are about sixteen closed cases each, so they are
decided by computation on the words; the only work is to bring the reference's stages to those words, one stage at a
time, outermost first. The result: row `f` of the column holds the word of `Cert.Spec.ysel f`, and that word read as a
signed integer and clamped into the sixteen positions of the axis is `ysel f` itself.
-/

noncomputable section

namespace Cert.ReferenceIdeal.RefValue

open Cert.ReferenceIdeal Cert.ReferenceIdeal.Read Idealize.ShloMosaic Idealize.ShloMosaic.ValueIdx

/-- The word the two nested selects leave at frame `f`, before the wrap of a negative index. -/
def frameWord (f : Fin 16) : BitVec 32 :=
  Scalar.select (IntOp.cmpi .eq (BitVec.ofNat 32 f.val) 0#32) 0#32
    (Scalar.select (IntOp.cmpi .sle (BitVec.ofNat 32 f.val) 11#32) 1#32 2#32)

/-- It is the word of the slice the specification names. -/
theorem frameWord_eq : ∀ f : Fin 16, frameWord f = BitVec.ofNat 32 (Cert.Spec.ysel f).val := by decide

/-- No choice is negative: the wrap `if w < 0 then w + 16 else w` leaves every one of them alone. -/
theorem wrap_frameWord : ∀ f : Fin 16,
    Scalar.select (IntOp.cmpi .slt (frameWord f) 0#32) (IntOp.addi (frameWord f) 16#32) (frameWord f) = frameWord f := by
  decide

/-- The word of `ysel f`, read as a signed integer and clamped into `[0, 15]`, is `ysel f`. -/
theorem clamp_ysel : ∀ f : Fin 16,
    min (BitVec.ofNat 32 (Cert.Spec.ysel f).val).toInt.toNat (16 - 1) = (Cert.Spec.ysel f).val := by
  decide

variable {F : FTy → Type} [FloatOps F]

/-- The selector after the wrap, at frame `i 0`: compare, select twice, compare with zero, add sixteen, select. -/
theorem sel_word (i : S16.Idx) :
    val_main_v11 (F := F) i = BitVec.ofNat 32 (Cert.Spec.ysel (i 0)).val := by
  simp only [val_main_v11_apply, val_main_v8_apply, val_main_v10_apply, val_main_v6_apply, val_main_v7_apply,
    val_main_v9_apply, val_main_v2_apply, val_main_v5_apply, val_main_v4_apply, val_main_v0_apply, val_main_v1_apply,
    val_main_v3_apply, val_main_call0_v0_apply, val_main_call0_v1_apply, val_main_call1_v0_apply,
    val_main_c_apply, val_main_c_0_apply, val_main_c_1_apply, val_main_c_2_apply, val_main_c_3_apply,
    val_main_c_4_apply, val_main_c_5_apply]
  exact (wrap_frameWord (i 0)).trans (frameWord_eq (i 0))

/-- The column of start indices the gather receives: row `f` holds the word of `ysel f`. -/
theorem start_word (f : Fin 16) :
    val_main_v12 (F := F) (ix2 f (0 : Fin 1)) = BitVec.ofNat 32 (Cert.Spec.ysel f).val := by
  rw [val_main_v12_apply]
  exact sel_word (idx_main_v12 (ix2 f (0 : Fin 1)))

/-- So the position the gather reads on the slice axis, for frame `f`, is `ysel f`. -/
theorem start_pos (f : Fin 16) :
    min (val_main_v12 (F := F) (ix2 f (0 : Fin 1))).toInt.toNat (16 - 1) = (Cert.Spec.ysel f).val := by
  rw [start_word]
  exact clamp_ysel f

end Cert.ReferenceIdeal.RefValue

end
-- ==== Proof.RefMask.lean ====
import proofs.«158974_j47270410060055_2_alg».proof.Proof.RefIndex
import Idealize.ShloMosaic.PureOps.Ideal.Laws

/-!
# The reference's adjacency mask and in-degree

The reference gathers from `Y`, for every frame `f`, the slice its selector names, compares the gathered array with
zero, and converts the one-bit answers to numbers: that array is the adjacency mask. Summing the mask over the source
node and taking the maximum with one gives the in-degree.

* `gather_apply`: the gather read at an index. Its dimension numbers say: the result's axes `0, 2, 3` are the
  operand's own, and the result's axis `1` runs over the rows of the start-index column, each row naming a position on
  the operand's axis `1` (read as a signed integer and clamped into the axis). So the result at `(b, f, u, v)` is the
  operand at `(b, p f, u, v)`, with `p f` the clamped start index of row `f`.
* `gathered_apply`: with the selector evaluated (`start_pos`), `p f = ysel f`.
* `mask_apply`: "differs from zero", as a number, is the indicator `Cert.Spec.ind`; so the mask stage is `Cert.Spec.mask`.
* `deg_apply`: the reference's degree, broadcast along the channel axis, is `Cert.Spec.deg`: the sum starts from the
  word of `0`, and the word `0x3F800000` is `1`.
-/

noncomputable section

namespace Cert.ReferenceIdeal.RefValue

open Cert.ReferenceIdeal Cert.ReferenceIdeal.Read Idealize.ShloMosaic Idealize.ShloMosaic.ValueIdx

/-! ## The gather at an index -/

/-- The gather's dimension numbers. -/
abbrev gd : GatherDims S8x16x512x512 S16x1 S8x16x512x512 :=
  gather_S8x16x512x512_S16x1_S8x16x512x512_023_1_n_n_1_1_81512512

section Gather
variable (j : S8x16x512x512.Idx) (idx : IVec S16x1 32)

/-- On the operand's axes `0`, `2` and `3` the gather reads at the result's own coordinate: no start index names the
    axis, it is not a batching axis, and the result's offset axis in its position carries the coordinate … -/
theorem operand_0 : (gd.operandIdx j idx 0).val = (j 0).val := by
  show gd.start j idx 0 + gd.batchCoord j 0 + gd.offCoord j 0 = _
  rw [GatherDims.batchCoord_eq_zero _ _ _ List.not_mem_nil, Nat.add_zero]
  unfold GatherDims.start GatherDims.offCoord
  rw [dif_neg (by decide), dif_pos (by decide), Nat.zero_add]
  rfl
theorem operand_2 : (gd.operandIdx j idx 2).val = (j 2).val := by
  show gd.start j idx 2 + gd.batchCoord j 2 + gd.offCoord j 2 = _
  rw [GatherDims.batchCoord_eq_zero _ _ _ List.not_mem_nil, Nat.add_zero]
  unfold GatherDims.start GatherDims.offCoord
  rw [dif_neg (by decide), dif_pos (by decide), Nat.zero_add]
  rfl
theorem operand_3 : (gd.operandIdx j idx 3).val = (j 3).val := by
  show gd.start j idx 3 + gd.batchCoord j 3 + gd.offCoord j 3 = _
  rw [GatherDims.batchCoord_eq_zero _ _ _ List.not_mem_nil, Nat.add_zero]
  unfold GatherDims.start GatherDims.offCoord
  rw [dif_neg (by decide), dif_pos (by decide), Nat.zero_add]
  rfl
/-- … and on axis `1`, the collapsed one, at the start index of the result's row `j 1`, read signed and clamped into
    the axis: the slice is one position wide there, so the clamp is to `[0, 16 - 1]`. -/
theorem operand_1 : (gd.operandIdx j idx 1).val = min (idx (ix2 (j 1) (0 : Fin 1))).toInt.toNat (16 - 1) := by
  show gd.start j idx 1 + gd.batchCoord j 1 + gd.offCoord j 1 = _
  rw [GatherDims.batchCoord_eq_zero _ _ _ List.not_mem_nil, Nat.add_zero]
  unfold GatherDims.start GatherDims.offCoord
  rw [dif_pos (by decide), dif_neg (by decide), Nat.add_zero]
  have hsi : gd.siIdx j ⟨List.idxOf (1 : Fin S8x16x512x512.rank) gd.startIndexMap,
      List.idxOf_lt_length_iff.2 (by decide)⟩ = ix2 (j 1) (0 : Fin 1) := by
    funext b; refine Fin.ext ?_
    match b with
    | ⟨0, _⟩ => rfl
    | ⟨1, _⟩ => rfl
  rw [hsi]
  rfl

end Gather

/-- THE GATHER READ AT AN INDEX, for any operand and any column of start indices. -/
theorem gather_apply {α : Type} (Y : S8x16x512x512.Idx → α) (idx : IVec S16x1 32) (j : S8x16x512x512.Idx) :
    Host.gather gd Y idx j
      = Y (ix4 (j 0) (⟨min (idx (ix2 (j 1) (0 : Fin 1))).toInt.toNat (16 - 1), by omega⟩ : Fin 16) (j 2) (j 3)) := by
  unfold Host.gather
  refine congrArg Y (funext fun a => Fin.ext ?_)
  match a with
  | ⟨0, _⟩ => exact operand_0 j idx
  | ⟨1, _⟩ => exact operand_1 j idx
  | ⟨2, _⟩ => exact operand_2 j idx
  | ⟨3, _⟩ => exact operand_3 j idx

/-- The gathered array: its frame `f` is slice `ysel f` of `Y`. -/
theorem gathered_apply {F : FTy → Type} [FloatOps F] (Y : (⟨S8x16x512x512, .f32⟩ : BufTy).Contents (Elt F))
    (j : S8x16x512x512.Idx) :
    val_main_v13 (F := F) Y j = Y (ix4 (j 0) (Cert.Spec.ysel (j 1)) (j 2) (j 3)) := by
  unfold val_main_v13
  rw [gather_apply]
  exact congrArg (fun p : Fin 16 => Y (ix4 (j 0) p (j 2) (j 3))) (Fin.ext (start_pos (j 1)))

/-! ## The mask -/

/-- "Differs from zero", converted to a number, is the indicator of a nonzero entry. -/
theorem ind_word (y : EReal) :
    FloatOps.uitofp (F := Ideal) .f32
        (FloatOps.cmpf (F := Ideal) (φ := .f32) .une y (FloatOps.ofBits (F := Ideal) .f32 0x00000000#32))
      = Cert.Spec.ind y := by
  rw [Ideal.ofBits_def, Ideal.ofBits_zero_f32]
  show (((Ideal.cmp .une y 0).toNat : ℝ) : EReal) = Cert.Spec.ind y
  unfold Cert.Spec.ind Ideal.cmp
  by_cases h : y = 0
  · rw [if_pos h]; simp [h]
  · rw [if_neg h]; simp [h]

/-- The mask stage is the specification's mask. -/
theorem mask_apply (Y : (⟨S8x16x512x512, .f32⟩ : BufTy).Contents (Elt Ideal)) (j : S8x16x512x512.Idx) :
    val_main_v16 (F := Ideal) Y j = Cert.Spec.mask Y (j 0) (j 1) (j 2) (j 3) := by
  rw [val_main_v16_apply, val_main_v15_apply, val_main_v14_apply, val_main_cst_apply, gathered_apply]
  exact ind_word _

/-! ## The in-degree -/

/-- The word `0x3F800000` is one: sign `0`, exponent field `127`, fraction `0`. -/
theorem one_word : Ideal.ofBits .f32 0x3F800000#32 = 1 := by
  simp [Ideal.ofBits, Ideal.ieee, -EReal.coe_mul]; norm_num

/-- The degree stage, broadcast along the channel axis, is the specification's in-degree of node `i 2`. -/
theorem deg_apply (Y : (⟨S8x16x512x512, .f32⟩ : BufTy).Contents (Elt Ideal)) (i : S8x16x512x128.Idx) :
    val_main_v37 (F := Ideal) Y i = Cert.Spec.deg Y (i 0) (i 1) (i 2) := by
  rw [val_main_v37_apply, val_main_v31_apply, val_main_v30_apply, val_main_v28_apply, val_main_v29_apply,
    val_main_cst_6_apply, val_main_cst_7_apply, Ideal.ofBits_def, Ideal.ofBits_def, Ideal.ofBits_zero_f32, one_word,
    zero_add, Ideal.maximumf_def]
  refine congrArg (max · (1 : EReal)) (Finset.sum_congr rfl fun k _ => ?_)
  rw [mask_apply]
  rfl

end Cert.ReferenceIdeal.RefValue

end
-- ==== Proof.RefValue.lean ====
import proofs.«158974_j47270410060055_2_alg».proof.Proof.RefMask
import proofs.«158974_j47270410060055_2_alg».proof.Proof.Spec

/-!
# The reference computes the specified function

The remaining stages of the reference, each read at an index and identified with the specification's part of the same
name: the transposed features, the two combined weight matrices, the two gate projections, the two aggregates over
incoming edges, the mean message, and the node update. Every identification is the same two steps: read the stage at
the index (a contraction is a finite sum of products, a layout operation re-indexes), then reorder each product inside
the sum — the reference multiplies `feature · weight` and `mask · message` where the specification writes
`weight · feature` and `message · mask`. Multiplication of extended reals is commutative, so no finiteness is needed.

Two steps use more than commutativity. The quotient by the degree is the product with the inverse because the degree is
not zero (`Cert.Spec.deg_ne_zero`); and the reference applies `max · 0` twice where once suffices.
-/

noncomputable section

namespace Cert.ReferenceIdeal.RefValue

open Cert.ReferenceIdeal Cert.ReferenceIdeal.Read Idealize.ShloMosaic Idealize.ShloMosaic.ValueIdx

/-! ## Features and weights -/

/-- The features with the channel axis moved last: entry `(b, f, u, c)` is `X[b, c, f, u]`. -/
theorem feat_apply {F : FTy → Type} [FloatOps F] (X : (⟨S8x128x16x512, .f32⟩ : BufTy).Contents (Elt F))
    (i : S8x16x512x128.Idx) :
    val_main_v17 (F := F) X i = X (ix4 (i 0) (i 3) (i 1) (i 2)) := by
  rw [val_main_v17_apply]
  refine congrArg X (funext fun a => ?_)
  match a with
  | ⟨0, _⟩ => rfl
  | ⟨1, _⟩ => rfl
  | ⟨2, _⟩ => rfl
  | ⟨3, _⟩ => rfl

/-- The first third of `W_dense` plus the last: `W₁ + W₃`. -/
theorem wS_apply (Wd : (⟨S128x384, .f32⟩ : BufTy).Contents (Elt Ideal)) (i : S128x128.Idx) :
    val_main_v21 (F := Ideal) Wd i = Cert.Spec.wS Wd (i 0) (i 1) := by
  rw [val_main_v21_apply, val_main_v18_apply, val_main_v20_apply, Ideal.addf_def]
  unfold Cert.Spec.wS
  refine congrArg₂ (· + ·) ?_ ?_
  · refine congrArg Wd (funext fun a => ?_)
    match a with
    | ⟨0, _⟩ => rfl
    | ⟨1, _⟩ => rfl
  · refine congrArg Wd (funext fun a => ?_)
    match a with
    | ⟨0, _⟩ => rfl
    | ⟨1, _⟩ => exact Fin.ext (Nat.add_comm 256 (i 1).val)

/-- The middle third minus the last: `W₂ − W₃`. -/
theorem wD_apply (Wd : (⟨S128x384, .f32⟩ : BufTy).Contents (Elt Ideal)) (i : S128x128.Idx) :
    val_main_v23 (F := Ideal) Wd i = Cert.Spec.wD Wd (i 0) (i 1) := by
  rw [val_main_v23_apply, val_main_v19_apply, val_main_v20_apply, Ideal.subf_def]
  unfold Cert.Spec.wD
  refine congrArg₂ (· - ·) ?_ ?_
  · refine congrArg Wd (funext fun a => ?_)
    match a with
    | ⟨0, _⟩ => rfl
    | ⟨1, _⟩ => exact Fin.ext (Nat.add_comm 128 (i 1).val)
  · refine congrArg Wd (funext fun a => ?_)
    match a with
    | ⟨0, _⟩ => rfl
    | ⟨1, _⟩ => exact Fin.ext (Nat.add_comm 256 (i 1).val)

/-! ## The gate projections -/

variable (Y : (⟨S8x16x512x512, .f32⟩ : BufTy).Contents (Elt Ideal)) (X : (⟨S8x128x16x512, .f32⟩ : BufTy).Contents (Elt Ideal))
  (Wd : (⟨S128x384, .f32⟩ : BufTy).Contents (Elt Ideal)) (bd : (⟨S128, .f32⟩ : BufTy).Contents (Elt Ideal))
  (Wn : (⟨S128x128, .f32⟩ : BufTy).Contents (Elt Ideal)) (bn : (⟨S128, .f32⟩ : BufTy).Contents (Elt Ideal))

/-- `S`: entry `(b, f, u, c)` contracts node `u`'s features with row `c` of `W₁ + W₃`. -/
theorem projS_apply (i : S8x16x512x128.Idx) :
    val_main_v22 (F := Ideal) X Wd i = Cert.Spec.projS X Wd (i 0) (i 1) (i 3) (i 2) := by
  rw [val_main_v22_apply]
  unfold Cert.Spec.projS
  refine Finset.sum_congr rfl fun k _ => ?_
  rw [feat_apply, wS_apply, mul_comm]
  rfl

/-- `D`: the same with `W₂ − W₃`. -/
theorem projD_apply (i : S8x16x512x128.Idx) :
    val_main_v24 (F := Ideal) X Wd i = Cert.Spec.projD X Wd (i 0) (i 1) (i 3) (i 2) := by
  rw [val_main_v24_apply]
  unfold Cert.Spec.projD
  refine Finset.sum_congr rfl fun k _ => ?_
  rw [feat_apply, wD_apply, mul_comm]
  rfl

/-! ## The aggregates over incoming edges -/

/-- `A₁`: entry `(b, f, v, c)` sums `X[u, c] · S[u, c]` over the sources `u` of edges into `v`. -/
theorem agg1_apply (i : S8x16x512x128.Idx) :
    val_main_v26 (F := Ideal) Y X Wd i = Cert.Spec.agg1 Y X Wd (i 0) (i 1) (i 3) (i 2) := by
  rw [val_main_v26_apply]
  unfold Cert.Spec.agg1
  refine Finset.sum_congr rfl fun u _ => ?_
  rw [mask_apply, val_main_v25_apply, Ideal.mulf_def, feat_apply, projS_apply, mul_comm]
  rfl

/-- `A₂`: entry `(b, f, v, c)` sums `X[u, c]` over the same sources. -/
theorem agg2_apply (i : S8x16x512x128.Idx) :
    val_main_v27 (F := Ideal) Y X i = Cert.Spec.agg2 Y X (i 0) (i 1) (i 3) (i 2) := by
  rw [val_main_v27_apply]
  unfold Cert.Spec.agg2
  refine Finset.sum_congr rfl fun u _ => ?_
  rw [mask_apply, feat_apply, mul_comm]
  rfl

/-! ## The mean message and the node update -/

/-- The dense bias, broadcast to every batch, frame and node. -/
theorem bd_apply {F : FTy → Type} [FloatOps F] (bd : (⟨S128, .f32⟩ : BufTy).Contents (Elt F)) (i : S8x16x512x128.Idx) :
    val_main_v33 (F := F) bd i = bd (ix1 (i 3)) := by
  rw [val_main_v33_apply, val_main_v32_apply]
  refine congrArg bd (funext fun a => ?_)
  match a with
  | ⟨0, _⟩ => rfl

/-- The node bias, broadcast likewise. -/
theorem bn_apply {F : FTy → Type} [FloatOps F] (bn : (⟨S128, .f32⟩ : BufTy).Contents (Elt F)) (i : S8x16x512x128.Idx) :
    val_main_v41 (F := F) bn i = bn (ix1 (i 3)) := by
  rw [val_main_v41_apply, val_main_v40_apply]
  refine congrArg bn (funext fun a => ?_)
  match a with
  | ⟨0, _⟩ => rfl

/-- The mean message: the quotient by the in-degree is the product with its inverse, the degree being nonzero. -/
theorem agg_apply (i : S8x16x512x128.Idx) :
    val_main_v38 (F := Ideal) Y X Wd bd i = Cert.Spec.agg Y X Wd bd (i 0) (i 1) (i 3) (i 2) := by
  rw [val_main_v38_apply, Ideal.hostDivf_def, val_main_v36_apply, Ideal.addf_def, val_main_v35_apply, Ideal.mulf_def,
    val_main_v34_apply, Ideal.addf_def, agg1_apply, agg2_apply, projD_apply, bd_apply, deg_apply]
  unfold Cert.Spec.agg Ideal.div
  rw [if_neg (Cert.Spec.deg_ne_zero Y (i 0) (i 1) (i 2))]

/-- A rectifier applied twice is the rectifier. -/
theorem max_zero_twice (a : EReal) : max (max a 0) 0 = max a 0 := max_eq_left (le_max_right a 0)

/-- THE REFERENCE'S RESULT is the specified array. -/
theorem ref_eq
    (Y : (⟨S8x16x512x512, .f32⟩ : BufTy).Contents (Elt Ideal)) (X : (⟨S8x128x16x512, .f32⟩ : BufTy).Contents (Elt Ideal))
    (Wd : (⟨S128x384, .f32⟩ : BufTy).Contents (Elt Ideal)) (bd : (⟨S128, .f32⟩ : BufTy).Contents (Elt Ideal))
    (Wn : (⟨S128x128, .f32⟩ : BufTy).Contents (Elt Ideal)) (bn : (⟨S128, .f32⟩ : BufTy).Contents (Elt Ideal)) :
    Cert.ReferenceIdeal.Read.val_main_v45 (F := Ideal) Y X Wd bd Wn bn = Cert.Spec.out Y X Wd bd Wn bn := by
  funext j
  rw [val_main_v45_apply, val_main_call3_v0_apply, val_main_call3_cst_apply, val_main_v44_apply, val_main_v43_apply,
    val_main_call2_v0_apply, val_main_call2_cst_apply, Ideal.ofBits_def, Ideal.ofBits_zero_f32, Ideal.maximumf_def,
    Ideal.maximumf_def, max_zero_twice, val_main_v42_apply, Ideal.addf_def, val_main_v39_apply, bn_apply]
  unfold Cert.Spec.out
  refine congrArg (max · (0 : EReal)) (congrArg₂ (· + ·) (Finset.sum_congr rfl fun c _ => ?_) rfl)
  rw [agg_apply, mul_comm]
  refine congrArg₂ (· * ·) (congrArg Wn (funext fun a => ?_)) rfl
  match a with
  | ⟨0, _⟩ => rfl
  | ⟨1, _⟩ => rfl

end Cert.ReferenceIdeal.RefValue

end
-- ==== Proof.lean ====
/-
  A graph convolution over a batch of frames: the kernel against its array reference.

  For batch `b`, frame `f` and node `v`, with `X[c, u]` the features of node `u` and `M[u, v]` the indicator that
  `Y[b, s f, u, v]` is not zero (frame `f` reads slice `s f` of `Y`: `0` for the first frame, `1` up to frame `11`,
  `2` after), both programs compute

      out[b, o, f, v] = max (∑ c, W_node[o, c] · agg[c, v] + b_node[o]) 0,
      agg[c, v] = (A₁[c, v] + A₂[c, v] · (D[c, v] + b_dense[c])) / deg v,
      A₁[c, v] = ∑ u, (X[c, u] · S[c, u]) · M[u, v],   A₂[c, v] = ∑ u, X[c, u] · M[u, v],
      S = (W₁ + W₃) X,   D = (W₂ − W₃) X,   deg v = max (∑ u, M[u, v]) 1,

  where `W₁, W₂, W₃` are the three thirds of `W_dense`.  The kernel works one batch per grid point: it stacks the two
  projections into one product and the two aggregates into another, computes the three masks and inverse degrees
  of a batch once, and multiplies by `1 / deg` where the reference divides by `deg`.  On the extended reals these are
  the same numbers: a stacked product is its two bands; products commute; and the degree is at least one, so it is
  not zero and the quotient by it is the product with its inverse.  No step uses that the inputs are finite.

  The three frames: each program runs to the end, faults nowhere and leaves its six argument arrays as they were.
  The idealization rewrote no operation, so there is nothing to preserve.  The value claim: both result arrays end
  holding the function above of the six argument arrays.
-/
import proofs.«158974_j47270410060055_2_alg».proof.Defs
import proofs.«158974_j47270410060055_2_alg».proof.Proof.Gen.Kernel
import proofs.«158974_j47270410060055_2_alg».proof.Proof.Gen.KernelIdeal
import proofs.«158974_j47270410060055_2_alg».proof.Proof.Gen.ReferenceIdeal
import proofs.«158974_j47270410060055_2_alg».proof.Proof.Gen.Pre_finite_inputs
import proofs.«158974_j47270410060055_2_alg».proof.Proof.Gen.ReferenceIdeal.Run
import proofs.«158974_j47270410060055_2_alg».proof.Proof.Gen.ReferenceIdeal.Read
import proofs.«158974_j47270410060055_2_alg».proof.Proof.RunBits
import proofs.«158974_j47270410060055_2_alg».proof.Proof.RunIdeal
import proofs.«158974_j47270410060055_2_alg».proof.Proof.ValueIdeal
import proofs.«158974_j47270410060055_2_alg».proof.Proof.RefValue
import Idealize.ShloMosaic.Adequacy
import Idealize.ShloMosaic.Init

noncomputable section

namespace Cert.Proof

open Idealize.ShloMosaic Idealize.SL.Sem

/-- The kernel, word by word, runs and keeps its arguments. -/
theorem frame_kernel : Cert.frame_Kernel := fun m ρ _ => Cert.Kernel.Body.frame m ρ

/-- So does its reading over the extended reals. -/
theorem frame_ideal : Cert.frame_KernelIdeal := fun m ρ _ => Cert.KernelIdeal.Body.frame m ρ

/-- The reference is a straight line of array operations: it runs, and none of them writes an argument. -/
theorem frame_reference : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- Both result arrays end at the specified function of the arguments, and the arguments agree. -/
theorem algebraic : Cert.algebraic_KernelIdeal_ReferenceIdeal := by
  intro m ρ m' ρ' _ hagree
  refine ⟨fun c => Cert.KernelIdeal.Body.result m c, Cert.KernelIdeal.Body.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.ReferenceIdeal.RefValue.ref_eq]
  unfold Cert.KernelIdeal.Body.result
  rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
